-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000x128 : Shape := ⟨2, ![625000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S625000x128 .f32) (main_arg2 : IVec S625000 32) (main_arg3 : IVec S625000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S625000x128 : Shape := ⟨2, ![625000, 128]⟩
abbrev S625000 : Shape := ⟨1, ![625000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S1688 : Shape := ⟨1, ![1688]⟩
abbrev S626688 : Shape := ⟨1, ![626688]⟩
abbrev S1688x128 : Shape := ⟨2, ![1688, 128]⟩
abbrev S626688x128 : Shape := ⟨2, ![626688, 128]⟩
abbrev S626688x1 : Shape := ⟨2, ![626688, 1]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S8x128 : Shape := ⟨2, ![8, 128]⟩
abbrev S626688x8 : Shape := ⟨2, ![626688, 8]⟩
abbrev S2048x128 : Shape := ⟨2, ![2048, 128]⟩
abbrev S2048x8 : Shape := ⟨2, ![2048, 8]⟩
abbrev S50000x8x16 : Shape := ⟨3, ![50000, 8, 16]⟩
abbrev S50000x8 : Shape := ⟨2, ![50000, 8]⟩
abbrev S50000x8x1 : Shape := ⟨3, ![50000, 8, 1]⟩
abbrev S625000x8x16 : Shape := ⟨3, ![625000, 8, 16]⟩

abbrev nBuf : Space → Nat
  | .hbm => 102
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S625000x128, .f32⟩
  | .hbm, ⟨2, _⟩ => ⟨S625000, .i32⟩
  | .hbm, ⟨3, _⟩ => ⟨S625000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S50000x128, .bf16⟩
  | .hbm, ⟨17, _⟩ => ⟨S50000x128, .bf16⟩
  | .hbm, ⟨18, _⟩ => ⟨S50000x128, .bf16⟩
  | .hbm, ⟨19, _⟩ => ⟨S_, .i32⟩
  | .hbm, ⟨20, _⟩ => ⟨S1688, .i32⟩
  | .hbm, ⟨21, _⟩ => ⟨S626688, .i32⟩
  | .hbm, ⟨22, _⟩ => ⟨S_, .i32⟩
  | .hbm, ⟨23, _⟩ => ⟨S1688, .i32⟩
  | .hbm, ⟨24, _⟩ => ⟨S626688, .i32⟩
  | .hbm, ⟨25, _⟩ => ⟨S_, .f32⟩
  | .hbm, ⟨26, _⟩ => ⟨S1688x128, .f32⟩
  | .hbm, ⟨27, _⟩ => ⟨S626688x128, .f32⟩
  | .hbm, ⟨28, _⟩ => ⟨S_, .i32⟩
  | .hbm, ⟨29, _⟩ => ⟨S626688, .i32⟩
  | .hbm, ⟨30, _⟩ => ⟨S626688, .i1⟩
  | .hbm, ⟨31, _⟩ => ⟨S_, .i32⟩
  | .hbm, ⟨32, _⟩ => ⟨S626688, .i32⟩
  | .hbm, ⟨33, _⟩ => ⟨S626688, .i32⟩
  | .hbm, ⟨34, _⟩ => ⟨S626688, .i32⟩
  | .hbm, ⟨35, _⟩ => ⟨S626688x1, .i32⟩
  | .hbm, ⟨36, _⟩ => ⟨S626688x128, .bf16⟩
  | .hbm, ⟨37, _⟩ => ⟨S_, .i32⟩
  | .hbm, ⟨38, _⟩ => ⟨S626688, .i32⟩
  | .hbm, ⟨39, _⟩ => ⟨S626688, .i1⟩
  | .hbm, ⟨40, _⟩ => ⟨S_, .i32⟩
  | .hbm, ⟨41, _⟩ => ⟨S626688, .i32⟩
  | .hbm, ⟨42, _⟩ => ⟨S626688, .i32⟩
  | .hbm, ⟨43, _⟩ => ⟨S626688, .i32⟩
  | .hbm, ⟨44, _⟩ => ⟨S626688x1, .i32⟩
  | .hbm, ⟨45, _⟩ => ⟨S626688x128, .bf16⟩
  | .hbm, ⟨46, _⟩ => ⟨S_, .i32⟩
  | .hbm, ⟨47, _⟩ => ⟨S626688, .i32⟩
  | .hbm, ⟨48, _⟩ => ⟨S626688, .i1⟩
  | .hbm, ⟨49, _⟩ => ⟨S_, .i32⟩
  | .hbm, ⟨50, _⟩ => ⟨S626688, .i32⟩
  | .hbm, ⟨51, _⟩ => ⟨S626688, .i32⟩
  | .hbm, ⟨52, _⟩ => ⟨S626688, .i32⟩
  | .hbm, ⟨53, _⟩ => ⟨S626688x1, .i32⟩
  | .hbm, ⟨54, _⟩ => ⟨S626688x128, .bf16⟩
  | .hbm, ⟨55, _⟩ => ⟨S128, .i32⟩
  | .hbm, ⟨56, _⟩ => ⟨S128x1, .i32⟩
  | .hbm, ⟨57, _⟩ => ⟨S_, .i32⟩
  | .hbm, ⟨58, _⟩ => ⟨S_, .i32⟩
  | .hbm, ⟨59, _⟩ => ⟨S128x1, .i32⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S128x1, .i1⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x1, .i32⟩
  | .hbm, ⟨75, _⟩ => ⟨S8, .i32⟩
  | .hbm, ⟨76, _⟩ => ⟨S1x8, .i32⟩
  | .hbm, ⟨77, _⟩ => ⟨S128x8, .i32⟩
  | .hbm, ⟨78, _⟩ => ⟨S128x8, .i32⟩
  | .hbm, ⟨79, _⟩ => ⟨S128x8, .i1⟩
  | .hbm, ⟨80, _⟩ => ⟨S128x8, .f32⟩
  | .hbm, ⟨81, _⟩ => ⟨S8x128, .f32⟩
  | .hbm, ⟨82, _⟩ => ⟨S626688x128, .f32⟩
  | .hbm, ⟨83, _⟩ => ⟨S626688x128, .f32⟩
  | .hbm, ⟨84, _⟩ => ⟨S626688x8, .f32⟩
  | .hbm, ⟨85, _⟩ => ⟨S_, .f32⟩
  | .hbm, ⟨86, _⟩ => ⟨S50000x128, .f32⟩
  | .hbm, ⟨87, _⟩ => ⟨S626688x1, .i32⟩
  | .hbm, ⟨88, _⟩ => ⟨S50000x128, .f32⟩
  | .hbm, ⟨89, _⟩ => ⟨S50000x8x16, .f32⟩
  | .hbm, ⟨90, _⟩ => ⟨S_, .f32⟩
  | .hbm, ⟨91, _⟩ => ⟨S50000x8, .f32⟩
  | .hbm, ⟨92, _⟩ => ⟨S626688x1, .i32⟩
  | .hbm, ⟨93, _⟩ => ⟨S50000x8, .f32⟩
  | .hbm, ⟨94, _⟩ => ⟨S50000x8x1, .f32⟩
  | .hbm, ⟨95, _⟩ => ⟨S_, .f32⟩
  | .hbm, ⟨96, _⟩ => ⟨S50000x8x1, .f32⟩
  | .hbm, ⟨97, _⟩ => ⟨S50000x8x1, .f32⟩
  | .hbm, ⟨98, _⟩ => ⟨S50000x8x16, .f32⟩
  | .hbm, ⟨99, _⟩ => ⟨S50000x8x16, .f32⟩
  | .hbm, ⟨100, _⟩ => ⟨S625000x128, .f32⟩
  | .hbm, ⟨101, _⟩ => ⟨S625000x8x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S128x128, .f32⟩
  | .local _ .vmem, ⟨23, _⟩ => ⟨S1x128, .f32⟩
  | .local _ .vmem, ⟨24, _⟩ => ⟨S128x8, .f32⟩
  | .local _ .vmem, ⟨25, _⟩ => ⟨S8x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x8, .f32⟩
  | .local _ .vmem, ⟨31, _⟩ => ⟨S2048x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42_0 : Ref sig .tc := ⟨.hbm, 82, rfl⟩
abbrev main_v42_1 : Ref sig .tc := ⟨.hbm, 83, rfl⟩
abbrev main_v42_2 : Ref sig .tc := ⟨.hbm, 84, rfl⟩
abbrev main_cst_8 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_9 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![306], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S1688 : S_.BroadcastsInDim S1688 (![] : Fin 0 → Fin S1688.rank)
  concatenates_S625000_S1688_S626688_d0 : Shape.Concatenates [S625000, S1688] S626688 0
  bcast_S_S1688x128 : S_.BroadcastsInDim S1688x128 (![] : Fin 0 → Fin S1688x128.rank)
  concatenates_S625000x128_S1688x128_S626688x128_d0 : Shape.Concatenates [S625000x128, S1688x128] S626688x128 0
  bcast_S_S626688 : S_.BroadcastsInDim S626688 (![] : Fin 0 → Fin S626688.rank)
  bcast_S626688_S626688x1_0 : S626688.BroadcastsInDim S626688x1 (![0] : Fin 1 → Fin S626688x1.rank)
  bcast_S128_S128x1_0 : S128.BroadcastsInDim S128x1 (![0] : Fin 1 → Fin S128x1.rank)
  bcast_S_S128x1 : S_.BroadcastsInDim S128x1 (![] : Fin 0 → Fin S128x1.rank)
  bcast_S8_S1x8_1 : S8.BroadcastsInDim S1x8 (![1] : Fin 1 → Fin S1x8.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  transposes_S128x8_S8x128_1_0 : S128x8.Transposes [1, 0] S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x8_S2048x8_0_0 : ∀ a, (![0, 0] : Fin 2 → Nat) a + S2048x8.size a ≤ S2048x8.size a
  h_S2048x8 : 0 < S2048x8.numel
  bcast_S_S50000x128 : S_.BroadcastsInDim S50000x128 (![] : Fin 0 → Fin S50000x128.rank)
  shapeCasts_S50000x128_S50000x8x16 : S50000x128.ShapeCasts S50000x8x16
  bcast_S_S50000x8 : S_.BroadcastsInDim S50000x8 (![] : Fin 0 → Fin S50000x8.rank)
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  slices_S626688x128_S625000x128_0_0 : S626688x128.Slices ![0, 0] S625000x128
  shapeCasts_S625000x128_S625000x8x16 : S625000x128.ShapeCasts S625000x8x16
  dot_S5000x128_S128x128_S5000x128_1_0_0_1_n_n_wf : DotDims.WF S5000x128 S128x128 S5000x128 [1] [0] [0] [1] [] []
  gather_S50000x128_S626688x1_S626688x128_1_0_n_n_0_1_1128_wf : GatherDims.WF S50000x128 S626688x1 S626688x128 [1] [0] [] [0] [] 1 ![1, 128]
  dot_S2048x128_S128x128_S2048x128_1_0_0_1_n_n_wf : DotDims.WF S2048x128 S128x128 S2048x128 [1] [0] [0] [1] [] []
  dot_S2048x128_S128x8_S2048x8_1_0_0_1_n_n_wf : DotDims.WF S2048x128 S128x8 S2048x8 [1] [0] [0] [1] [] []
  dot_S2048x8_S8x128_S2048x128_1_0_0_1_n_n_wf : DotDims.WF S2048x8 S8x128 S2048x128 [1] [0] [0] [1] [] []
  scatter_S50000x128_S626688x1_S626688x128_1_0_0_1_wf : ScatterDims.WF S50000x128 S626688x1 S626688x128 [1] [0] [0] 1
  scatter_S50000x8_S626688x1_S626688x8_1_0_0_1_wf : ScatterDims.WF S50000x8 S626688x1 S626688x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .bf16 = 32 ∨ (Rect.block (s := S50000x128) S5000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .bf16 = 32 ∨ (Rect.block (s := S50000x128) S5000x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .bf16 = 32 ∨ (Rect.block (s := S50000x128) S5000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S626688x128.size a
  hwx1_0 : ∀ i : grid1.Coords, EltTy.bits .bf16 = 32 ∨ (Rect.block (s := S626688x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S626688x128.size a
  hwx1_1 : ∀ i : grid1.Coords, EltTy.bits .bf16 = 32 ∨ (Rect.block (s := S626688x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S626688x128.size a
  hwx1_2 : ∀ i : grid1.Coords, EltTy.bits .bf16 = 32 ∨ (Rect.block (s := S626688x128) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S626688x128.size a
  hwx1_3 : ∀ i : grid1.Coords, EltTy.bits .f32 = 32 ∨ (Rect.block (s := S626688x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x8.size a ≤ S128x8.size a
  hwx1_6 : ∀ i : grid1.Coords, EltTy.bits .f32 = 32 ∨ (Rect.block (s := S128x8) S128x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S8x128.size a
  hwx1_7 : ∀ i : grid1.Coords, EltTy.bits .f32 = 32 ∨ (Rect.block (s := S8x128) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S626688x128.size a
  hwx1_8 : ∀ i : grid1.Coords, EltTy.bits .f32 = 32 ∨ (Rect.block (s := S626688x128) S2048x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S626688x128.size a
  hwx1_9 : ∀ i : grid1.Coords, EltTy.bits .f32 = 32 ∨ (Rect.block (s := S626688x128) S2048x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x8.size a ≤ S626688x8.size a
  hwx1_10 : ∀ i : grid1.Coords, EltTy.bits .f32 = 32 ∨ (Rect.block (s := S626688x8) S2048x8.size (cc1_transform_10 i) (hinb1_10 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S626688x1_S626688x128_1_0_n_n_0_1_1128 : GatherDims S50000x128 S626688x1 S626688x128 where
  offsetDims := [1]
  collapsedSliceDims := [0]
  operandBatchingDims := []
  startIndicesBatchingDims := []
  startIndexMap := [0]
  indexVectorDim := 1
  sliceSizes := ![1, 128]
  wf := gather_S50000x128_S626688x1_S626688x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x8_S8x128_S2048x128_1_0_0_1_n_n : DotDims S2048x8 S8x128 S2048x128 where
  lhsContracting := [1]
  rhsContracting := [0]
  lhsNonContracting := [0]
  rhsNonContracting := [1]
  lhsBatch := []
  rhsBatch := []
  wf := dot_S2048x8_S8x128_S2048x128_1_0_0_1_n_n_wf
def scatter_S50000x128_S626688x1_S626688x128_1_0_0_1 : ScatterDims S50000x128 S626688x1 S626688x128 where
  updateWindowDims := [1]
  insertedWindowDims := [0]
  scatterDimsToOperandDims := [0]
  indexVectorDim := 1
  wf := scatter_S50000x128_S626688x1_S626688x128_1_0_0_1_wf
def scatter_S50000x8_S626688x1_S626688x8_1_0_0_1 : ScatterDims S50000x8 S626688x1 S626688x8 where
  updateWindowDims := [1]
  insertedWindowDims := [0]
  scatterDimsToOperandDims := [0]
  indexVectorDim := 1
  wf := scatter_S50000x8_S626688x1_S626688x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v17) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S128x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S8x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42_0) S2048x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v42_1) S2048x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v42_2) S2048x8.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S625000x128 : Shape := ⟨2, ![625000, 128]⟩
abbrev S625000 : Shape := ⟨1, ![625000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S625000x8x16 : Shape := ⟨3, ![625000, 8, 16]⟩
abbrev S_ : Shape := ⟨0, ![]⟩
abbrev S625000x1 : Shape := ⟨2, ![625000, 1]⟩
abbrev S625000x8 : Shape := ⟨2, ![625000, 8]⟩
abbrev S625000x8x1 : Shape := ⟨3, ![625000, 8, 1]⟩
abbrev S50000x8x1 : Shape := ⟨3, ![50000, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000x128, .f32⟩
  | .hbm, ⟨2, _⟩ => ⟨S625000, .i32⟩
  | .hbm, ⟨3, _⟩ => ⟨S625000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S625000x128, .f32⟩
  | .hbm, ⟨28, _⟩ => ⟨S1x128, .f32⟩
  | .hbm, ⟨29, _⟩ => ⟨S625000x128, .f32⟩
  | .hbm, ⟨30, _⟩ => ⟨S625000x128, .f32⟩
  | .hbm, ⟨31, _⟩ => ⟨S625000x8x16, .f32⟩
  | .hbm, ⟨32, _⟩ => ⟨S_, .i32⟩
  | .hbm, ⟨33, _⟩ => ⟨S625000, .i32⟩
  | .hbm, ⟨34, _⟩ => ⟨S625000, .i1⟩
  | .hbm, ⟨35, _⟩ => ⟨S_, .i32⟩
  | .hbm, ⟨36, _⟩ => ⟨S625000, .i32⟩
  | .hbm, ⟨37, _⟩ => ⟨S625000, .i32⟩
  | .hbm, ⟨38, _⟩ => ⟨S625000, .i32⟩
  | .hbm, ⟨39, _⟩ => ⟨S625000x1, .i32⟩
  | .hbm, ⟨40, _⟩ => ⟨S625000x8x16, .f32⟩
  | .hbm, ⟨41, _⟩ => ⟨S_, .i32⟩
  | .hbm, ⟨42, _⟩ => ⟨S625000, .i32⟩
  | .hbm, ⟨43, _⟩ => ⟨S625000, .i1⟩
  | .hbm, ⟨44, _⟩ => ⟨S_, .i32⟩
  | .hbm, ⟨45, _⟩ => ⟨S625000, .i32⟩
  | .hbm, ⟨46, _⟩ => ⟨S625000, .i32⟩
  | .hbm, ⟨47, _⟩ => ⟨S625000, .i32⟩
  | .hbm, ⟨48, _⟩ => ⟨S625000x1, .i32⟩
  | .hbm, ⟨49, _⟩ => ⟨S625000x8x16, .f32⟩
  | .hbm, ⟨50, _⟩ => ⟨S625000x8x16, .f32⟩
  | .hbm, ⟨51, _⟩ => ⟨S_, .f32⟩
  | .hbm, ⟨52, _⟩ => ⟨S625000x8x16, .f32⟩
  | .hbm, ⟨53, _⟩ => ⟨S625000x8x16, .f32⟩
  | .hbm, ⟨54, _⟩ => ⟨S625000x8x16, .f32⟩
  | .hbm, ⟨55, _⟩ => ⟨S_, .f32⟩
  | .hbm, ⟨56, _⟩ => ⟨S625000x8, .f32⟩
  | .hbm, ⟨57, _⟩ => ⟨S625000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S625000x8x1, .f32⟩
  | .hbm, ⟨62, _⟩ => ⟨S625000x8x1, .f32⟩
  | .hbm, ⟨63, _⟩ => ⟨S_, .f32⟩
  | .hbm, ⟨64, _⟩ => ⟨S625000x8x1, .f32⟩
  | .hbm, ⟨65, _⟩ => ⟨S625000x8x1, .f32⟩
  | .hbm, ⟨66, _⟩ => ⟨S625000x8x1, .f32⟩
  | .hbm, ⟨67, _⟩ => ⟨S_, .i32⟩
  | .hbm, ⟨68, _⟩ => ⟨S625000, .i32⟩
  | .hbm, ⟨69, _⟩ => ⟨S625000, .i1⟩
  | .hbm, ⟨70, _⟩ => ⟨S_, .i32⟩
  | .hbm, ⟨71, _⟩ => ⟨S625000, .i32⟩
  | .hbm, ⟨72, _⟩ => ⟨S625000, .i32⟩
  | .hbm, ⟨73, _⟩ => ⟨S625000, .i32⟩
  | .hbm, ⟨74, _⟩ => ⟨S625000x1, .i32⟩
  | .hbm, ⟨75, _⟩ => ⟨S625000x8x16, .f32⟩
  | .hbm, ⟨76, _⟩ => ⟨S625000x8x16, .f32⟩
  | .hbm, ⟨77, _⟩ => ⟨S625000x8x16, .f32⟩
  | .hbm, ⟨78, _⟩ => ⟨S_, .f32⟩
  | .hbm, ⟨79, _⟩ => ⟨S50000x8x16, .f32⟩
  | .hbm, ⟨80, _⟩ => ⟨S625000x1, .i32⟩
  | .hbm, ⟨81, _⟩ => ⟨S50000x8x16, .f32⟩
  | .hbm, ⟨82, _⟩ => ⟨S_, .f32⟩
  | .hbm, ⟨83, _⟩ => ⟨S50000x8x1, .f32⟩
  | .hbm, ⟨84, _⟩ => ⟨S625000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x16, .f32⟩
  | .hbm, ⟨90, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S625000x128_0_1 : S1x128.BroadcastsInDim S625000x128 (![0, 1] : Fin 2 → Fin S625000x128.rank)
  shapeCasts_S625000x128_S625000x8x16 : S625000x128.ShapeCasts S625000x8x16
  bcast_S_S625000 : S_.BroadcastsInDim S625000 (![] : Fin 0 → Fin S625000.rank)
  bcast_S625000_S625000x1_0 : S625000.BroadcastsInDim S625000x1 (![0] : Fin 1 → Fin S625000x1.rank)
  bcast_S_S625000x8x16 : S_.BroadcastsInDim S625000x8x16 (![] : Fin 0 → Fin S625000x8x16.rank)
  reducesTo_S625000x8x16_S625000x8_d2 : S625000x8x16.ReducesTo [2] S625000x8
  h_S_ : 0 < S_.numel
  bcast_S625000x8_S625000x8x1_0_1 : S625000x8.BroadcastsInDim S625000x8x1 (![0, 1] : Fin 2 → Fin S625000x8x1.rank)
  bcast_S_S625000x8x1 : S_.BroadcastsInDim S625000x8x1 (![] : Fin 0 → Fin S625000x8x1.rank)
  bcast_S625000x8x1_S625000x8x16_0_1_2 : S625000x8x1.BroadcastsInDim S625000x8x16 (![0, 1, 2] : Fin 3 → Fin S625000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S625000x128_S128x128_S625000x128_1_0_0_1_n_n_wf : DotDims.WF S625000x128 S128x128 S625000x128 [1] [0] [0] [1] [] []
  gather_S50000x8x16_S625000x1_S625000x8x16_12_0_n_n_0_1_1816_wf : GatherDims.WF S50000x8x16 S625000x1 S625000x8x16 [1, 2] [0] [] [0] [] 1 ![1, 8, 16]
  scatter_S50000x8x16_S625000x1_S625000x8x16_12_0_0_1_wf : ScatterDims.WF S50000x8x16 S625000x1 S625000x8x16 [1, 2] [0] [0] 1
  scatter_S50000x8x1_S625000x1_S625000x8x1_12_0_0_1_wf : ScatterDims.WF S50000x8x1 S625000x1 S625000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def gather_S50000x8x16_S625000x1_S625000x8x16_12_0_n_n_0_1_1816 : GatherDims S50000x8x16 S625000x1 S625000x8x16 where
  offsetDims := [1, 2]
  collapsedSliceDims := [0]
  operandBatchingDims := []
  startIndicesBatchingDims := []
  startIndexMap := [0]
  indexVectorDim := 1
  sliceSizes := ![1, 8, 16]
  wf := gather_S50000x8x16_S625000x1_S625000x8x16_12_0_n_n_0_1_1816_wf
def scatter_S50000x8x16_S625000x1_S625000x8x16_12_0_0_1 : ScatterDims S50000x8x16 S625000x1 S625000x8x16 where
  updateWindowDims := [1, 2]
  insertedWindowDims := [0]
  scatterDimsToOperandDims := [0]
  indexVectorDim := 1
  wf := scatter_S50000x8x16_S625000x1_S625000x8x16_12_0_0_1_wf
def scatter_S50000x8x1_S625000x1_S625000x8x1_12_0_0_1 : ScatterDims S50000x8x1 S625000x1 S625000x8x1 where
  updateWindowDims := [1, 2]
  insertedWindowDims := [0]
  scatterDimsToOperandDims := [0]
  indexVectorDim := 1
  wf := scatter_S50000x8x1_S625000x1_S625000x8x1_12_0_0_1_wf

class Facts : Prop extends Facts₀ where

variable [Facts]
-- ==== Proof.RunVal.lean ====
/-
  The run of the two-region program with its two results NAMED: every weakly fair execution terminates, nothing
  faulting, the twelve argument arrays end as launched, and each result array ends at the contents of its buffer at
  the last of the program's segment boundaries (the fold of the host lines and the two regions' write-backs from the
  launch memory). The launch is the frame's own; only what is read off the last thread state is more.
-/
import proofs.«115140_j17506286698742_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results at the last boundary's contents and the arguments as launched. -/
theorem run_val : θ_run defs (onTc (τ := τ) (main (F := F))) ⟨m, fun _ => 0, ρ⟩ (fun r => ∀ c : Dev nD,
      r.2.mem ((c.tc : Thread nD τ).loc main_v54) = W7 m ρ c (Proc.devRef .tc main_v54)
      ∧ r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunVal

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.Spec.lean ====
/-
  The two results of the attention layer as functions of the twelve argument arrays, on the extended reals.

  Nodes carry 128 features, read as 8 heads of 16 entries: column `16 h + d` is entry `d` of head `h`. Each node row
  is projected three times (`Q`, `K`, `V`: a row times a 128 x 128 matrix, plus a bias row), each edge row once
  (`pe`). An edge `e` names a source row and a destination row by two 32-bit words; a row is read at the word shifted
  by the row count when it is negative, signed, clamped into the rows (`rowOf`). The edge's score at a column is
  `((K[src] * Q[dst]) * (1/4)) * pe`; its weight for head `h` is the exponential of the head's column sum clamped into
  `[-5, 5]`; its message at a column is `V[src]` times the weight of the column's head. A node's output is the sum of
  the messages of the edges whose destination word, read signed and NOT shifted, is that node's row (`land`), divided
  by the sum of their weights plus a small constant. The second result is the score itself.
-/
import Idealize.ShloMosaic.PureOps.Ideal
import Idealize.ShloMosaic.Lib.ValueIdx
import proofs.«115140_j17506286698742_2_alg».proof.Proof.LibRowIndex

noncomputable section

open scoped BigOperators

namespace Cert.Spec

open Idealize.ShloMosaic Idealize.ShloMosaic.ValueIdx Cert.Lib.RowIndex

/-! ## Columns and heads -/

/-- Column `16 h + d` of the 128 feature columns: entry `d` of head `h`. -/
def col (h : Fin 8) (d : Fin 16) : Fin 128 := ⟨16 * h.val + d.val, by omega⟩
/-- The head a feature column belongs to. -/
def hd (c : Fin 128) : Fin 8 := ⟨c.val / 16, by omega⟩

theorem hd_col (h : Fin 8) (d : Fin 16) : hd (col h d) = h := by
  apply Fin.ext; show (16 * h.val + d.val) / 16 = h.val; omega
theorem col_val (h : Fin 8) (d : Fin 16) : (col h d).val = 16 * h.val + d.val := rfl
theorem hd_val (c : Fin 128) : (hd c).val = c.val / 16 := rfl

/-! ## The literals, as the words the programs print -/

/-- `0.25`. -/
abbrev quarter : EReal := Ideal.ofBits .f32 0x3E800000#32
/-- `4.0`. -/
abbrev four : EReal := Ideal.ofBits .f32 0x40800000#32
/-- `-5.0`. -/
abbrev negFive : EReal := Ideal.ofBits .f32 0xC0A00000#32
/-- `5.0`. -/
abbrev five : EReal := Ideal.ofBits .f32 0x40A00000#32
/-- The small constant added to a node's weight sum. -/
abbrev eps : EReal := Ideal.ofBits .f32 0x358637BD#32
/-- The zero word. -/
abbrev zero : EReal := Ideal.ofBits .f32 0x00000000#32

/-! ## Index words -/

/-- An index word as a gather reads it: a negative word is shifted by the row count first. -/
def nrm (w : BitVec 32) : BitVec 32 := Scalar.select (IntOp.cmpi .slt w 0#32) (IntOp.addi w 50000#32) w
/-- The row of the 50000 a gather reads for an index word. -/
def rowOf (w : BitVec 32) : Fin 50000 := pick 50000 (by decide) (nrm w)

/-! ## One row at a time -/

/-- One row of `x · W + b`, at a column. -/
def rowLin (x : Fin 128 → EReal) (W : (⟨2, ![128, 128]⟩ : Shape).Idx → EReal) (b : Fin 128 → EReal) (c : Fin 128) : EReal :=
  (∑ k : Fin 128, x k * W (ix2 k c)) + b c

/-- An edge's score at a column, from its source row of `K`, destination row of `Q` and its own row of `pe`. -/
def rowScore (k q p : Fin 128 → EReal) (c : Fin 128) : EReal := ((k c * q c) * quarter) * p c

/-- An edge's weight for a head: the exponential of the head's clamped column sum. -/
def rowS (sc : Fin 128 → EReal) (h : Fin 8) : EReal :=
  Ideal.exp (min five (max negFive (∑ d : Fin 16, sc (col h d))))

/-- An edge's message at a column: its source row of `V` times the weight of the column's head. -/
def rowVs (v : Fin 128 → EReal) (s : Fin 8 → EReal) (c : Fin 128) : EReal := v c * s (hd c)

/-! ## The whole layer -/

/-- The twelve argument arrays. -/
structure Args where
  h : (⟨2, ![50000, 128]⟩ : Shape).Idx → EReal
  e : (⟨2, ![625000, 128]⟩ : Shape).Idx → EReal
  src : (⟨1, ![625000]⟩ : Shape).Idx → BitVec 32
  dst : (⟨1, ![625000]⟩ : Shape).Idx → BitVec 32
  Wq : (⟨2, ![128, 128]⟩ : Shape).Idx → EReal
  bq : (⟨1, ![128]⟩ : Shape).Idx → EReal
  Wk : (⟨2, ![128, 128]⟩ : Shape).Idx → EReal
  bk : (⟨1, ![128]⟩ : Shape).Idx → EReal
  Wv : (⟨2, ![128, 128]⟩ : Shape).Idx → EReal
  bv : (⟨1, ![128]⟩ : Shape).Idx → EReal
  We : (⟨2, ![128, 128]⟩ : Shape).Idx → EReal
  be : (⟨1, ![128]⟩ : Shape).Idx → EReal

namespace Args

variable (A : Args)

/-- Node `n`'s query row. -/
def Q (n : Fin 50000) (c : Fin 128) : EReal := rowLin (fun k => A.h (ix2 n k)) A.Wq (fun j => A.bq (ix1 j)) c
/-- Node `n`'s key row. -/
def K (n : Fin 50000) (c : Fin 128) : EReal := rowLin (fun k => A.h (ix2 n k)) A.Wk (fun j => A.bk (ix1 j)) c
/-- Node `n`'s value row. -/
def V (n : Fin 50000) (c : Fin 128) : EReal := rowLin (fun k => A.h (ix2 n k)) A.Wv (fun j => A.bv (ix1 j)) c
/-- Edge `e`'s projected row. -/
def pe (e : Fin 625000) (c : Fin 128) : EReal := rowLin (fun k => A.e (ix2 e k)) A.We (fun j => A.be (ix1 j)) c

/-- The row edge `e` reads `K` and `V` at. -/
def srcRow (e : Fin 625000) : Fin 50000 := rowOf (A.src (ix1 e))
/-- The row edge `e` reads `Q` at. -/
def dstRow (e : Fin 625000) : Fin 50000 := rowOf (A.dst (ix1 e))

/-- Edge `e`'s score row. -/
def score (e : Fin 625000) (c : Fin 128) : EReal := rowScore (A.K (A.srcRow e)) (A.Q (A.dstRow e)) (A.pe e) c
/-- Edge `e`'s weights, one per head. -/
def s (e : Fin 625000) (h : Fin 8) : EReal := rowS (A.score e) h
/-- Edge `e`'s message row. -/
def vs (e : Fin 625000) (c : Fin 128) : EReal := rowVs (A.V (A.srcRow e)) (A.s e) c

/-- The edges whose destination word is row `n`. -/
def into (n : Fin 50000) : Finset (Fin 625000) := Finset.univ.filter fun e => land 50000 (A.dst (ix1 e)) = some n

/-- Node `n`'s summed messages at a column. -/
def wV (n : Fin 50000) (c : Fin 128) : EReal := zero + ∑ e ∈ A.into n, A.vs e c
/-- Node `n`'s summed weights for a head. -/
def z (n : Fin 50000) (h : Fin 8) : EReal := zero + ∑ e ∈ A.into n, A.s e h

/-- The first result at node `n`, head `h`, entry `d`. -/
def hout (n : Fin 50000) (h : Fin 8) (d : Fin 16) : EReal := Ideal.div (A.wV n (col h d)) (A.z n h + eps)
/-- The second result at edge `e`, head `h`, entry `d`. -/
def eout (e : Fin 625000) (h : Fin 8) (d : Fin 16) : EReal := A.score e (col h d)

end Args

end Cert.Spec

end
-- ==== Proof.Iface.lean ====
/-
  The buffers' contents after the three stretches of host lines between the two kernel regions, from the contents
  before them: the padding of the edge arrays, the shifted index words and the three row gathers; the head number of
  each of the 128 columns (a floor division by 16); and the two 0/1 head-selector matrices.
-/
import proofs.«115140_j17506286698742_2_alg».proof.Proof.Gen.KernelIdeal.Launch
import proofs.«115140_j17506286698742_2_alg».proof.Proof.Spec

noncomputable section

namespace Cert.KernelIdeal.Host

open Idealize.ShloMosaic Idealize.ShloMosaic.TcCoe Idealize.SL.Sem Cert.KernelIdeal Cert.KernelIdeal.Gen

variable {F : FTy → Type} [FloatOps F]

/-- The contents after the host lines between the regions, from the contents `W` before them. -/
abbrev mid (W : Valuation τ sig (Elt F)) : Valuation τ sig (Elt F) :=
  StableHlo.after hostOps1_2 (StableHlo.after hostOps1_1 (StableHlo.after hostOps1 W))

/-- An edge number as a row number of the padded edge arrays. -/
abbrev padRow (e : Fin 625000) : Fin 626688 := ⟨e.val, by omega⟩

end Cert.KernelIdeal.Host

end
-- ==== Proof.IfaceTail.lean ====
/-
  The three arrays the last host lines read, each named at its plain array type: the message rows and the weight rows
  the second region leaves, and the padded destination words.
-/
import proofs.«115140_j17506286698742_2_alg».proof.Proof.Gen.KernelIdeal.Launch
import proofs.«115140_j17506286698742_2_alg».proof.Proof.Spec

noncomputable section

namespace Cert.KernelIdeal.Host

open Idealize.ShloMosaic Idealize.ShloMosaic.TcCoe Idealize.SL.Sem Cert.KernelIdeal Cert.KernelIdeal.Gen

/-- The score rows, one per padded edge row. -/
abbrev scores (W : Valuation τ sig (Elt Ideal)) : S626688x128.Idx → EReal := W (Proc.devRef .tc main_v42_0)
/-- The message rows, one per padded edge row. -/
abbrev msgs (W : Valuation τ sig (Elt Ideal)) : S626688x128.Idx → EReal := W (Proc.devRef .tc main_v42_1)
/-- The weight rows, one per padded edge row. -/
abbrev wts (W : Valuation τ sig (Elt Ideal)) : S626688x8.Idx → EReal := W (Proc.devRef .tc main_v42_2)
/-- The padded destination words. -/
abbrev dstw (W : Valuation τ sig (Elt Ideal)) : S626688.Idx → BitVec 32 := W (Proc.devRef .tc main_v8)

end Cert.KernelIdeal.Host

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.R0Value.lean ====
/-
  Region 0, read as values on the extended reals: the three node projections.

  The region runs over ten grid points. Point `t` takes rows `5000 t … 5000 t + 4999` of the 50000 x 128 node array,
  and, whole at every point, three 128 x 128 weight matrices and three 1 x 128 bias rows. For each of the three it
  multiplies the row block by the matrix into a zero accumulator and adds the bias row to every row of the product;
  narrowing the operands and the result to a shorter float format changes nothing on the extended reals. The three
  results are the same rows of three 50000 x 128 output arrays.

  So entry `(n, k)` of each output array, after the region, is row `n` of the node array times column `k` of that
  output's matrix, plus entry `k` of its bias row — whatever the arrays held when the region was entered. The proof
  reads one block's entry first (a matrix product at an index as a sum over the 128 inner positions; a row broadcast
  at an index), then identifies each input block's entry with the array's entry at the block's offset, and last uses
  that the ten row blocks tile the 50000 rows: row `r` belongs to the block of point `r / 5000`.
-/
import proofs.«115140_j17506286698742_2_alg».proof.Proof.Gen.KernelIdeal.Frame
import proofs.«115140_j17506286698742_2_alg».proof.Proof.Spec
import proofs.«115140_j17506286698742_2_alg».proof.Proof.LibPlainDot
import Idealize.ShloMosaic.Lib.Pipeline.Value

noncomputable section

namespace Cert.KernelIdeal.R0

open Cert.KernelIdeal Cert.KernelIdeal.Gen Idealize.ShloMosaic Idealize.ShloMosaic.TcCoe Idealize.SL.Sem Idealize.ShloMosaic.ValueIdx

/-- A bias row broadcast down the rows of a block: the entry at `(p, q)` is the row's entry at column `q`. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  refine broadcastTo_apply b _ (ix2 p q) (ix2 (0 : Fin 1) q) ?_
  intro a
  match a with
  | ⟨0, _⟩ => rfl
  | ⟨1, _⟩ => rfl

/-- One row block's projection at an entry: the block's row `p` times the weight matrix, plus the bias row, at column `q`
    (the narrowing of the operands and of the result is the identity on the extended reals; the product is taken into a
    zero accumulator). -/
theorem pay2_apply (x0 : Vec Ideal S5000x128 .f32) (w : Vec Ideal S128x128 .f32) (b : Vec Ideal S1x128 .f32)
    (p : Fin 5000) (q : Fin 128) :
    k0_pay2 x0 w b (ix2 p q)
      = Cert.Spec.rowLin (fun j => x0 (ix2 p j)) w (fun j => b (ix2 (0 : Fin 1) j)) q := by
  unfold k0_pay2 k0_pay1 Cert.Spec.rowLin
  refine (congrArg₂ (· + ·)
    (Cert.PlainDot.matmul_zero_apply 5000 128 128 (φ₁ := .bf16) (φ₂ := .bf16) none
      (truncf (F := Ideal) .bf16 x0 bitsLt_bf16_f32) (truncf (F := Ideal) .bf16 w bitsLt_bf16_f32) (ix2 p q))
    (bias_apply b p q)).trans ?_
  rfl

/-- The second projection's block entry: the same operations on its own matrix and bias row. -/
theorem pay3_apply (x0 : Vec Ideal S5000x128 .f32) (w : Vec Ideal S128x128 .f32) (b : Vec Ideal S1x128 .f32)
    (p : Fin 5000) (q : Fin 128) :
    k0_pay3 x0 w b (ix2 p q)
      = Cert.Spec.rowLin (fun j => x0 (ix2 p j)) w (fun j => b (ix2 (0 : Fin 1) j)) q :=
  pay2_apply x0 w b p q

/-- The third projection's block entry: the same operations on its own matrix and bias row. -/
theorem pay4_apply (x0 : Vec Ideal S5000x128 .f32) (w : Vec Ideal S128x128 .f32) (b : Vec Ideal S1x128 .f32)
    (p : Fin 5000) (q : Fin 128) :
    k0_pay4 x0 w b (ix2 p q)
      = Cert.Spec.rowLin (fun j => x0 (ix2 p j)) w (fun j => b (ix2 (0 : Fin 1) j)) q :=
  pay2_apply x0 w b p q

/-- The zero offsets of a whole-block access, as the constant function. -/
theorem hz : (![0, 0] : Fin 2 → Nat) = fun _ => 0 := funext fun a => by fin_cases a <;> rfl

/-- Every row of `h` projected by the matrix `W` and shifted by the bias row `b`, as one array. -/
def lin (h : S50000x128.Idx → EReal) (W : S128x128.Idx → EReal) (b : S1x128.Idx → EReal) : S50000x128.Idx → EReal :=
  fun i => Cert.Spec.rowLin (fun j => h (ix2 (n0 := 50000) (i 0) j)) W (fun j => b (ix2 (0 : Fin 1) j)) (i 1)

/-- A projected row's entry depends only on the row, the matrix, the bias row and the column. -/
theorem rowLin_congr {x x' : Fin 128 → EReal} {W W' : (⟨2, ![128, 128]⟩ : Shape).Idx → EReal} {b b' : Fin 128 → EReal}
    {q q' : Fin 128} (hx : x = x') (hW : W = W') (hb : b = b') (hq : q = q') :
    Cert.Spec.rowLin x W b q = Cert.Spec.rowLin x' W' b' q' := by
  subst hx hW hb hq; rfl

/-- The index maps over the ten grid points: the row-block windows sit at the point's own block on the row axis, every
    other window at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b)) (c : Dev nD)

/-! ## The first projection: output window 7 (matrix `main_arg4`, bias row `main_v0`) -/

/-- What grid point `t` writes back through output window 7: its block of the projected array. -/
theorem flushed7_eq (t : Fin cfg0.N) :
    (dat0 (F := Ideal) V c).flushed 7 t
      = ((cfg0.win 7).blk t).view.read (Elt Ideal) (lin (V c main_arg0) (V c main_arg4) (V c main_v0)) := by
  show (cfg0.win 7).cut (grid0.coords t) ((dat0 (F := Ideal) V c).after 7 t) = _
  rw [after0_7]
  unfold out0_7
  rw [View.canon_unit_zero hz]
  simp only [View.ld_unit_zero (S := S5000x128) hz, View.ld_unit_zero (S := S128x128) hz, View.ld_unit_zero (S := S1x128) hz]
  obtain ⟨a00, a01, a10, a11, a20, a21, a30, a31, a40, a41, a50, a51, a60, a61, a70, a71, a80, a81, a90, a91⟩ := idx_facts t
  funext j
  have hp : (j 0).val < 5000 := (j 0).isLt
  have hq : (j 1).val < 128 := (j 1).isLt
  have hj : (cfg0.win 7).xinj (grid0.coords t) j = ix2 (⟨(j 0).val, hp⟩ : Fin 5000) (⟨(j 1).val, hq⟩ : Fin 128) :=
    funext fun a => Fin.ext (by match a with | ⟨0, _⟩ => rfl | ⟨1, _⟩ => rfl)
  refine (congrArg (k0_pay2 (F := Ideal) (iblk0 V c 0 t) (iblk0 V c 1 t) (iblk0 V c 2 t)) hj).trans ?_
  refine (pay2_apply (iblk0 V c 0 t) (iblk0 V c 1 t) (iblk0 V c 2 t) ⟨(j 0).val, hp⟩ ⟨(j 1).val, hq⟩).trans ?_
  have e0 : (fun k : Fin 128 => (iblk0 V c 0 t : S5000x128.Idx → EReal) (ix2 (⟨(j 0).val, hp⟩ : Fin 5000) k))
      = fun k => (V c main_arg0 : S50000x128.Idx → EReal) (ix2 (n0 := 50000) ((((cfg0.win 7).blk t).view.emb j) 0) k) := by
    funext k
    show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_7.index t (0 : Fin 2) * 5000 + 1 * (j 0).val; omega
    | ⟨1, _⟩ => show win0_0.index t (1 : Fin 2) * 128 + 1 * k.val = k.val; omega
  have e1 : (iblk0 V c 1 t : S128x128.Idx → EReal) = V c main_arg4 := by
    funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have e2 : (fun k : Fin 128 => (iblk0 V c 2 t : S1x128.Idx → EReal) (ix2 (0 : Fin 1) k))
      = fun k => (V c main_v0 : S1x128.Idx → EReal) (ix2 (0 : Fin 1) k) := by
    funext k
    show V c main_v0 (((cfg0.win 2).blk t).view.emb (ix2 (0 : Fin 1) k)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  have e3 : (⟨(j 1).val, hq⟩ : Fin 128) = (((cfg0.win 7).blk t).view.emb j) 1 :=
    Fin.ext (by show (j 1).val = win0_7.index t (1 : Fin 2) * 128 + 1 * (j 1).val; omega)
  exact rowLin_congr e0 e1 e2 e3

/-- An entry of the array lies in point `t`'s block of output window 7 iff each coordinate lies in the block's range. -/
theorem mem_blk7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v4_0).slice (win0_7.rect t)).set ↔ _
  rw [View.set_slice_whole, Rect.mem_set_unit]
  exact Iff.rfl

/-- Row `r` of output window 7's array is written back by the grid point `r / 5000`: the ten blocks of 5000 rows tile the
    50000 rows. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : (i 0).val / 5000 < cfg0.N := by show _ < grid0.N; rw [N_0]; omega
  obtain ⟨t, ht⟩ : ∃ t : Fin cfg0.N, t.val = (i 0).val / 5000 := ⟨⟨(i 0).val / 5000, hN⟩, rfl⟩
  obtain ⟨a00, a01, a10, a11, a20, a21, a30, a31, a40, a41, a50, a51, a60, a61, a70, a71, a80, a81, a90, a91⟩ := idx_facts t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- Output window 7's array after the region: every row of the node array projected by the window's weight matrix and shifted
    by its bias row. -/
theorem out7 (n : Fin 50000) (k : Fin 128) :
    (dat0 (F := Ideal) V c).arrAt 7 cfg0.N (ix2 n k)
      = Cert.Spec.rowLin (fun j => V c main_arg0 (ix2 n j)) (V c main_arg4) (fun j => V c main_v0 (ix2 (0 : Fin 1) j)) k :=
  congrFun ((dat0 (F := Ideal) V c).arrAt_eq_of_cover 7 (lin (V c main_arg0) (V c main_arg4) (V c main_v0))
    (fun t _ => flushed7_eq V c t) (cover7)) (ix2 n k)

/-! ## The second projection: output window 8 (matrix `main_arg6`, bias row `main_v1`) -/

/-- What grid point `t` writes back through output window 8: its block of the projected array. -/
theorem flushed8_eq (t : Fin cfg0.N) :
    (dat0 (F := Ideal) V c).flushed 8 t
      = ((cfg0.win 8).blk t).view.read (Elt Ideal) (lin (V c main_arg0) (V c main_arg6) (V c main_v1)) := by
  show (cfg0.win 8).cut (grid0.coords t) ((dat0 (F := Ideal) V c).after 8 t) = _
  rw [after0_8]
  unfold out0_8
  rw [View.canon_unit_zero hz]
  simp only [View.ld_unit_zero (S := S5000x128) hz, View.ld_unit_zero (S := S128x128) hz, View.ld_unit_zero (S := S1x128) hz]
  obtain ⟨a00, a01, a10, a11, a20, a21, a30, a31, a40, a41, a50, a51, a60, a61, a70, a71, a80, a81, a90, a91⟩ := idx_facts t
  funext j
  have hp : (j 0).val < 5000 := (j 0).isLt
  have hq : (j 1).val < 128 := (j 1).isLt
  have hj : (cfg0.win 8).xinj (grid0.coords t) j = ix2 (⟨(j 0).val, hp⟩ : Fin 5000) (⟨(j 1).val, hq⟩ : Fin 128) :=
    funext fun a => Fin.ext (by match a with | ⟨0, _⟩ => rfl | ⟨1, _⟩ => rfl)
  refine (congrArg (k0_pay3 (F := Ideal) (iblk0 V c 0 t) (iblk0 V c 3 t) (iblk0 V c 4 t)) hj).trans ?_
  refine (pay3_apply (iblk0 V c 0 t) (iblk0 V c 3 t) (iblk0 V c 4 t) ⟨(j 0).val, hp⟩ ⟨(j 1).val, hq⟩).trans ?_
  have e0 : (fun k : Fin 128 => (iblk0 V c 0 t : S5000x128.Idx → EReal) (ix2 (⟨(j 0).val, hp⟩ : Fin 5000) k))
      = fun k => (V c main_arg0 : S50000x128.Idx → EReal) (ix2 (n0 := 50000) ((((cfg0.win 8).blk t).view.emb j) 0) k) := by
    funext k
    show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_8.index t (0 : Fin 2) * 5000 + 1 * (j 0).val; omega
    | ⟨1, _⟩ => show win0_0.index t (1 : Fin 2) * 128 + 1 * k.val = k.val; omega
  have e1 : (iblk0 V c 3 t : S128x128.Idx → EReal) = V c main_arg6 := by
    funext y
    show V c main_arg6 (((cfg0.win 3).blk t).view.emb y) = V c main_arg6 y
    refine congrArg (V c main_arg6) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have e2 : (fun k : Fin 128 => (iblk0 V c 4 t : S1x128.Idx → EReal) (ix2 (0 : Fin 1) k))
      = fun k => (V c main_v1 : S1x128.Idx → EReal) (ix2 (0 : Fin 1) k) := by
    funext k
    show V c main_v1 (((cfg0.win 4).blk t).view.emb (ix2 (0 : Fin 1) k)) = _
    refine congrArg (V c main_v1) (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega
  have e3 : (⟨(j 1).val, hq⟩ : Fin 128) = (((cfg0.win 8).blk t).view.emb j) 1 :=
    Fin.ext (by show (j 1).val = win0_8.index t (1 : Fin 2) * 128 + 1 * (j 1).val; omega)
  exact rowLin_congr e0 e1 e2 e3

/-- An entry of the array lies in point `t`'s block of output window 8 iff each coordinate lies in the block's range. -/
theorem mem_blk8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v4_1).slice (win0_8.rect t)).set ↔ _
  rw [View.set_slice_whole, Rect.mem_set_unit]
  exact Iff.rfl

/-- Row `r` of output window 8's array is written back by the grid point `r / 5000`: the ten blocks of 5000 rows tile the
    50000 rows. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : (i 0).val / 5000 < cfg0.N := by show _ < grid0.N; rw [N_0]; omega
  obtain ⟨t, ht⟩ : ∃ t : Fin cfg0.N, t.val = (i 0).val / 5000 := ⟨⟨(i 0).val / 5000, hN⟩, rfl⟩
  obtain ⟨a00, a01, a10, a11, a20, a21, a30, a31, a40, a41, a50, a51, a60, a61, a70, a71, a80, a81, a90, a91⟩ := idx_facts t
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- Output window 8's array after the region: every row of the node array projected by the window's weight matrix and shifted
    by its bias row. -/
theorem out8 (n : Fin 50000) (k : Fin 128) :
    (dat0 (F := Ideal) V c).arrAt 8 cfg0.N (ix2 n k)
      = Cert.Spec.rowLin (fun j => V c main_arg0 (ix2 n j)) (V c main_arg6) (fun j => V c main_v1 (ix2 (0 : Fin 1) j)) k :=
  congrFun ((dat0 (F := Ideal) V c).arrAt_eq_of_cover 8 (lin (V c main_arg0) (V c main_arg6) (V c main_v1))
    (fun t _ => flushed8_eq V c t) (cover8)) (ix2 n k)

/-! ## The third projection: output window 9 (matrix `main_arg8`, bias row `main_v2`) -/

/-- What grid point `t` writes back through output window 9: its block of the projected array. -/
theorem flushed9_eq (t : Fin cfg0.N) :
    (dat0 (F := Ideal) V c).flushed 9 t
      = ((cfg0.win 9).blk t).view.read (Elt Ideal) (lin (V c main_arg0) (V c main_arg8) (V c main_v2)) := by
  show (cfg0.win 9).cut (grid0.coords t) ((dat0 (F := Ideal) V c).after 9 t) = _
  rw [after0_9]
  unfold out0_9
  rw [View.canon_unit_zero hz]
  simp only [View.ld_unit_zero (S := S5000x128) hz, View.ld_unit_zero (S := S128x128) hz, View.ld_unit_zero (S := S1x128) hz]
  obtain ⟨a00, a01, a10, a11, a20, a21, a30, a31, a40, a41, a50, a51, a60, a61, a70, a71, a80, a81, a90, a91⟩ := idx_facts t
  funext j
  have hp : (j 0).val < 5000 := (j 0).isLt
  have hq : (j 1).val < 128 := (j 1).isLt
  have hj : (cfg0.win 9).xinj (grid0.coords t) j = ix2 (⟨(j 0).val, hp⟩ : Fin 5000) (⟨(j 1).val, hq⟩ : Fin 128) :=
    funext fun a => Fin.ext (by match a with | ⟨0, _⟩ => rfl | ⟨1, _⟩ => rfl)
  refine (congrArg (k0_pay4 (F := Ideal) (iblk0 V c 0 t) (iblk0 V c 5 t) (iblk0 V c 6 t)) hj).trans ?_
  refine (pay4_apply (iblk0 V c 0 t) (iblk0 V c 5 t) (iblk0 V c 6 t) ⟨(j 0).val, hp⟩ ⟨(j 1).val, hq⟩).trans ?_
  have e0 : (fun k : Fin 128 => (iblk0 V c 0 t : S5000x128.Idx → EReal) (ix2 (⟨(j 0).val, hp⟩ : Fin 5000) k))
      = fun k => (V c main_arg0 : S50000x128.Idx → EReal) (ix2 (n0 := 50000) ((((cfg0.win 9).blk t).view.emb j) 0) k) := by
    funext k
    show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 128 + 1 * k.val = k.val; omega
  have e1 : (iblk0 V c 5 t : S128x128.Idx → EReal) = V c main_arg8 := by
    funext y
    show V c main_arg8 (((cfg0.win 5).blk t).view.emb y) = V c main_arg8 y
    refine congrArg (V c main_arg8) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have e2 : (fun k : Fin 128 => (iblk0 V c 6 t : S1x128.Idx → EReal) (ix2 (0 : Fin 1) k))
      = fun k => (V c main_v2 : S1x128.Idx → EReal) (ix2 (0 : Fin 1) k) := by
    funext k
    show V c main_v2 (((cfg0.win 6).blk t).view.emb (ix2 (0 : Fin 1) k)) = _
    refine congrArg (V c main_v2) (funext fun a => Fin.ext ?_)
    match a with
    | ⟨0, _⟩ => show win0_6.index t (0 : Fin 2) * 1 + 1 * 0 = 0; omega
    | ⟨1, _⟩ => show win0_6.index t (1 : Fin 2) * 128 + 1 * k.val = k.val; omega
  have e3 : (⟨(j 1).val, hq⟩ : Fin 128) = (((cfg0.win 9).blk t).view.emb j) 1 :=
    Fin.ext (by show (j 1).val = win0_9.index t (1 : Fin 2) * 128 + 1 * (j 1).val; omega)
  exact rowLin_congr e0 e1 e2 e3

/-- An entry of the array lies in point `t`'s block of output window 9 iff each coordinate lies in the block's range. -/
theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v4_2).slice (win0_9.rect t)).set ↔ _
  rw [View.set_slice_whole, Rect.mem_set_unit]
  exact Iff.rfl

/-- Row `r` of output window 9's array is written back by the grid point `r / 5000`: the ten blocks of 5000 rows tile the
    50000 rows. -/
theorem cover9 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : (i 0).val / 5000 < cfg0.N := by show _ < grid0.N; rw [N_0]; omega
  obtain ⟨t, ht⟩ : ∃ t : Fin cfg0.N, t.val = (i 0).val / 5000 := ⟨⟨(i 0).val / 5000, hN⟩, rfl⟩
  obtain ⟨a00, a01, a10, a11, a20, a21, a30, a31, a40, a41, a50, a51, a60, a61, a70, a71, a80, a81, a90, a91⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- Output window 9's array after the region: every row of the node array projected by the window's weight matrix and shifted
    by its bias row. -/
theorem out9 (n : Fin 50000) (k : Fin 128) :
    (dat0 (F := Ideal) V c).arrAt 9 cfg0.N (ix2 n k)
      = Cert.Spec.rowLin (fun j => V c main_arg0 (ix2 n j)) (V c main_arg8) (fun j => V c main_v2 (ix2 (0 : Fin 1) j)) k :=
  congrFun ((dat0 (F := Ideal) V c).arrAt_eq_of_cover 9 (lin (V c main_arg0) (V c main_arg8) (V c main_v2))
    (fun t _ => flushed9_eq V c t) (cover9)) (ix2 n k)

end Cert.KernelIdeal.R0

end
-- ==== Proof.R1Value.lean ====
/-
  What the fused edge region leaves in its three output arrays, as functions of the arrays it finds on entry, on the
  extended reals.

  The region runs over 306 grid points; point `t` works on rows `2048 t … 2048 t + 2047` of the 626688 padded edge
  rows. From the gathered key, query and value rows, the padded edge features, the edge weight matrix and bias row, and
  the two head selectors (a 128 x 8 matrix and its transpose) it writes three arrays: the score
  `((K * Q) * 1/4) * (e W + b)`, column by column; the weights, one per head, the exponential of the head's clamped column sum
  of the score; and the messages, the value row times the weight of each column's head.

  The body forms the head sums and spreads the weights back over the columns by matrix products with the selectors.
  When the selector is the heads' indicator (one where the column belongs to the head, zero elsewhere) a product with it
  is a sum over the head's sixteen columns, and a product with its transpose picks the weight of the column's head:
  `x * 1 = x` and `x * 0 = 0` hold for every extended real, so no entry needs to be finite.

  The blocks of the three outputs tile their arrays exactly: row `r` lies in the block of point `r / 2048`. So each
  array ends as one function of the entry contents, read here at a row and a column.
-/
import proofs.«115140_j17506286698742_2_alg».proof.Proof.Gen.KernelIdeal.Frame
import proofs.«115140_j17506286698742_2_alg».proof.Proof.Spec
import proofs.«115140_j17506286698742_2_alg».proof.Proof.LibPlainDot
import Idealize.ShloMosaic.Lib.Pipeline.Value
import Idealize.ShloMosaic.Lib.ValueLayout

noncomputable section

open scoped BigOperators

namespace Cert.KernelIdeal.R1

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index, over arbitrary blocks -/

/-- The score block at row `r`, column `k`: the key and query entries multiplied, a quarter of that, times the
    edge row's projection (the edge row times the weight matrix, plus the bias row). -/
theorem pay3_apply (x0 x1 : Vec Ideal S2048x128 .bf16) (x3 : Vec Ideal S2048x128 .f32) (x4 : Vec Ideal S128x128 .f32)
    (x5 : Vec Ideal S1x128 .f32) (r : Fin 2048) (k : Fin 128) :
    k1_pay3 (F := Ideal) x0 x1 x3 x4 x5 (ix2 r k)
      = Cert.Spec.rowScore (fun k => x0 (ix2 r k)) (fun k => x1 (ix2 r k))
          (Cert.Spec.rowLin (fun j => x3 (ix2 r j)) x4 (fun j => x5 (ix2 (0 : Fin 1) j))) k := by
  unfold k1_pay3
  simp only [shapeCast_self]
  show (((x0 (ix2 r k) : EReal) * (x1 (ix2 r k) : EReal)) * Cert.Spec.quarter)
      * ((FloatOps.matmul (F := Ideal) (DotDims.plain 2048 128 128) none (φ₁ := .bf16) (φ₂ := .bf16) x3 x4
            (constant (⟨2, ![2048, 128]⟩ : Shape) .f32 0x00000000#32) (ix2 r k) : EReal)
          + (broadcastTo (⟨2, ![2048, 128]⟩ : Shape) x5 broadcasts_S1x128_S2048x128 (ix2 r k) : EReal)) = _
  rw [Cert.PlainDot.matmul_zero_apply 2048 128 128, broadcastTo_1b_ab_apply]
  rfl

/-- The weight block at row `r`, head `h`: the exponential of the clamped sum of the row's scores against the
    selector's column `h`. -/
theorem pay5_apply (x0 x1 : Vec Ideal S2048x128 .bf16) (x3 : Vec Ideal S2048x128 .f32) (x4 : Vec Ideal S128x128 .f32)
    (x5 : Vec Ideal S1x128 .f32) (x6 : Vec Ideal S128x8 .f32) (r : Fin 2048) (h : Fin 8) :
    k1_pay5 (F := Ideal) x0 x1 x3 x4 x5 x6 (ix2 r h)
      = Ideal.exp (min Cert.Spec.five (max Cert.Spec.negFive
          (∑ k : Fin 128, (k1_pay3 (F := Ideal) x0 x1 x3 x4 x5 (ix2 r k) : EReal) * (x6 (ix2 k h) : EReal)))) := by
  unfold k1_pay5
  simp only [shapeCast_self]
  show Ideal.exp (min Cert.Spec.five (max Cert.Spec.negFive
      (FloatOps.matmul (F := Ideal) (DotDims.plain 2048 128 8) (some .fp32) (φ₁ := .f32) (φ₂ := .f32)
        (k1_pay3 (F := Ideal) x0 x1 x3 x4 x5) x6 (constant (⟨2, ![2048, 8]⟩ : Shape) .f32 0x00000000#32) (ix2 r h) : EReal))) = _
  rw [Cert.PlainDot.matmul_zero_apply 2048 128 8]

/-- The value block passes through unchanged. -/
theorem pay2_eq (x2 : Vec Ideal S2048x128 .bf16) : k1_pay2 (F := Ideal) x2 = x2 := by
  unfold k1_pay2
  simp only [shapeCast_self]
  rfl

/-- The transposed selector passes through unchanged. -/
theorem pay4_eq (x7 : Vec Ideal S8x128 .f32) : k1_pay4 (F := Ideal) x7 = x7 := by
  unfold k1_pay4
  simp only [shapeCast_self]

/-- The message block at row `r`, column `k`: the value entry times the row's weights against the transposed
    selector's column `k`. -/
theorem pay1_apply (v8 : FVec Ideal S2048x128 .f32) (v27 : FVec Ideal S8x128 .f32) (v33 : FVec Ideal S2048x8 .f32)
    (r : Fin 2048) (k : Fin 128) :
    k1_pay1 (F := Ideal) v8 v27 v33 (ix2 r k)
      = (v8 (ix2 r k) : EReal) * ∑ h : Fin 8, (v33 (ix2 r h) : EReal) * (v27 (ix2 h k) : EReal) := by
  unfold k1_pay1
  show (v8 (ix2 r k) : EReal)
      * (FloatOps.matmul (F := Ideal) (DotDims.plain 2048 8 128) none (φ₁ := .bf16) (φ₂ := .bf16) v33 v27
          (constant (⟨2, ![2048, 128]⟩ : Shape) .f32 0x00000000#32) (ix2 r k) : EReal) = _
  rw [Cert.PlainDot.matmul_zero_apply 2048 8 128]

/-- The message block over the stored value block and transposed selector: the value entry times the row's weights
    against the transposed selector's column. -/
theorem pay1c_apply (x2 : Vec Ideal S2048x128 .bf16) (x7 : Vec Ideal S8x128 .f32) (v33 : FVec Ideal S2048x8 .f32)
    (r : Fin 2048) (k : Fin 128) :
    k1_pay1 (F := Ideal) (k1_pay2 x2) (k1_pay4 x7) v33 (ix2 r k)
      = (x2 (ix2 r k) : EReal) * ∑ h : Fin 8, (v33 (ix2 r h) : EReal) * (x7 (ix2 h k) : EReal) := by
  rw [pay2_eq, pay4_eq]
  exact pay1_apply x2 x7 v33 r k

/-! ## Sums against the head selectors -/

/-- The 128 columns as 8 heads of 16 entries. -/
def colEquiv : Fin 8 × Fin 16 ≃ Fin 128 where
  toFun p := Cert.Spec.col p.1 p.2
  invFun k := (Cert.Spec.hd k, ⟨k.val % 16, Nat.mod_lt _ (by decide)⟩)
  left_inv p := by
    obtain ⟨h, d⟩ := p
    refine Prod.ext (Cert.Spec.hd_col h d) (Fin.ext ?_)
    show (16 * h.val + d.val) % 16 = d.val
    have := d.isLt; omega
  right_inv k := by
    apply Fin.ext
    show 16 * (k.val / 16) + k.val % 16 = k.val
    omega

/-- A sum over the columns against the selector of head `h` (one on the head's own columns, zero elsewhere) is the
    sum over the head's sixteen columns: `x * 1 = x` and `x * 0 = 0` for every extended real. -/
theorem sum_mul_sel (sc : Fin 128 → EReal) (g : Fin 128 → EReal) (h : Fin 8)
    (hg : ∀ k, g k = if Cert.Spec.hd k = h then (1 : EReal) else 0) :
    (∑ k : Fin 128, sc k * g k) = ∑ d : Fin 16, sc (Cert.Spec.col h d) := by
  rw [← Equiv.sum_comp colEquiv, Fintype.sum_prod_type]
  have step : ∀ h' : Fin 8, (∑ d : Fin 16, sc (colEquiv (h', d)) * g (colEquiv (h', d)))
      = if h' = h then ∑ d : Fin 16, sc (Cert.Spec.col h' d) else 0 := by
    intro h'
    by_cases e : h' = h
    · rw [if_pos e]
      refine Finset.sum_congr rfl fun d _ => ?_
      show sc (Cert.Spec.col h' d) * g (Cert.Spec.col h' d) = _
      rw [hg, Cert.Spec.hd_col, if_pos e, mul_one]
    · rw [if_neg e]
      refine Finset.sum_eq_zero fun d _ => ?_
      show sc (Cert.Spec.col h' d) * g (Cert.Spec.col h' d) = _
      rw [hg, Cert.Spec.hd_col, if_neg e, mul_zero]
  rw [Finset.sum_congr rfl fun h' _ => step h', Finset.sum_ite_eq' Finset.univ h]
  rw [if_pos (Finset.mem_univ h)]

/-- A sum over the heads against the selector of column `k` picks the entry of the column's head. -/
theorem sum_mul_selT (s : Fin 8 → EReal) (g : Fin 8 → EReal) (k : Fin 128)
    (hg : ∀ h, g h = if Cert.Spec.hd k = h then (1 : EReal) else 0) :
    (∑ h : Fin 8, s h * g h) = s (Cert.Spec.hd k) := by
  have step : ∀ h : Fin 8, s h * g h = if Cert.Spec.hd k = h then s h else 0 := by
    intro h
    rw [hg]
    by_cases e : Cert.Spec.hd k = h
    · rw [if_pos e, if_pos e, mul_one]
    · rw [if_neg e, if_neg e, mul_zero]
  rw [Finset.sum_congr rfl fun h _ => step h, Finset.sum_ite_eq Finset.univ (Cert.Spec.hd k)]
  rw [if_pos (Finset.mem_univ _)]

/-! ## The blocks of the region's arrays -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! The printed index maps, decided over the 306 grid points: a row-blocked window's block index is the point's
    number on the row axis and zero on the column axis; a whole-array window's is zero on both. -/
theorem idx_row0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_row1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx_row2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx_row3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx_row8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
theorem idx_row9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
theorem idx_row10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)
theorem idx_whole4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_whole5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_whole6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx_whole7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Row `p` of the key window's block at point `t` is row `2048 t + p` of the gathered key rows. -/
theorem blkK_apply (t : Fin cfg1.N) (p : Fin 2048) (k : Fin 128) (e : Fin 626688) (he : e.val = t.val * 2048 + p.val) :
    (iblk1 V c 0 t : Vec Ideal S2048x128 .bf16) (ix2 p k) = V c main_v17 (ix2 e k) := by
  obtain ⟨h0, h1⟩ := idx_row0 t
  unfold iblk1
  rw [View.read_apply]
  show V c main_v17 _ = V c main_v17 _
  congr 1
  funext a
  apply Fin.ext
  match a with
  | ⟨0, _⟩ => show win1_0.index t (0 : Fin 2) * 2048 + 1 * p.val = e.val; rw [h0, he]; omega
  | ⟨1, _⟩ => show win1_0.index t (1 : Fin 2) * 128 + 1 * k.val = k.val; rw [h1]; omega

/-- Row `p` of the query window's block at point `t` is row `2048 t + p` of the gathered query rows. -/
theorem blkQ_apply (t : Fin cfg1.N) (p : Fin 2048) (k : Fin 128) (e : Fin 626688) (he : e.val = t.val * 2048 + p.val) :
    (iblk1 V c 1 t : Vec Ideal S2048x128 .bf16) (ix2 p k) = V c main_v24 (ix2 e k) := by
  obtain ⟨h0, h1⟩ := idx_row1 t
  unfold iblk1
  rw [View.read_apply]
  show V c main_v24 _ = V c main_v24 _
  congr 1
  funext a
  apply Fin.ext
  match a with
  | ⟨0, _⟩ => show win1_1.index t (0 : Fin 2) * 2048 + 1 * p.val = e.val; rw [h0, he]; omega
  | ⟨1, _⟩ => show win1_1.index t (1 : Fin 2) * 128 + 1 * k.val = k.val; rw [h1]; omega

/-- Row `p` of the value window's block at point `t` is row `2048 t + p` of the gathered value rows. -/
theorem blkV_apply (t : Fin cfg1.N) (p : Fin 2048) (k : Fin 128) (e : Fin 626688) (he : e.val = t.val * 2048 + p.val) :
    (iblk1 V c 2 t : Vec Ideal S2048x128 .bf16) (ix2 p k) = V c main_v31 (ix2 e k) := by
  obtain ⟨h0, h1⟩ := idx_row2 t
  unfold iblk1
  rw [View.read_apply]
  show V c main_v31 _ = V c main_v31 _
  congr 1
  funext a
  apply Fin.ext
  match a with
  | ⟨0, _⟩ => show win1_2.index t (0 : Fin 2) * 2048 + 1 * p.val = e.val; rw [h0, he]; omega
  | ⟨1, _⟩ => show win1_2.index t (1 : Fin 2) * 128 + 1 * k.val = k.val; rw [h1]; omega

/-- Row `p` of the edge-feature window's block at point `t` is row `2048 t + p` of the padded edge features. -/
theorem blkE_apply (t : Fin cfg1.N) (p : Fin 2048) (k : Fin 128) (e : Fin 626688) (he : e.val = t.val * 2048 + p.val) :
    (iblk1 V c 3 t : Vec Ideal S2048x128 .f32) (ix2 p k) = V c main_v10 (ix2 e k) := by
  obtain ⟨h0, h1⟩ := idx_row3 t
  unfold iblk1
  rw [View.read_apply]
  show V c main_v10 _ = V c main_v10 _
  congr 1
  funext a
  apply Fin.ext
  match a with
  | ⟨0, _⟩ => show win1_3.index t (0 : Fin 2) * 2048 + 1 * p.val = e.val; rw [h0, he]; omega
  | ⟨1, _⟩ => show win1_3.index t (1 : Fin 2) * 128 + 1 * k.val = k.val; rw [h1]; omega

/-- The weight window's block is the whole weight matrix at every point. -/
theorem blkW_eq (t : Fin cfg1.N) : (iblk1 V c 4 t : Vec Ideal S128x128 .f32) = V c main_arg10 := by
  obtain ⟨h0, h1⟩ := idx_whole4 t
  funext x
  unfold iblk1
  rw [View.read_apply]
  show V c main_arg10 _ = V c main_arg10 x
  congr 1
  funext a
  apply Fin.ext
  match a with
  | ⟨0, _⟩ => show win1_4.index t (0 : Fin 2) * 128 + 1 * (x 0).val = (x 0).val; rw [h0]; omega
  | ⟨1, _⟩ => show win1_4.index t (1 : Fin 2) * 128 + 1 * (x 1).val = (x 1).val; rw [h1]; omega

/-- The bias window's block is the whole bias row at every point. -/
theorem blkB_eq (t : Fin cfg1.N) : (iblk1 V c 5 t : Vec Ideal S1x128 .f32) = V c main_v3 := by
  obtain ⟨h0, h1⟩ := idx_whole5 t
  funext x
  unfold iblk1
  rw [View.read_apply]
  show V c main_v3 _ = V c main_v3 x
  congr 1
  funext a
  apply Fin.ext
  match a with
  | ⟨0, _⟩ => show win1_5.index t (0 : Fin 2) * 1 + 1 * (x 0).val = (x 0).val; rw [h0]; omega
  | ⟨1, _⟩ => show win1_5.index t (1 : Fin 2) * 128 + 1 * (x 1).val = (x 1).val; rw [h1]; omega

/-- The selector window's block is the whole selector at every point. -/
theorem blkG_eq (t : Fin cfg1.N) : (iblk1 V c 6 t : Vec Ideal S128x8 .f32) = V c main_v40 := by
  obtain ⟨h0, h1⟩ := idx_whole6 t
  funext x
  unfold iblk1
  rw [View.read_apply]
  show V c main_v40 _ = V c main_v40 x
  congr 1
  funext a
  apply Fin.ext
  match a with
  | ⟨0, _⟩ => show win1_6.index t (0 : Fin 2) * 128 + 1 * (x 0).val = (x 0).val; rw [h0]; omega
  | ⟨1, _⟩ => show win1_6.index t (1 : Fin 2) * 8 + 1 * (x 1).val = (x 1).val; rw [h1]; omega

/-- The transposed selector window's block is the whole transposed selector at every point. -/
theorem blkGt_eq (t : Fin cfg1.N) : (iblk1 V c 7 t : Vec Ideal S8x128 .f32) = V c main_v41 := by
  obtain ⟨h0, h1⟩ := idx_whole7 t
  funext x
  unfold iblk1
  rw [View.read_apply]
  show V c main_v41 _ = V c main_v41 x
  congr 1
  funext a
  apply Fin.ext
  match a with
  | ⟨0, _⟩ => show win1_7.index t (0 : Fin 2) * 8 + 1 * (x 0).val = (x 0).val; rw [h0]; omega
  | ⟨1, _⟩ => show win1_7.index t (1 : Fin 2) * 128 + 1 * (x 1).val = (x 1).val; rw [h1]; omega

/-! ## What a grid point computes, in terms of the region's arrays -/

/-- Row `e` of the score: the products of the gathered key and query rows, a quarter of them, times the edge row's
    projection. -/
def scoreRow (e : Fin 626688) : Fin 128 → EReal :=
  Cert.Spec.rowScore (fun k => V c main_v17 (ix2 e k)) (fun k => V c main_v24 (ix2 e k))
    (Cert.Spec.rowLin (fun j => V c main_v10 (ix2 e j)) (V c main_arg10) (fun j => V c main_v3 (ix2 (0 : Fin 1) j)))

/-- Row `p` of the score block at point `t` is the score of edge row `2048 t + p`. -/
theorem blk_score (t : Fin cfg1.N) (p : Fin 2048) (k : Fin 128) (e : Fin 626688) (he : e.val = t.val * 2048 + p.val) :
    (k1_pay3 (F := Ideal) (iblk1 V c 0 t) (iblk1 V c 1 t) (iblk1 V c 3 t) (iblk1 V c 4 t) (iblk1 V c 5 t) (ix2 p k) : EReal) = scoreRow V c e k := by
  refine (pay3_apply (iblk1 V c 0 t) (iblk1 V c 1 t) (iblk1 V c 3 t) (iblk1 V c 4 t) (iblk1 V c 5 t) p k).trans ?_
  unfold scoreRow
  simp only [blkK_apply V c t p _ e he, blkQ_apply V c t p _ e he, blkE_apply V c t p _ e he, blkW_eq V c t, blkB_eq V c t]

/-- Row `p` of the weight block at point `t`: the weights of edge row `2048 t + p`, the selector being the heads'
    indicator. -/
theorem blk_weight (hG : ∀ (k : Fin 128) (h : Fin 8), V c main_v40 (ix2 k h) = if Cert.Spec.hd k = h then (1 : EReal) else 0)
    (t : Fin cfg1.N) (p : Fin 2048) (h : Fin 8) (e : Fin 626688) (he : e.val = t.val * 2048 + p.val) :
    (k1_pay5 (F := Ideal) (iblk1 V c 0 t) (iblk1 V c 1 t) (iblk1 V c 3 t) (iblk1 V c 4 t) (iblk1 V c 5 t) (iblk1 V c 6 t) (ix2 p h) : EReal) = Cert.Spec.rowS (scoreRow V c e) h := by
  refine (pay5_apply (iblk1 V c 0 t) (iblk1 V c 1 t) (iblk1 V c 3 t) (iblk1 V c 4 t) (iblk1 V c 5 t) (iblk1 V c 6 t) p h).trans ?_
  unfold Cert.Spec.rowS
  refine congrArg (fun s => Ideal.exp (min Cert.Spec.five (max Cert.Spec.negFive s))) ?_
  have e1 : ∀ k : Fin 128, (k1_pay3 (F := Ideal) (iblk1 V c 0 t) (iblk1 V c 1 t) (iblk1 V c 3 t) (iblk1 V c 4 t) (iblk1 V c 5 t) (ix2 p k) : EReal) * ((iblk1 V c 6 t : Vec Ideal S128x8 .f32) (ix2 k h) : EReal)
      = scoreRow V c e k * V c main_v40 (ix2 k h) :=
    fun k => congrArg₂ (· * ·) (blk_score V c t p k e he) (congrFun (blkG_eq V c t) (ix2 k h))
  rw [Finset.sum_congr rfl fun k _ => e1 k]
  exact sum_mul_sel (scoreRow V c e) (fun k => V c main_v40 (ix2 k h)) h (fun k => hG k h)

/-- Row `p` of the message block at point `t`: the messages of edge row `2048 t + p`, both selectors being the
    heads' indicator. -/
theorem blk_msg (hG : ∀ (k : Fin 128) (h : Fin 8), V c main_v40 (ix2 k h) = if Cert.Spec.hd k = h then (1 : EReal) else 0)
    (hGt : ∀ (h : Fin 8) (k : Fin 128), V c main_v41 (ix2 h k) = if Cert.Spec.hd k = h then (1 : EReal) else 0)
    (t : Fin cfg1.N) (p : Fin 2048) (k : Fin 128) (e : Fin 626688) (he : e.val = t.val * 2048 + p.val) :
    (k1_pay1 (F := Ideal) (k1_pay2 (iblk1 V c 2 t)) (k1_pay4 (iblk1 V c 7 t)) (k1_pay5 (iblk1 V c 0 t) (iblk1 V c 1 t) (iblk1 V c 3 t) (iblk1 V c 4 t) (iblk1 V c 5 t) (iblk1 V c 6 t)) (ix2 p k) : EReal)
      = Cert.Spec.rowVs (fun j => V c main_v31 (ix2 e j)) (Cert.Spec.rowS (scoreRow V c e)) k := by
  refine (pay1c_apply (iblk1 V c 2 t) (iblk1 V c 7 t) (k1_pay5 (iblk1 V c 0 t) (iblk1 V c 1 t) (iblk1 V c 3 t) (iblk1 V c 4 t) (iblk1 V c 5 t) (iblk1 V c 6 t)) p k).trans ?_
  unfold Cert.Spec.rowVs
  refine congrArg₂ (· * ·) (blkV_apply V c t p k e he) ?_
  have e1 : ∀ h : Fin 8, (k1_pay5 (F := Ideal) (iblk1 V c 0 t) (iblk1 V c 1 t) (iblk1 V c 3 t) (iblk1 V c 4 t) (iblk1 V c 5 t) (iblk1 V c 6 t) (ix2 p h) : EReal) * ((iblk1 V c 7 t : Vec Ideal S8x128 .f32) (ix2 h k) : EReal)
      = Cert.Spec.rowS (scoreRow V c e) h * V c main_v41 (ix2 h k) :=
    fun h => congrArg₂ (· * ·) (blk_weight V c hG t p h e he) (congrFun (blkGt_eq V c t) (ix2 h k))
  rw [Finset.sum_congr rfl fun h _ => e1 h]
  exact sum_mul_selT (Cert.Spec.rowS (scoreRow V c e)) (fun h => V c main_v41 (ix2 h k)) k (fun h => hGt h k)

/-- The score array: row `e`, column `k` is the score of edge row `e` at `k`. -/
def scoreArr : S626688x128.Idx → EReal := fun i => scoreRow V c (i 0) (i 1)

/-- What point `t` writes back to this window's array is block `t` of that function. -/
theorem flushed8_eq (t : Fin cfg1.N) :
    (dat1 (F := Ideal) V c).flushed 8 t = ((cfg1.win 8).blk t).view.read (Elt Ideal) (scoreArr V c) := by
  show (cfg1.win 8).cut (grid1.coords t) ((dat1 (F := Ideal) V c).after 8 t) = _
  rw [after1_8]
  unfold out1_8
  rw [View.canon_unit_zero hz]
  simp only [View.ld_unit_zero (S := S2048x128) hz, View.ld_unit_zero (S := S128x128) hz, View.ld_unit_zero (S := S1x128) hz]
  obtain ⟨h0, h1⟩ := idx_row8 t
  have ht : t.val < 306 := lt_of_lt_of_eq t.isLt (N_1 : cfg1.N = 306)
  funext j
  have hj0 : (j 0).val < 2048 := (j 0).isLt
  have hj1 : (j 1).val < 128 := (j 1).isLt
  have hx : (cfg1.win 8).xinj (grid1.coords t) j = ix2 (⟨(j 0).val, hj0⟩ : Fin 2048) (⟨(j 1).val, hj1⟩ : Fin 128) :=
    funext fun a => by match a with | ⟨0, _⟩ => rfl | ⟨1, _⟩ => rfl
  have hemb : ((cfg1.win 8).blk t).view.emb j
      = ix2 (⟨t.val * 2048 + (j 0).val, by omega⟩ : Fin 626688) (⟨(j 1).val, hj1⟩ : Fin 128) :=
    funext fun a => Fin.ext (by
      match a with
      | ⟨0, _⟩ => show win1_8.index t (0 : Fin 2) * 2048 + 1 * (j 0).val = t.val * 2048 + (j 0).val; rw [h0]; omega
      | ⟨1, _⟩ => show win1_8.index t (1 : Fin 2) * 128 + 1 * (j 1).val = (j 1).val; rw [h1]; omega)
  show (k1_pay3 (F := Ideal) (iblk1 V c 0 t) (iblk1 V c 1 t) (iblk1 V c 3 t) (iblk1 V c 4 t) (iblk1 V c 5 t)) ((cfg1.win 8).xinj (grid1.coords t) j) = scoreArr V c (((cfg1.win 8).blk t).view.emb j)
  refine (congrArg (k1_pay3 (F := Ideal) (iblk1 V c 0 t) (iblk1 V c 1 t) (iblk1 V c 3 t) (iblk1 V c 4 t) (iblk1 V c 5 t)) hx).trans (Eq.trans ?_ (congrArg (scoreArr V c) hemb).symm)
  exact blk_score V c t _ _ _ rfl

/-- An index of the array is in point `t`'s block iff each coordinate is in the block's range on its axis. -/
theorem mem_blk8 (t : Fin cfg1.N) (i : S626688x128.Idx) :
    i ∈ ((cfg1.win 8).blk t).view.set ↔ ∀ a : Fin 2, win1_8.index t a * S2048x128.size a ≤ (i a).val ∧ (i a).val < win1_8.index t a * S2048x128.size a + S2048x128.size a := by
  show i ∈ ((View.whole main_v42_0).slice (win1_8.rect t)).set ↔ _
  rw [View.set_slice_whole, Rect.mem_set_unit]
  exact Iff.rfl

/-- Every row lies in the block of the point numbered by the row over 2048: the blocks tile the array. -/
theorem cover8 (i : S626688x128.Idx) : ∃ t : Fin cfg1.N, (cfg1.win 8).flush t = true ∧ i ∈ ((cfg1.win 8).blk t).view.set := by
  have hi0 : (i 0).val < 626688 := (i 0).isLt
  have hi1 : (i 1).val < 128 := (i 1).isLt
  have hN : cfg1.N = 306 := N_1
  refine ⟨⟨(i 0).val / 2048, by rw [hN]; omega⟩, flush1_8 _, ?_⟩
  obtain ⟨h0, h1⟩ := idx_row8 (⟨(i 0).val / 2048, by rw [hN]; omega⟩ : Fin cfg1.N)
  rw [mem_blk8]
  intro a
  match a with
  | ⟨0, _⟩ =>
    show win1_8.index _ (0 : Fin 2) * 2048 ≤ (i 0).val ∧ (i 0).val < win1_8.index _ (0 : Fin 2) * 2048 + 2048
    rw [h0]; show (i 0).val / 2048 * 2048 ≤ (i 0).val ∧ (i 0).val < (i 0).val / 2048 * 2048 + 2048; omega
  | ⟨1, _⟩ =>
    show win1_8.index _ (1 : Fin 2) * 128 ≤ (i 1).val ∧ (i 1).val < win1_8.index _ (1 : Fin 2) * 128 + 128
    rw [h1]; omega

/-- The array after the region. -/
theorem final8 : (dat1 (F := Ideal) V c).arrAt 8 cfg1.N = scoreArr V c :=
  (dat1 (F := Ideal) V c).arrAt_eq_of_cover 8 (scoreArr V c) (fun t _ => flushed8_eq V c t) (cover8)

/-- The weight array: row `e`, head `h` is the weight of edge row `e` for head `h`. -/
def weightArr : S626688x8.Idx → EReal := fun i => Cert.Spec.rowS (scoreRow V c (i 0)) (i 1)

/-- What point `t` writes back to this window's array is block `t` of that function. -/
theorem flushed10_eq (hG : ∀ (k : Fin 128) (h : Fin 8), V c main_v40 (ix2 k h) = if Cert.Spec.hd k = h then (1 : EReal) else 0)
    (t : Fin cfg1.N) :
    (dat1 (F := Ideal) V c).flushed 10 t = ((cfg1.win 10).blk t).view.read (Elt Ideal) (weightArr V c) := by
  show (cfg1.win 10).cut (grid1.coords t) ((dat1 (F := Ideal) V c).after 10 t) = _
  rw [after1_10]
  unfold out1_10
  rw [View.canon_unit_zero hz]
  simp only [View.ld_unit_zero (S := S2048x128) hz, View.ld_unit_zero (S := S128x128) hz, View.ld_unit_zero (S := S1x128) hz, View.ld_unit_zero (S := S128x8) hz, View.ld_unit_zero (S := S8x128) hz]
  obtain ⟨h0, h1⟩ := idx_row10 t
  have ht : t.val < 306 := lt_of_lt_of_eq t.isLt (N_1 : cfg1.N = 306)
  funext j
  have hj0 : (j 0).val < 2048 := (j 0).isLt
  have hj1 : (j 1).val < 8 := (j 1).isLt
  have hx : (cfg1.win 10).xinj (grid1.coords t) j = ix2 (⟨(j 0).val, hj0⟩ : Fin 2048) (⟨(j 1).val, hj1⟩ : Fin 8) :=
    funext fun a => by match a with | ⟨0, _⟩ => rfl | ⟨1, _⟩ => rfl
  have hemb : ((cfg1.win 10).blk t).view.emb j
      = ix2 (⟨t.val * 2048 + (j 0).val, by omega⟩ : Fin 626688) (⟨(j 1).val, hj1⟩ : Fin 8) :=
    funext fun a => Fin.ext (by
      match a with
      | ⟨0, _⟩ => show win1_10.index t (0 : Fin 2) * 2048 + 1 * (j 0).val = t.val * 2048 + (j 0).val; rw [h0]; omega
      | ⟨1, _⟩ => show win1_10.index t (1 : Fin 2) * 8 + 1 * (j 1).val = (j 1).val; rw [h1]; omega)
  show (k1_pay5 (F := Ideal) (iblk1 V c 0 t) (iblk1 V c 1 t) (iblk1 V c 3 t) (iblk1 V c 4 t) (iblk1 V c 5 t) (iblk1 V c 6 t)) ((cfg1.win 10).xinj (grid1.coords t) j) = weightArr V c (((cfg1.win 10).blk t).view.emb j)
  refine (congrArg (k1_pay5 (F := Ideal) (iblk1 V c 0 t) (iblk1 V c 1 t) (iblk1 V c 3 t) (iblk1 V c 4 t) (iblk1 V c 5 t) (iblk1 V c 6 t)) hx).trans (Eq.trans ?_ (congrArg (weightArr V c) hemb).symm)
  exact blk_weight V c hG t _ _ _ rfl

/-- An index of the array is in point `t`'s block iff each coordinate is in the block's range on its axis. -/
theorem mem_blk10 (t : Fin cfg1.N) (i : S626688x8.Idx) :
    i ∈ ((cfg1.win 10).blk t).view.set ↔ ∀ a : Fin 2, win1_10.index t a * S2048x8.size a ≤ (i a).val ∧ (i a).val < win1_10.index t a * S2048x8.size a + S2048x8.size a := by
  show i ∈ ((View.whole main_v42_2).slice (win1_10.rect t)).set ↔ _
  rw [View.set_slice_whole, Rect.mem_set_unit]
  exact Iff.rfl

/-- Every row lies in the block of the point numbered by the row over 2048: the blocks tile the array. -/
theorem cover10 (i : S626688x8.Idx) : ∃ t : Fin cfg1.N, (cfg1.win 10).flush t = true ∧ i ∈ ((cfg1.win 10).blk t).view.set := by
  have hi0 : (i 0).val < 626688 := (i 0).isLt
  have hi1 : (i 1).val < 8 := (i 1).isLt
  have hN : cfg1.N = 306 := N_1
  refine ⟨⟨(i 0).val / 2048, by rw [hN]; omega⟩, flush1_10 _, ?_⟩
  obtain ⟨h0, h1⟩ := idx_row10 (⟨(i 0).val / 2048, by rw [hN]; omega⟩ : Fin cfg1.N)
  rw [mem_blk10]
  intro a
  match a with
  | ⟨0, _⟩ =>
    show win1_10.index _ (0 : Fin 2) * 2048 ≤ (i 0).val ∧ (i 0).val < win1_10.index _ (0 : Fin 2) * 2048 + 2048
    rw [h0]; show (i 0).val / 2048 * 2048 ≤ (i 0).val ∧ (i 0).val < (i 0).val / 2048 * 2048 + 2048; omega
  | ⟨1, _⟩ =>
    show win1_10.index _ (1 : Fin 2) * 8 ≤ (i 1).val ∧ (i 1).val < win1_10.index _ (1 : Fin 2) * 8 + 8
    rw [h1]; omega

/-- The array after the region. -/
theorem final10 (hG : ∀ (k : Fin 128) (h : Fin 8), V c main_v40 (ix2 k h) = if Cert.Spec.hd k = h then (1 : EReal) else 0)
    : (dat1 (F := Ideal) V c).arrAt 10 cfg1.N = weightArr V c :=
  (dat1 (F := Ideal) V c).arrAt_eq_of_cover 10 (weightArr V c) (fun t _ => flushed10_eq V c hG t) (cover10)

/-- The message array: row `e`, column `k` is the message of edge row `e` at `k`. -/
def msgArr : S626688x128.Idx → EReal := fun i => Cert.Spec.rowVs (fun j => V c main_v31 (ix2 (i 0) j)) (Cert.Spec.rowS (scoreRow V c (i 0))) (i 1)

/-- What point `t` writes back to this window's array is block `t` of that function. -/
theorem flushed9_eq (hG : ∀ (k : Fin 128) (h : Fin 8), V c main_v40 (ix2 k h) = if Cert.Spec.hd k = h then (1 : EReal) else 0)
    (hGt : ∀ (h : Fin 8) (k : Fin 128), V c main_v41 (ix2 h k) = if Cert.Spec.hd k = h then (1 : EReal) else 0)
    (t : Fin cfg1.N) :
    (dat1 (F := Ideal) V c).flushed 9 t = ((cfg1.win 9).blk t).view.read (Elt Ideal) (msgArr V c) := by
  show (cfg1.win 9).cut (grid1.coords t) ((dat1 (F := Ideal) V c).after 9 t) = _
  rw [after1_9]
  unfold out1_9
  rw [View.canon_unit_zero hz]
  simp only [View.ld_unit_zero (S := S2048x128) hz, View.ld_unit_zero (S := S128x128) hz, View.ld_unit_zero (S := S1x128) hz, View.ld_unit_zero (S := S128x8) hz, View.ld_unit_zero (S := S8x128) hz]
  obtain ⟨h0, h1⟩ := idx_row9 t
  have ht : t.val < 306 := lt_of_lt_of_eq t.isLt (N_1 : cfg1.N = 306)
  funext j
  have hj0 : (j 0).val < 2048 := (j 0).isLt
  have hj1 : (j 1).val < 128 := (j 1).isLt
  have hx : (cfg1.win 9).xinj (grid1.coords t) j = ix2 (⟨(j 0).val, hj0⟩ : Fin 2048) (⟨(j 1).val, hj1⟩ : Fin 128) :=
    funext fun a => by match a with | ⟨0, _⟩ => rfl | ⟨1, _⟩ => rfl
  have hemb : ((cfg1.win 9).blk t).view.emb j
      = ix2 (⟨t.val * 2048 + (j 0).val, by omega⟩ : Fin 626688) (⟨(j 1).val, hj1⟩ : Fin 128) :=
    funext fun a => Fin.ext (by
      match a with
      | ⟨0, _⟩ => show win1_9.index t (0 : Fin 2) * 2048 + 1 * (j 0).val = t.val * 2048 + (j 0).val; rw [h0]; omega
      | ⟨1, _⟩ => show win1_9.index t (1 : Fin 2) * 128 + 1 * (j 1).val = (j 1).val; rw [h1]; omega)
  show (k1_pay1 (F := Ideal) (k1_pay2 (iblk1 V c 2 t)) (k1_pay4 (iblk1 V c 7 t)) (k1_pay5 (iblk1 V c 0 t) (iblk1 V c 1 t) (iblk1 V c 3 t) (iblk1 V c 4 t) (iblk1 V c 5 t) (iblk1 V c 6 t))) ((cfg1.win 9).xinj (grid1.coords t) j) = msgArr V c (((cfg1.win 9).blk t).view.emb j)
  refine (congrArg (k1_pay1 (F := Ideal) (k1_pay2 (iblk1 V c 2 t)) (k1_pay4 (iblk1 V c 7 t)) (k1_pay5 (iblk1 V c 0 t) (iblk1 V c 1 t) (iblk1 V c 3 t) (iblk1 V c 4 t) (iblk1 V c 5 t) (iblk1 V c 6 t))) hx).trans (Eq.trans ?_ (congrArg (msgArr V c) hemb).symm)
  exact blk_msg V c hG hGt t _ _ _ rfl

/-- An index of the array is in point `t`'s block iff each coordinate is in the block's range on its axis. -/
theorem mem_blk9 (t : Fin cfg1.N) (i : S626688x128.Idx) :
    i ∈ ((cfg1.win 9).blk t).view.set ↔ ∀ a : Fin 2, win1_9.index t a * S2048x128.size a ≤ (i a).val ∧ (i a).val < win1_9.index t a * S2048x128.size a + S2048x128.size a := by
  show i ∈ ((View.whole main_v42_1).slice (win1_9.rect t)).set ↔ _
  rw [View.set_slice_whole, Rect.mem_set_unit]
  exact Iff.rfl

/-- Every row lies in the block of the point numbered by the row over 2048: the blocks tile the array. -/
theorem cover9 (i : S626688x128.Idx) : ∃ t : Fin cfg1.N, (cfg1.win 9).flush t = true ∧ i ∈ ((cfg1.win 9).blk t).view.set := by
  have hi0 : (i 0).val < 626688 := (i 0).isLt
  have hi1 : (i 1).val < 128 := (i 1).isLt
  have hN : cfg1.N = 306 := N_1
  refine ⟨⟨(i 0).val / 2048, by rw [hN]; omega⟩, flush1_9 _, ?_⟩
  obtain ⟨h0, h1⟩ := idx_row9 (⟨(i 0).val / 2048, by rw [hN]; omega⟩ : Fin cfg1.N)
  rw [mem_blk9]
  intro a
  match a with
  | ⟨0, _⟩ =>
    show win1_9.index _ (0 : Fin 2) * 2048 ≤ (i 0).val ∧ (i 0).val < win1_9.index _ (0 : Fin 2) * 2048 + 2048
    rw [h0]; show (i 0).val / 2048 * 2048 ≤ (i 0).val ∧ (i 0).val < (i 0).val / 2048 * 2048 + 2048; omega
  | ⟨1, _⟩ =>
    show win1_9.index _ (1 : Fin 2) * 128 ≤ (i 1).val ∧ (i 1).val < win1_9.index _ (1 : Fin 2) * 128 + 128
    rw [h1]; omega

/-- The array after the region. -/
theorem final9 (hG : ∀ (k : Fin 128) (h : Fin 8), V c main_v40 (ix2 k h) = if Cert.Spec.hd k = h then (1 : EReal) else 0)
    (hGt : ∀ (h : Fin 8) (k : Fin 128), V c main_v41 (ix2 h k) = if Cert.Spec.hd k = h then (1 : EReal) else 0)
    : (dat1 (F := Ideal) V c).arrAt 9 cfg1.N = msgArr V c :=
  (dat1 (F := Ideal) V c).arrAt_eq_of_cover 9 (msgArr V c) (fun t _ => flushed9_eq V c hG hGt t) (cover9)

/-! ## The three arrays the region leaves -/

/-- The score array after the region, at row `e` and column `k`. -/
theorem out8 (e : Fin 626688) (k : Fin 128) :
    (dat1 (F := Ideal) V c).arrAt 8 cfg1.N (ix2 e k) = scoreRow V c e k :=
  congrFun (final8 V c) (ix2 e k)

/-- The weight array after the region, at row `e` and head `h`. -/
theorem out10 (hG : ∀ (k : Fin 128) (h : Fin 8), V c main_v40 (ix2 k h) = if Cert.Spec.hd k = h then (1 : EReal) else 0)
    (e : Fin 626688) (h : Fin 8) :
    (dat1 (F := Ideal) V c).arrAt 10 cfg1.N (ix2 e h) = Cert.Spec.rowS (scoreRow V c e) h :=
  congrFun (final10 V c hG) (ix2 e h)

/-- The message array after the region, at row `e` and column `k`. -/
theorem out9 (hG : ∀ (k : Fin 128) (h : Fin 8), V c main_v40 (ix2 k h) = if Cert.Spec.hd k = h then (1 : EReal) else 0)
    (hGt : ∀ (h : Fin 8) (k : Fin 128), V c main_v41 (ix2 h k) = if Cert.Spec.hd k = h then (1 : EReal) else 0)
    (e : Fin 626688) (k : Fin 128) :
    (dat1 (F := Ideal) V c).arrAt 9 cfg1.N (ix2 e k)
      = Cert.Spec.rowVs (fun j => V c main_v31 (ix2 e j)) (Cert.Spec.rowS (scoreRow V c e)) k :=
  congrFun (final9 V c hG hGt) (ix2 e k)

end Cert.KernelIdeal.R1

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostEnds.lean ====
/-
  The host lines at the two ends of the program, read at an index.

  Before the first kernel region the four bias vectors (128 entries each) are viewed as one-row matrices: entry
  `(0, j)` of the row is entry `j` of the vector, and nothing else is written.

  After the second region a node's output is assembled from the edge rows the region left. The message rows
  (`[626688, 128]`) and the weight rows (`[626688, 8]`) are each summed by destination: row `e` is added to row `n`
  of a zero array exactly when edge `e`'s destination word, read signed and not shifted, is `n`. The summed messages
  are viewed as 8 heads of 16 entries (column `16 h + d` is entry `d` of head `h`), the summed weights get the small
  constant added and are repeated over a head's 16 entries, and the first is divided by the second entry by entry. The
  second result is the first 625000 of the 626688 score rows, viewed as heads the same way.
-/
import proofs.«115140_j17506286698742_2_alg».proof.Proof.Gen.KernelIdeal.Launch
import proofs.«115140_j17506286698742_2_alg».proof.Proof.Spec
import proofs.«115140_j17506286698742_2_alg».proof.Proof.Iface
import proofs.«115140_j17506286698742_2_alg».proof.Proof.IfaceTail
import proofs.«115140_j17506286698742_2_alg».proof.Proof.LibRowIndex
import proofs.«115140_j17506286698742_2_alg».proof.Proof.LibCat
import Idealize.ShloMosaic.Lib.StableHlo.Run
import Idealize.ShloMosaic.Lib.Pipeline.Value
import Idealize.ShloMosaic.Lib.ValueLayout

noncomputable section

open scoped BigOperators

namespace Cert.KernelIdeal.HostEnds

open Cert.KernelIdeal Cert.KernelIdeal.Gen Cert.KernelIdeal.Host Cert.Lib.RowIndex
open Idealize.ShloMosaic Idealize.ShloMosaic.TcCoe Idealize.SL.Sem Idealize.ShloMosaic.ValueIdx

variable (W : Valuation τ sig (Elt Ideal))

/-- A vector of 128 entries viewed as a one-row matrix: entry `(0, j)` is entry `j`. -/
theorem pre_v0 (j : Fin 128) : StableHlo.after (hostOps0 (F := Ideal)) W (Proc.devRef .tc main_v0) (ix2 (0 : Fin 1) j) = W (Proc.devRef .tc main_arg5) (ix1 j) := by
  dsimp only [Gen.hostOps0]
  after_results
  exact shapeCast_a_1a_apply (a := 128) (W (Proc.devRef .tc main_arg5)) shapeCasts_S128_S1x128 (0 : Fin 1) j

/-- The same for the second bias vector. -/
theorem pre_v1 (j : Fin 128) : StableHlo.after (hostOps0 (F := Ideal)) W (Proc.devRef .tc main_v1) (ix2 (0 : Fin 1) j) = W (Proc.devRef .tc main_arg7) (ix1 j) := by
  dsimp only [Gen.hostOps0]
  after_results
  exact shapeCast_a_1a_apply (a := 128) (W (Proc.devRef .tc main_arg7)) shapeCasts_S128_S1x128 (0 : Fin 1) j

/-- The same for the third bias vector. -/
theorem pre_v2 (j : Fin 128) : StableHlo.after (hostOps0 (F := Ideal)) W (Proc.devRef .tc main_v2) (ix2 (0 : Fin 1) j) = W (Proc.devRef .tc main_arg9) (ix1 j) := by
  dsimp only [Gen.hostOps0]
  after_results
  exact shapeCast_a_1a_apply (a := 128) (W (Proc.devRef .tc main_arg9)) shapeCasts_S128_S1x128 (0 : Fin 1) j

/-- The same for the fourth bias vector. -/
theorem pre_v3 (j : Fin 128) : StableHlo.after (hostOps0 (F := Ideal)) W (Proc.devRef .tc main_v3) (ix2 (0 : Fin 1) j) = W (Proc.devRef .tc main_arg11) (ix1 j) := by
  dsimp only [Gen.hostOps0]
  after_results
  exact shapeCast_a_1a_apply (a := 128) (W (Proc.devRef .tc main_arg11)) shapeCasts_S128_S1x128 (0 : Fin 1) j

/-- The four views write the four row buffers and nothing else: every other buffer keeps its contents. -/
theorem pre_keep (b : Ref sig .tc) (h0 : b ≠ main_v0) (h1 : b ≠ main_v1) (h2 : b ≠ main_v2) (h3 : b ≠ main_v3) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3⟩))

/-! ## The pieces of the last host lines, over variable arrays -/

section Pieces

variable (dw : S626688.Idx → BitVec 32)

/-- The destination words as a one-column matrix: entry `(e, 0)` is word `e`. -/
theorem words_col (e : Fin 626688) :
    broadcastInDim S626688x1 ![0] bcast_S626688_S626688x1_0 dw (ix2 e (0 : Fin 1)) = dw (ix1 e) :=
  broadcastInDim_apply (s := S626688) (t := S626688x1) ![0] bcast_S626688_S626688x1_0 dw (ix2 e (0 : Fin 1)) (ix1 e)
    (fun a => by
      match a with
      | ⟨0, _⟩ =>
        show e.val = if (626688 : Nat) = 1 then 0 else e.val
        exact (if_neg (by decide)).symm)

/-- The message rows summed by destination, at row `n` and column `c`: the zero word plus the entries `(e, c)` of
    the rows `e` whose destination word is `n`. -/
theorem sum_msgs (u : S626688x128.Idx → EReal) (n : Fin 50000) (c : Fin 128) :
    Host.scatterAdd (F := Ideal) (φ := .f32) scatter_S50000x128_S626688x1_S626688x128_1_0_0_1
        (broadcastInDim S50000x128 ![] bcast_S_S50000x128 (constant (F := Ideal) S_ .f32 0x00000000#32))
        (broadcastInDim S626688x1 ![0] bcast_S626688_S626688x1_0 dw) u (ix2 n c)
      = Cert.Spec.zero + ∑ e ∈ Finset.univ.filter (fun e : Fin 626688 => land 50000 (dw (ix1 e)) = some n), u (ix2 e c) := by
  refine (scatterAdd_rows_apply (φ := .f32) scatter_S50000x128_S626688x1_S626688x128_1_0_0_1_wf _ _ u n c).trans ?_
  refine congrArg₂ (fun a b : EReal => a + b) ?_ ?_
  · exact constant_apply (s := S_) (φ := .f32) 0x00000000#32 _
  · refine Finset.sum_congr (Finset.filter_congr (fun e _ => ?_)) (fun _ _ => rfl)
    rw [words_col dw e]

/-- The weight rows summed by destination, at row `n` and head `h`. -/
theorem sum_wts (u : S626688x8.Idx → EReal) (n : Fin 50000) (h : Fin 8) :
    Host.scatterAdd (F := Ideal) (φ := .f32) scatter_S50000x8_S626688x1_S626688x8_1_0_0_1
        (broadcastInDim S50000x8 ![] bcast_S_S50000x8 (constant (F := Ideal) S_ .f32 0x00000000#32))
        (broadcastInDim S626688x1 ![0] bcast_S626688_S626688x1_0 dw) u (ix2 n h)
      = Cert.Spec.zero + ∑ e ∈ Finset.univ.filter (fun e : Fin 626688 => land 50000 (dw (ix1 e)) = some n), u (ix2 e h) := by
  refine (scatterAdd_rows_apply (φ := .f32) scatter_S50000x8_S626688x1_S626688x8_1_0_0_1_wf _ _ u n h).trans ?_
  refine congrArg₂ (fun a b : EReal => a + b) ?_ ?_
  · exact constant_apply (s := S_) (φ := .f32) 0x00000000#32 _
  · refine Finset.sum_congr (Finset.filter_congr (fun e _ => ?_)) (fun _ _ => rfl)
    rw [words_col dw e]

/-- A `[50000, 128]` array viewed as 8 heads of 16 entries: entry `(n, h, d)` is entry `(n, 16 h + d)`. -/
theorem heads_node {α : Type} (x : S50000x128.Idx → α) (n : Fin 50000) (h : Fin 8) (d : Fin 16) :
    shapeCast S50000x8x16 x shapeCasts_S50000x128_S50000x8x16 (ix3 n h d) = x (ix2 n (Cert.Spec.col h d)) :=
  shapeCast_apply (s := S50000x128) (t := S50000x8x16) x shapeCasts_S50000x128_S50000x8x16 (ix3 n h d) (ix2 n (Cert.Spec.col h d)) (by
    rw [Shape.rowMajor_val_two, Shape.rowMajor_val_three]
    show n.val * 128 + (16 * h.val + d.val) = (n.val * 8 + h.val) * 16 + d.val
    omega)

/-- A `[625000, 128]` array viewed as 8 heads of 16 entries: entry `(e, h, d)` is entry `(e, 16 h + d)`. -/
theorem heads_edge {α : Type} (x : S625000x128.Idx → α) (e : Fin 625000) (h : Fin 8) (d : Fin 16) :
    shapeCast S625000x8x16 x shapeCasts_S625000x128_S625000x8x16 (ix3 e h d) = x (ix2 e (Cert.Spec.col h d)) :=
  shapeCast_apply (s := S625000x128) (t := S625000x8x16) x shapeCasts_S625000x128_S625000x8x16 (ix3 e h d) (ix2 e (Cert.Spec.col h d)) (by
    rw [Shape.rowMajor_val_two, Shape.rowMajor_val_three]
    show e.val * 128 + (16 * h.val + d.val) = (e.val * 8 + h.val) * 16 + d.val
    omega)

/-- A `[50000, 8]` array with a unit axis appended: entry `(n, h, 0)` is entry `(n, h)`. -/
theorem unit_last {α : Type} (x : S50000x8.Idx → α) (n : Fin 50000) (h : Fin 8) (u : Fin 1) :
    shapeCast S50000x8x1 x shapeCasts_S50000x8_S50000x8x1 (ix3 n h u) = x (ix2 n h) :=
  shapeCast_apply (s := S50000x8) (t := S50000x8x1) x shapeCasts_S50000x8_S50000x8x1 (ix3 n h u) (ix2 n h) (by
    have hu : u.val = 0 := by omega
    rw [Shape.rowMajor_val_two, Shape.rowMajor_val_three]
    show n.val * 8 + h.val = (n.val * 8 + h.val) * 1 + u.val
    omega)

/-- A `[50000, 8, 1]` array repeated over a head's 16 entries: entry `(n, h, d)` is entry `(n, h, 0)`. -/
theorem repeat_head {α : Type} (x : S50000x8x1.Idx → α) (n : Fin 50000) (h : Fin 8) (d : Fin 16) :
    broadcastInDim S50000x8x16 ![0, 1, 2] bcast_S50000x8x1_S50000x8x16_0_1_2 x (ix3 n h d) = x (ix3 n h (0 : Fin 1)) :=
  broadcastInDim_apply (s := S50000x8x1) (t := S50000x8x16) ![0, 1, 2] bcast_S50000x8x1_S50000x8x16_0_1_2 x (ix3 n h d) (ix3 n h (0 : Fin 1))
    (fun a => by
      match a with
      | ⟨0, _⟩ =>
        show n.val = if (50000 : Nat) = 1 then 0 else n.val
        exact (if_neg (by decide)).symm
      | ⟨1, _⟩ =>
        show h.val = if (8 : Nat) = 1 then 0 else h.val
        exact (if_neg (by decide)).symm
      | ⟨2, _⟩ =>
        show (0 : Nat) = if (1 : Nat) = 1 then 0 else d.val
        exact (if_pos rfl).symm)

/-- The first 625000 of 626688 rows: row `e` is row `e`. -/
theorem first_rows {α : Type} (x : S626688x128.Idx → α) (e : Fin 625000) (c : Fin 128) :
    extractStridedSlice S625000x128 ![0, 0] x slices_S626688x128_S625000x128_0_0 (ix2 e c) = x (ix2 (padRow e) c) :=
  slice2_axis0_apply 0 x slices_S626688x128_S625000x128_0_0 e c (padRow e) (Nat.zero_add _).symm

/-- The host's quotient of two arrays, entry by entry. -/
theorem hdiv_apply {s : Shape} (a b : s.Idx → EReal) (i : s.Idx) :
    Host.divf (F := Ideal) (φ := .f32) a b i = Ideal.div (a i) (b i) := rfl

end Pieces

/-! ## The two results -/

/-- Node `n`'s output at head `h`, entry `d`: its summed messages at column `16 h + d` divided by its summed weights
    for head `h` plus the small constant. -/
theorem tail_hout (n : Fin 50000) (h : Fin 8) (d : Fin 16) :
    StableHlo.after (hostOps2 (F := Ideal)) W (Proc.devRef .tc main_v54) (ix3 n h d)
      = Ideal.div
          (Cert.Spec.zero + ∑ e ∈ Finset.univ.filter (fun e : Fin 626688 => land 50000 (dstw W (ix1 e)) = some n), msgs W (ix2 e (Cert.Spec.col h d)))
          ((Cert.Spec.zero + ∑ e ∈ Finset.univ.filter (fun e : Fin 626688 => land 50000 (dstw W (ix1 e)) = some n), wts W (ix2 e h)) + Cert.Spec.eps) := by
  dsimp only [Gen.hostOps2]
  after_results_simp
  refine (hdiv_apply _ _ _).trans ?_
  refine congrArg₂ Ideal.div ?_ ?_
  · refine (heads_node _ n h d).trans ?_
    exact sum_msgs (dstw W) (msgs W) n (Cert.Spec.col h d)
  · refine (repeat_head _ n h d).trans ?_
    refine (addf_apply (φ := .f32) _ _ _).trans ?_
    refine congrArg₂ (fun a b : EReal => a + b) ?_ ?_
    · refine (unit_last _ n h (0 : Fin 1)).trans ?_
      exact sum_wts (dstw W) (wts W) n h
    · exact constant_apply (s := S_) (φ := .f32) 0x358637BD#32 _

/-- The second result at edge `e`, head `h`, entry `d`: the score row `e` at column `16 h + d`. -/
theorem tail_eout (e : Fin 625000) (h : Fin 8) (d : Fin 16) :
    StableHlo.after (hostOps2 (F := Ideal)) W (Proc.devRef .tc main_v56) (ix3 e h d)
      = scores W (ix2 (padRow e) (Cert.Spec.col h d)) := by
  dsimp only [Gen.hostOps2]
  after_results_simp
  refine (heads_edge _ e h d).trans ?_
  exact first_rows (scores W) e (Cert.Spec.col h d)

end Cert.KernelIdeal.HostEnds

end
-- ==== Proof.HostMid.lean ====
/-
  The host lines between the two kernel regions, read at the rows of real edges.

  The edge arrays have 625000 rows; the second region works on 626688, so the lines pad them: the source words with
  1688 zeros, the destination words with 1688 copies of the row count 50000 (a word no node row answers to), the edge
  features with 1688 rows of zeros. A padded word is then shifted by the row count when negative, and three row gathers
  read the projected node rows at the shifted words. At a row below 625000 the padding plays no part: the gathered
  row is the projected row at the row the edge's own word names.
-/
import proofs.«115140_j17506286698742_2_alg».proof.Proof.Gen.KernelIdeal.Launch
import proofs.«115140_j17506286698742_2_alg».proof.Proof.Spec
import proofs.«115140_j17506286698742_2_alg».proof.Proof.Iface
import proofs.«115140_j17506286698742_2_alg».proof.Proof.LibRowIndex
import proofs.«115140_j17506286698742_2_alg».proof.Proof.LibCat
import Idealize.ShloMosaic.Lib.StableHlo.Run
import Idealize.ShloMosaic.Lib.Pipeline.Value
import Idealize.ShloMosaic.Lib.IdealHost

noncomputable section

namespace Cert.KernelIdeal.HostMid

open Cert.KernelIdeal Cert.KernelIdeal.Gen Cert.KernelIdeal.Host Idealize.ShloMosaic Idealize.ShloMosaic.TcCoe Idealize.SL.Sem Idealize.ShloMosaic.ValueIdx

/-! ## Buffers the three stretches leave alone

Each stretch of host lines writes a known list of buffers; a buffer outside the list holds afterwards what it held
before. -/

/-- A one-buffer set of written buffers lies inside a list of references that has the buffer. -/
theorem sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The buffers the padding, shifting and gathering lines write. -/
abbrev written1 : List (Ref sig .tc) :=
  [main_c, main_v5, main_v6, main_c_0, main_v7, main_v8, main_cst, main_v9, main_v10, main_c_1, main_v11, main_v12,
   main_c_2, main_v13, main_v14, main_v15, main_v16, main_v17, main_c_3, main_v18, main_v19, main_c_4, main_v20,
   main_v21, main_v22, main_v23, main_v24, main_c_5, main_v25, main_v26, main_c_6, main_v27, main_v28, main_v29,
   main_v30, main_v31, main_v32, main_v33, main_c_7]

/-- The buffers the floor division's lines write. -/
abbrev written1_1 : List (Ref sig .tc) :=
  [main_call0_v0, main_call0_v1, main_call0_v2, main_call0_v3, main_call0_v4, main_call0_v5, main_call0_v6,
   main_call0_v7, main_call0_v8, main_call0_c, main_call0_v9, main_call0_v10, main_call0_v11, main_call0_c_0,
   main_call0_v12, main_call0_v13, main_v34]

/-- The buffers the selector matrices' lines write. -/
abbrev written1_2 : List (Ref sig .tc) :=
  [main_v35, main_v36, main_v37, main_v38, main_v39, main_v40, main_v41]

/-- A buffer the first stretch does not write is kept by it. -/
theorem keep1 (V : Valuation τ sig (Elt Ideal)) (b : Ref sig .tc) (hb : b ∉ written1) :
    StableHlo.after hostOps1 V (Proc.devRef .tc b) = V (Proc.devRef .tc b) :=
  StableHlo.after_of_writes_sub hostOps1 V
    ⟨sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide)⟩ hb

/-- A buffer the floor division does not write is kept by it. -/
theorem keep1_1 (V : Valuation τ sig (Elt Ideal)) (b : Ref sig .tc) (hb : b ∉ written1_1) :
    StableHlo.after hostOps1_1 V (Proc.devRef .tc b) = V (Proc.devRef .tc b) :=
  StableHlo.after_of_writes_sub hostOps1_1 V
    ⟨sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide), sub_of_mem (by decide), sub_of_mem (by decide), sub_of_mem (by decide),
     sub_of_mem (by decide)⟩ hb

/-- A buffer the selector matrices' lines do not write is kept by them. -/
theorem keep1_2 (V : Valuation τ sig (Elt Ideal)) (b : Ref sig .tc) (hb : b ∉ written1_2) :
    StableHlo.after hostOps1_2 V (Proc.devRef .tc b) = V (Proc.devRef .tc b) :=
  StableHlo.after_of_writes_sub hostOps1_2 V
    ⟨sub_of_mem (by decide), sub_of_mem (by decide), sub_of_mem (by decide), sub_of_mem (by decide),
     sub_of_mem (by decide), sub_of_mem (by decide), sub_of_mem (by decide)⟩ hb

/-- A buffer neither of the two later stretches writes holds after all three what the first stretch left in it. -/
theorem mid_eq_first (W : Valuation τ sig (Elt Ideal)) (b : Ref sig .tc) (h1 : b ∉ written1_1) (h2 : b ∉ written1_2) :
    mid W (Proc.devRef .tc b) = StableHlo.after hostOps1 W (Proc.devRef .tc b) :=
  (keep1_2 _ b h2).trans (keep1_1 _ b h1)

/-! ## The padded arrays, the shifted words and a row gather, as functions of the arrays they are made from -/

/-- 625000 index words followed by 1688 copies of the word `c`. -/
def padWords (a : (⟨S625000, .i32⟩ : BufTy).Contents (Elt Ideal)) (c : BitVec 32) :
    (⟨S626688, .i32⟩ : BufTy).Contents (Elt Ideal) :=
  concatenate S626688 0 [⟨S625000, a⟩, ⟨S1688, broadcastInDim S1688 ![] bcast_S_S1688 (constantI S_ 32 c)⟩]
    concatenates_S625000_S1688_S626688_d0

/-- 625000 rows followed by 1688 rows of zeros. -/
def padRows (a : (⟨S625000x128, .f32⟩ : BufTy).Contents (Elt Ideal)) :
    (⟨S626688x128, .f32⟩ : BufTy).Contents (Elt Ideal) :=
  concatenate S626688x128 0
    [⟨S625000x128, a⟩, ⟨S1688x128, broadcastInDim S1688x128 ![] bcast_S_S1688x128 (constant (F := Ideal) S_ .f32 0x00000000#32)⟩]
    concatenates_S625000x128_S1688x128_S626688x128_d0

/-- Every word of an array shifted by the row count when it is negative. -/
def shift (v : (⟨S626688, .i32⟩ : BufTy).Contents (Elt Ideal)) : (⟨S626688, .i32⟩ : BufTy).Contents (Elt Ideal) :=
  select (cmpi .slt v (broadcastInDim S626688 ![] bcast_S_S626688 (constantI S_ 32 0#32)))
    (addi v (broadcastInDim S626688 ![] bcast_S_S626688 (constantI S_ 32 50000#32))) v

/-- The rows of `x` the shifted words of `v` name, one per word. -/
def gatherRows (x : (⟨S50000x128, .bf16⟩ : BufTy).Contents (Elt Ideal)) (v : (⟨S626688, .i32⟩ : BufTy).Contents (Elt Ideal)) :
    (⟨S626688x128, .bf16⟩ : BufTy).Contents (Elt Ideal) :=
  Host.gather gather_S50000x128_S626688x1_S626688x128_1_0_n_n_0_1_1128 x
    (broadcastInDim S626688x1 ![0] bcast_S626688_S626688x1_0 (shift v))

/-- A padded word array at a position below 625000 is the array it pads. -/
theorem padWords_lt (a : (⟨S625000, .i32⟩ : BufTy).Contents (Elt Ideal)) (c : BitVec 32) (e : Fin 625000) :
    padWords a c (ix1 (padRow e)) = a (ix1 e) :=
  concatenate_pair_apply_left (t := S626688) (s₁ := S625000) (s₂ := S1688) (0 : Fin 1) a _
    concatenates_S625000_S1688_S626688_d0 (ix1 (padRow e)) rfl (ix1 e)
    (fun b => by match b with | ⟨0, _⟩ => rfl)

/-- A padded word array at a position from 625000 on is the padding word. -/
theorem padWords_ge (a : (⟨S625000, .i32⟩ : BufTy).Contents (Elt Ideal)) (c : BitVec 32) (e : Fin 626688)
    (he : 625000 ≤ e.val) : padWords a c (ix1 e) = c :=
  (concatenate_pair_apply_right (t := S626688) (s₁ := S625000) (s₂ := S1688) (0 : Fin 1) a
    (broadcastInDim S1688 ![] bcast_S_S1688 (constantI S_ 32 c))
    concatenates_S625000_S1688_S626688_d0 (ix1 e) rfl rfl (ix1 (⟨e.val - 625000, by omega⟩ : Fin 1688))
    (fun b hb => by match b, hb with | ⟨0, _⟩, hb => exact absurd rfl hb)
    (by show e.val - 625000 + 625000 = e.val; omega)).trans rfl

/-- A padded row array at a row below 625000 is the array it pads. -/
theorem padRows_lt (a : (⟨S625000x128, .f32⟩ : BufTy).Contents (Elt Ideal)) (e : Fin 625000) (k : Fin 128) :
    padRows a (ix2 (padRow e) k) = a (ix2 e k) :=
  concatenate_pair_apply_left (t := S626688x128) (s₁ := S625000x128) (s₂ := S1688x128) (0 : Fin 2) a _
    concatenates_S625000x128_S1688x128_S626688x128_d0 (ix2 (padRow e) k) rfl (ix2 e k)
    (fun b => by match b with | ⟨0, _⟩ => rfl | ⟨1, _⟩ => rfl)

/-- A shifted array at a position is the shifted word. -/
theorem shift_apply (v : (⟨S626688, .i32⟩ : BufTy).Contents (Elt Ideal)) (i : S626688.Idx) :
    shift v i = Cert.Spec.nrm (v i) := rfl

/-- Row `e`, column `k` of the gathered rows: `x` at the row word `e` names. -/
theorem gatherRows_apply (x : (⟨S50000x128, .bf16⟩ : BufTy).Contents (Elt Ideal))
    (v : (⟨S626688, .i32⟩ : BufTy).Contents (Elt Ideal)) (e : Fin 626688) (k : Fin 128) :
    gatherRows x v (ix2 e k) = x (ix2 (Cert.Spec.rowOf (v (ix1 e))) k) := by
  show Host.gather (Cert.Lib.RowIndex.rowGather 50000 626688 128
      gather_S50000x128_S626688x1_S626688x128_1_0_n_n_0_1_1128_wf) x
      (broadcastInDim S626688x1 ![0] bcast_S626688_S626688x1_0 (shift v)) (ix2 e k) = _
  refine (Cert.Lib.RowIndex.gather_rows_apply (by decide) _ x _ e k).trans ?_
  have hb : broadcastInDim S626688x1 ![0] bcast_S626688_S626688x1_0 (shift v) (ix2 e (0 : Fin 1)) = shift v (ix1 e) :=
    broadcastInDim_apply (s := S626688) (t := S626688x1) ![0] bcast_S626688_S626688x1_0 (shift v) (ix2 e (0 : Fin 1)) (ix1 e)
      (fun a => by match a with | ⟨0, _⟩ => rfl)
  rw [hb, shift_apply]
  rfl

/-! ## What the first stretch leaves in the padded and gathered buffers -/

variable (W : Valuation τ sig (Elt Ideal))

theorem first_v6 : StableHlo.after hostOps1 W (Proc.devRef .tc main_v6)
    = padWords (W (Proc.devRef .tc main_arg2)) 0#32 := by
  dsimp only [hostOps1]
  after_results_simp
  finish_results_rw
  rfl

theorem first_v8 : StableHlo.after hostOps1 W (Proc.devRef .tc main_v8)
    = padWords (W (Proc.devRef .tc main_arg3)) 50000#32 := by
  dsimp only [hostOps1]
  after_results_simp
  finish_results_rw
  rfl

theorem first_v10 : StableHlo.after hostOps1 W (Proc.devRef .tc main_v10)
    = padRows (W (Proc.devRef .tc main_arg1)) := by
  dsimp only [hostOps1]
  after_results_simp
  finish_results_rw
  rfl

theorem first_v17 : StableHlo.after hostOps1 W (Proc.devRef .tc main_v17)
    = gatherRows (W (Proc.devRef .tc main_v4_1)) (padWords (W (Proc.devRef .tc main_arg2)) 0#32) := by
  dsimp only [hostOps1]
  after_results_simp
  finish_results_rw
  rfl

theorem first_v24 : StableHlo.after hostOps1 W (Proc.devRef .tc main_v24)
    = gatherRows (W (Proc.devRef .tc main_v4_0)) (padWords (W (Proc.devRef .tc main_arg3)) 50000#32) := by
  dsimp only [hostOps1]
  after_results_simp
  finish_results_rw
  rfl

theorem first_v31 : StableHlo.after hostOps1 W (Proc.devRef .tc main_v31)
    = gatherRows (W (Proc.devRef .tc main_v4_2)) (padWords (W (Proc.devRef .tc main_arg2)) 0#32) := by
  dsimp only [hostOps1]
  after_results_simp
  finish_results_rw
  rfl

/-! ## The buffers after the three stretches, at the rows of real edges -/

theorem mid_v17 (e : Fin 625000) (k : Fin 128) :
    mid W (Proc.devRef .tc main_v17) (ix2 (padRow e) k) = W (Proc.devRef .tc main_v4_1) (ix2 (Cert.Spec.rowOf (W (Proc.devRef .tc main_arg2) (ix1 e))) k) := by
  rw [mid_eq_first W main_v17 (by decide) (by decide), first_v17, gatherRows_apply, padWords_lt]

theorem mid_v24 (e : Fin 625000) (k : Fin 128) :
    mid W (Proc.devRef .tc main_v24) (ix2 (padRow e) k) = W (Proc.devRef .tc main_v4_0) (ix2 (Cert.Spec.rowOf (W (Proc.devRef .tc main_arg3) (ix1 e))) k) := by
  rw [mid_eq_first W main_v24 (by decide) (by decide), first_v24, gatherRows_apply, padWords_lt]

theorem mid_v31 (e : Fin 625000) (k : Fin 128) :
    mid W (Proc.devRef .tc main_v31) (ix2 (padRow e) k) = W (Proc.devRef .tc main_v4_2) (ix2 (Cert.Spec.rowOf (W (Proc.devRef .tc main_arg2) (ix1 e))) k) := by
  rw [mid_eq_first W main_v31 (by decide) (by decide), first_v31, gatherRows_apply, padWords_lt]

theorem mid_v10 (e : Fin 625000) (k : Fin 128) :
    mid W (Proc.devRef .tc main_v10) (ix2 (padRow e) k) = W (Proc.devRef .tc main_arg1) (ix2 e k) := by
  rw [mid_eq_first W main_v10 (by decide) (by decide), first_v10, padRows_lt]

theorem mid_v8_lt (e : Fin 625000) : mid W (Proc.devRef .tc main_v8) (ix1 (padRow e)) = W (Proc.devRef .tc main_arg3) (ix1 e) := by
  rw [mid_eq_first W main_v8 (by decide) (by decide), first_v8, padWords_lt]

theorem mid_v8_ge (e : Fin 626688) (he : 625000 ≤ e.val) : mid W (Proc.devRef .tc main_v8) (ix1 e) = 50000#32 := by
  rw [mid_eq_first W main_v8 (by decide) (by decide), first_v8, padWords_ge _ _ e he]

theorem mid_keep_v3 : mid W (Proc.devRef .tc main_v3) = W (Proc.devRef .tc main_v3) :=
  (mid_eq_first W main_v3 (by decide) (by decide)).trans (keep1 W main_v3 (by decide))

theorem mid_keep_arg10 : mid W (Proc.devRef .tc main_arg10) = W (Proc.devRef .tc main_arg10) :=
  (mid_eq_first W main_arg10 (by decide) (by decide)).trans (keep1 W main_arg10 (by decide))

end Cert.KernelIdeal.HostMid

end
-- ==== Proof.HostSel.lean ====
/-
  The two 0/1 head-selector matrices the host lines between the two kernel regions compute. The 128 feature columns
  are 8 heads of 16: column `k` belongs to head `k / 16`. The host numbers the columns `0 … 127` as 32-bit words,
  takes the floor quotient of each by the word `16` (the quotient rounded toward zero, lowered by one when the signs
  differ and the remainder is not zero — which never happens for a column number below 128 against `16`), compares
  the quotient with each head number `0 … 7`, and reads the one-bit answer unsigned as a number: entry `(k, h)` of the
  `[128, 8]` matrix is `1` when `k / 16 = h` and `0` otherwise, and the `[8, 128]` matrix is its transpose.

  The word facts are stated first, away from any buffer; then each of the three stretches of host lines is read from
  the contents before it, generically in those contents; then the composed arrays are read at an index.
-/
import proofs.«115140_j17506286698742_2_alg».proof.Proof.Gen.KernelIdeal.Launch
import proofs.«115140_j17506286698742_2_alg».proof.Proof.Spec
import proofs.«115140_j17506286698742_2_alg».proof.Proof.Iface
import Idealize.ShloMosaic.Lib.StableHlo.Run
import Idealize.ShloMosaic.Lib.Pipeline.Value
import Idealize.ShloMosaic.Lib.ValueLayout

noncomputable section

namespace Cert.KernelIdeal.HostSel

open Cert.KernelIdeal Cert.KernelIdeal.Gen Cert.KernelIdeal.Host Idealize.ShloMosaic Idealize.ShloMosaic.TcCoe Idealize.SL.Sem Idealize.ShloMosaic.ValueIdx

variable (W : Valuation τ sig (Elt Ideal))

/-! ## The word facts, away from any buffer

A column number `k < 128` and the divisor `16` are 32-bit words; the host program computes the floor quotient as
the quotient rounded toward zero, lowered by one when the operands' signs differ and the remainder is not zero. -/

/-- The sign of a word as a word: `0`, `-1` or `1`. -/
def sgn (x : BitVec 32) : BitVec 32 := if x = 0 then 0 else if x.msb then -1 else 1

/-- The floor quotient of two words, as the host program computes it: the quotient rounded toward zero, lowered by
    one when the signs differ and the remainder is not zero. -/
def fdivWord (x y : BitVec 32) : BitVec 32 :=
  Scalar.select
    (IntOp.andi (IntOp.cmpi .ne (sgn x) (sgn y)) (IntOp.cmpi .ne (IntOp.remsi .host x y) 0#32))
    (IntOp.subi (IntOp.divsi .host x y) 1#32)
    (IntOp.divsi .host x y)

/-- For a column number below 128 the floor quotient by 16 is the word of `k / 16`: the divisor is not zero, the
    signs differ only at `k = 0`, where the remainder is zero, so the quotient is never lowered. -/
theorem fdivWord_sixteen : ∀ k : Fin 128, fdivWord (BitVec.ofNat 32 k.val) 16#32 = BitVec.ofNat 32 (k.val / 16) := by
  decide +kernel

/-- Comparing the word of a column's head with the word of a head number, read unsigned as an extended real: `1`
    when the column belongs to the head, else `0`. -/
theorem sel_word (k : Fin 128) (h : Fin 8) :
    (FloatOps.uitofp (F := Ideal) .f32 (IntOp.cmpi .eq (BitVec.ofNat 32 (k.val / 16)) (BitVec.ofNat 32 h.val)) : EReal)
      = if Cert.Spec.hd k = h then (1 : EReal) else 0 := by
  have hk := k.isLt
  have hh := h.isLt
  show (((BitVec.ofBool (BitVec.ofNat 32 (k.val / 16) == BitVec.ofNat 32 h.val)).toNat : ℝ) : EReal) = _
  by_cases e : Cert.Spec.hd k = h
  · have e' : k.val / 16 = h.val := by rw [← e]; rfl
    rw [if_pos e, e', beq_self_eq_true]
    simp
  · have e' : k.val / 16 ≠ h.val := fun c => e (Fin.ext c)
    have ne : (BitVec.ofNat 32 (k.val / 16) == BitVec.ofNat 32 h.val) = false := by
      rw [beq_eq_false_iff_ne]
      intro c
      have := congrArg BitVec.toNat c
      rw [BitVec.toNat_ofNat, BitVec.toNat_ofNat] at this
      omega
    rw [if_neg e, ne]
    simp

/-! ## The arrays the host lines compute, as functions of what they read -/

/-- The column numbers `0 … 127` as a `[128, 1]` array of words. -/
def colWords : S128x1.Idx → BitVec 32 := broadcastInDim S128x1 ![0] bcast_S128_S128x1_0 (iotaInDim S128 32 0)

/-- The floor quotient of a `[128, 1]` array of words by a scalar word, lane by lane, as the lines of the outlined
    floor division compute it: the quotient rounded toward zero, lowered by one where the signs differ and the
    remainder is not zero. -/
def fdivArr (x : S128x1.Idx → BitVec 32) (c : S_.Idx → BitVec 32) : S128x1.Idx → BitVec 32 :=
  select
    (andi
      (cmpi .ne (signi x) (broadcastInDim S128x1 ![] bcast_S_S128x1 (signi c)))
      (cmpi .ne (Host.remsi x (broadcastInDim S128x1 ![] bcast_S_S128x1 c))
        (broadcastInDim S128x1 ![] bcast_S_S128x1 (constantI S_ 32 0#32))))
    (subi (Host.divsi x (broadcastInDim S128x1 ![] bcast_S_S128x1 c))
      (broadcastInDim S128x1 ![] bcast_S_S128x1 (constantI S_ 32 1#32)))
    (Host.divsi x (broadcastInDim S128x1 ![] bcast_S_S128x1 c))

/-- The `[128, 8]` selector from the `[128, 1]` array of the columns' head words: the comparison of each column's
    head word with each head number, read unsigned as an extended real. -/
def selArr (q : S128x1.Idx → BitVec 32) : S128x8.Idx → EReal :=
  uitofp (F := Ideal) .f32
    (cmpi .eq (broadcastInDim S128x8 ![0, 1] bcast_S128x1_S128x8_0_1 q)
      (broadcastInDim S128x8 ![0, 1] bcast_S1x8_S128x8_0_1
        (broadcastInDim S1x8 ![1] bcast_S8_S1x8_1 (iotaInDim S8 32 0))))

/-! ## Reading the three stretches of host lines, each from the contents before it -/

/-- The first stretch leaves the column numbers in its `[128, 1]` buffer … -/
theorem first_cols :
    (StableHlo.after (hostOps1 (F := Ideal)) W (Proc.devRef .tc main_v33) : S128x1.Idx → BitVec 32) = colWords := by
  dsimp only [Gen.hostOps1]
  after_results_simp
  rfl

/-- … and the word `16` in its scalar buffer. -/
theorem first_sixteen :
    (StableHlo.after (hostOps1 (F := Ideal)) W (Proc.devRef .tc main_c_7) : S_.Idx → BitVec 32) = constantI S_ 32 16#32 := by
  dsimp only [Gen.hostOps1]
  after_results_simp

/-- The outlined floor division leaves the lane-wise floor quotient of the two buffers it reads. -/
theorem second_quot :
    (StableHlo.after (hostOps1_1 (F := Ideal)) W (Proc.devRef .tc main_v34) : S128x1.Idx → BitVec 32)
      = fdivArr (W (Proc.devRef .tc main_v33)) (W (Proc.devRef .tc main_c_7)) := by
  dsimp only [Gen.hostOps1_1]
  after_results_simp
  rfl

/-- The last stretch leaves the selector of the head words it reads … -/
theorem third_sel :
    (StableHlo.after (hostOps1_2 (F := Ideal)) W (Proc.devRef .tc main_v40) : S128x8.Idx → EReal)
      = selArr (W (Proc.devRef .tc main_v34)) := by
  dsimp only [Gen.hostOps1_2]
  after_results_simp
  rfl

/-- … and its transpose. -/
theorem third_selT :
    (StableHlo.after (hostOps1_2 (F := Ideal)) W (Proc.devRef .tc main_v41) : S8x128.Idx → EReal)
      = transpose S8x128 [1, 0] (selArr (W (Proc.devRef .tc main_v34))) transposes_S128x8_S8x128_1_0 := by
  dsimp only [Gen.hostOps1_2]
  after_results_simp
  rfl

/-- After the three stretches the `[128, 8]` buffer holds the selector of the floor quotients of the column numbers
    by 16 … -/
theorem mid_sel :
    (mid W (Proc.devRef .tc main_v40) : S128x8.Idx → EReal) = selArr (fdivArr colWords (constantI S_ 32 16#32)) := by
  show StableHlo.after (hostOps1_2 (F := Ideal)) (StableHlo.after (hostOps1_1 (F := Ideal)) (StableHlo.after (hostOps1 (F := Ideal)) W))
    (Proc.devRef .tc main_v40) = _
  rw [third_sel, second_quot, first_cols, first_sixteen]

/-- … and the `[8, 128]` buffer its transpose. -/
theorem mid_selT :
    (mid W (Proc.devRef .tc main_v41) : S8x128.Idx → EReal)
      = transpose S8x128 [1, 0] (selArr (fdivArr colWords (constantI S_ 32 16#32))) transposes_S128x8_S8x128_1_0 := by
  show StableHlo.after (hostOps1_2 (F := Ideal)) (StableHlo.after (hostOps1_1 (F := Ideal)) (StableHlo.after (hostOps1 (F := Ideal)) W))
    (Proc.devRef .tc main_v41) = _
  rw [third_selT, second_quot, first_cols, first_sixteen]

/-! ## The arrays at an index -/

/-- The column numbers at row `k`: the word of `k`. -/
theorem colWords_apply (k : Fin 128) (z : Fin 1) : colWords (ix2 k z) = BitVec.ofNat 32 k.val := rfl

/-- The lane-wise floor quotient at a lane: the floor quotient of the lane's word by the scalar word. -/
theorem fdivArr_apply (x : S128x1.Idx → BitVec 32) (c : S_.Idx → BitVec 32) (i : S128x1.Idx) :
    fdivArr x c i = fdivWord (x i) (c ix0) := by
  have e : ∀ j : S_.Idx, j = ix0 := fun j => funext fun a => a.elim0
  unfold fdivArr fdivWord
  show Scalar.select (IntOp.andi (IntOp.cmpi .ne (sgn (x i)) (sgn (c _))) (IntOp.cmpi .ne (IntOp.remsi .host (x i) (c _)) 0#32))
      (IntOp.subi (IntOp.divsi .host (x i) (c _)) 1#32) (IntOp.divsi .host (x i) (c _)) = _
  simp only [e]

/-- The selector at column `k` and head `h`: the comparison of the column's head word with the word of `h`. -/
theorem selArr_apply (q : S128x1.Idx → BitVec 32) (k : Fin 128) (h : Fin 8) :
    selArr q (ix2 k h) = FloatOps.uitofp (F := Ideal) .f32 (IntOp.cmpi .eq (q (ix2 k 0)) (BitVec.ofNat 32 h.val)) := by
  unfold selArr
  show FloatOps.uitofp (F := Ideal) .f32 (IntOp.cmpi .eq
      (broadcastInDim S128x8 ![0, 1] bcast_S128x1_S128x8_0_1 q (ix2 k h))
      (broadcastInDim S128x8 ![0, 1] bcast_S1x8_S128x8_0_1
        (broadcastInDim S1x8 ![1] bcast_S8_S1x8_1 (iotaInDim S8 32 0)) (ix2 k h))) = _
  have e1 : broadcastInDim S128x8 ![0, 1] bcast_S128x1_S128x8_0_1 q (ix2 k h) = q (ix2 k 0) :=
    broadcastInDim_apply _ _ q _ (ix2 k 0) fun a => match a with | ⟨0, _⟩ => rfl | ⟨1, _⟩ => rfl
  have e2 : broadcastInDim S128x8 ![0, 1] bcast_S1x8_S128x8_0_1
      (broadcastInDim S1x8 ![1] bcast_S8_S1x8_1 (iotaInDim S8 32 0)) (ix2 k h) = BitVec.ofNat 32 h.val := rfl
  rw [e1, e2]

/-- The selector of the floor quotients of the column numbers by 16, at column `k` and head `h`: `1` when the
    column belongs to the head, else `0`. -/
theorem sel_apply (k : Fin 128) (h : Fin 8) :
    selArr (fdivArr colWords (constantI S_ 32 16#32)) (ix2 k h) = if Cert.Spec.hd k = h then (1 : EReal) else 0 := by
  rw [selArr_apply, fdivArr_apply, colWords_apply]
  show FloatOps.uitofp (F := Ideal) .f32 (IntOp.cmpi .eq (fdivWord (BitVec.ofNat 32 k.val) 16#32) (BitVec.ofNat 32 h.val)) = _
  rw [fdivWord_sixteen]
  exact sel_word k h

/-! ## The two selector matrices after the host lines between the regions -/

/-- The `[128, 8]` matrix: entry `(k, h)` is `1` when column `k` belongs to head `h`, else `0`. -/
theorem mid_v40 (k : Fin 128) (h : Fin 8) :
    mid W (Proc.devRef .tc main_v40) (ix2 k h) = if Cert.Spec.hd k = h then (1 : EReal) else 0 :=
  (congrFun (mid_sel W) (ix2 k h)).trans (sel_apply k h)

/-- The `[8, 128]` matrix is its transpose: entry `(h, k)` is `1` when column `k` belongs to head `h`, else `0`. -/
theorem mid_v41 (h : Fin 8) (k : Fin 128) :
    mid W (Proc.devRef .tc main_v41) (ix2 h k) = if Cert.Spec.hd k = h then (1 : EReal) else 0 :=
  (congrFun (mid_selT W) (ix2 h k)).trans ((transpose_ix2_apply _ _ h k).trans (sel_apply k h))

end Cert.KernelIdeal.HostSel

end
-- ==== Proof.KernelValue.lean ====
/-
  The kernel's two results, read off the run's last boundary: on the extended reals each is the layer's function of
  the twelve argument arrays.

  The last boundary's contents are a fold from the launch memory: the four bias rows; the first region, which leaves
  the three projections of the node rows; the host lines that pad the edge arrays, shift negative index words, gather
  the projected rows of each edge's two ends and build the two head-selector matrices; the second region, which
  leaves each padded edge row's score, messages and weights; and the last host lines, which add messages and weights
  up by destination, divide, and cut the score back to the real edges. Each step is read at the rows of REAL edges
  only: a padded row's destination word is the row count, which lands on no row, so padded rows drop out of both sums
  (`sum_pad`), and the score's padded rows are cut away.
-/
import proofs.«115140_j17506286698742_2_alg».proof.Proof.Gen.KernelIdeal.Frame
import proofs.«115140_j17506286698742_2_alg».proof.Proof.Spec
import proofs.«115140_j17506286698742_2_alg».proof.Proof.Iface
import proofs.«115140_j17506286698742_2_alg».proof.Proof.IfaceTail
import proofs.«115140_j17506286698742_2_alg».proof.Proof.R0Value
import proofs.«115140_j17506286698742_2_alg».proof.Proof.R1Value
import proofs.«115140_j17506286698742_2_alg».proof.Proof.HostEnds
import proofs.«115140_j17506286698742_2_alg».proof.Proof.HostMid
import proofs.«115140_j17506286698742_2_alg».proof.Proof.HostSel

noncomputable section

open scoped BigOperators
open Idealize.ShloMosaic Idealize.ShloMosaic.TcCoe Idealize.SL.Sem Idealize.ShloMosaic.ValueIdx Cert.Lib.RowIndex

namespace Cert.KernelIdeal.KValue

open Cert.KernelIdeal Cert.KernelIdeal.Gen Cert.KernelIdeal.Host Cert.Spec Cert.Lib.RowIndex

variable (m : (ℓ : Loc nD τ sig) → Buf (Elt Ideal) ℓ) (ρ : Dev nD → PrngReg) (c : Dev nD)

/-- The twelve argument arrays as launched on core `c`. -/
def args : Cert.Spec.Args where
  h := m ((c.tc : Thread nD τ).loc main_arg0)
  e := m ((c.tc : Thread nD τ).loc main_arg1)
  src := m ((c.tc : Thread nD τ).loc main_arg2)
  dst := m ((c.tc : Thread nD τ).loc main_arg3)
  Wq := m ((c.tc : Thread nD τ).loc main_arg4)
  bq := m ((c.tc : Thread nD τ).loc main_arg5)
  Wk := m ((c.tc : Thread nD τ).loc main_arg6)
  bk := m ((c.tc : Thread nD τ).loc main_arg7)
  Wv := m ((c.tc : Thread nD τ).loc main_arg8)
  bv := m ((c.tc : Thread nD τ).loc main_arg9)
  We := m ((c.tc : Thread nD τ).loc main_arg10)
  be := m ((c.tc : Thread nD τ).loc main_arg11)

/-! ## Buffers no line before a boundary writes -/

/-- Before the first region only the four bias rows are written. -/
theorem W1_keep (b : Ref sig .tc) (h0 : b ≠ main_v0) (h1 : b ≠ main_v1) (h2 : b ≠ main_v2) (h3 : b ≠ main_v3) :
    W1 m ρ c (Proc.devRef .tc b) = W0 m ρ c (Proc.devRef .tc b) :=
  HostEnds.pre_keep (W0 m ρ c) b h0 h1 h2 h3

/-- A buffer that is neither a bias row nor an array of the first region holds its launch contents when the first
    region is left. -/
theorem W2_keep (b : Ref sig .tc) (hb : ∀ w, Pipeline.arrRef spec0 w ≠ b)
    (h0 : b ≠ main_v0) (h1 : b ≠ main_v1) (h2 : b ≠ main_v2) (h3 : b ≠ main_v3) :
    W2 m ρ c (Proc.devRef .tc b) = W0 m ρ c (Proc.devRef .tc b) :=
  (W2_of_ne m ρ c b hb).trans (W1_keep m ρ c b h0 h1 h2 h3)

theorem W2_arg1 : W2 m ρ c (Proc.devRef .tc main_arg1) = (args m c).e :=
  W2_keep m ρ c main_arg1 (by decide) (by decide) (by decide) (by decide) (by decide)
theorem W2_arg2 : W2 m ρ c (Proc.devRef .tc main_arg2) = (args m c).src :=
  W2_keep m ρ c main_arg2 (by decide) (by decide) (by decide) (by decide) (by decide)
theorem W2_arg3 : W2 m ρ c (Proc.devRef .tc main_arg3) = (args m c).dst :=
  W2_keep m ρ c main_arg3 (by decide) (by decide) (by decide) (by decide) (by decide)
theorem W2_arg10 : W2 m ρ c (Proc.devRef .tc main_arg10) = (args m c).We :=
  W2_keep m ρ c main_arg10 (by decide) (by decide) (by decide) (by decide) (by decide)

/-- The edge bias row at the first region's exit is the bias vector. -/
theorem W2_v3 (j : Fin 128) : W2 m ρ c (Proc.devRef .tc main_v3) (ix2 (0 : Fin 1) j) = (args m c).be (ix1 j) :=
  (congrFun (W2_of_ne m ρ c main_v3 (by decide)) (ix2 (0 : Fin 1) j)).trans (HostEnds.pre_v3 (W0 m ρ c) j)

/-! ## The first region's three arrays -/

theorem V1_arg0 : V1 m ρ c main_arg0 = (args m c).h := W1_keep m ρ c main_arg0 (by decide) (by decide) (by decide) (by decide)
theorem V1_arg4 : V1 m ρ c main_arg4 = (args m c).Wq := W1_keep m ρ c main_arg4 (by decide) (by decide) (by decide) (by decide)
theorem V1_arg6 : V1 m ρ c main_arg6 = (args m c).Wk := W1_keep m ρ c main_arg6 (by decide) (by decide) (by decide) (by decide)
theorem V1_arg8 : V1 m ρ c main_arg8 = (args m c).Wv := W1_keep m ρ c main_arg8 (by decide) (by decide) (by decide) (by decide)

/-- The query rows. -/
theorem W2_Q (n : Fin 50000) (k : Fin 128) : W2 m ρ c (Proc.devRef .tc main_v4_0) (ix2 n k) = (args m c).Q n k := by
  refine (congrFun (W2_arr m ρ c 7) (ix2 n k)).trans ((R0.out7 (V1 m ρ) c n k).trans ?_)
  unfold Cert.Spec.Args.Q
  rw [V1_arg0, V1_arg4]
  exact congrArg (fun b => Cert.Spec.rowLin _ _ b k) (funext fun j => HostEnds.pre_v0 (W0 m ρ c) j)
/-- The key rows. -/
theorem W2_K (n : Fin 50000) (k : Fin 128) : W2 m ρ c (Proc.devRef .tc main_v4_1) (ix2 n k) = (args m c).K n k := by
  refine (congrFun (W2_arr m ρ c 8) (ix2 n k)).trans ((R0.out8 (V1 m ρ) c n k).trans ?_)
  unfold Cert.Spec.Args.K
  rw [V1_arg0, V1_arg6]
  exact congrArg (fun b => Cert.Spec.rowLin _ _ b k) (funext fun j => HostEnds.pre_v1 (W0 m ρ c) j)
/-- The value rows. -/
theorem W2_V (n : Fin 50000) (k : Fin 128) : W2 m ρ c (Proc.devRef .tc main_v4_2) (ix2 n k) = (args m c).V n k := by
  refine (congrFun (W2_arr m ρ c 9) (ix2 n k)).trans ((R0.out9 (V1 m ρ) c n k).trans ?_)
  unfold Cert.Spec.Args.V
  rw [V1_arg0, V1_arg8]
  exact congrArg (fun b => Cert.Spec.rowLin _ _ b k) (funext fun j => HostEnds.pre_v2 (W0 m ρ c) j)

/-! ## The second region's entry contents at the rows of real edges -/

/-- The second region is entered from the contents the host lines between the regions leave. -/
theorem V5_eq (b : Ref sig .tc) : V5 m ρ c b = mid (W2 m ρ c) (Proc.devRef .tc b) := rfl

theorem V5_Kg (e : Fin 625000) : (fun k => V5 m ρ c main_v17 (ix2 (padRow e) k)) = (args m c).K ((args m c).srcRow e) :=
  funext fun k => (HostMid.mid_v17 (W2 m ρ c) e k).trans (by rw [W2_arg2]; exact W2_K m ρ c _ k)
theorem V5_Qg (e : Fin 625000) : (fun k => V5 m ρ c main_v24 (ix2 (padRow e) k)) = (args m c).Q ((args m c).dstRow e) :=
  funext fun k => (HostMid.mid_v24 (W2 m ρ c) e k).trans (by rw [W2_arg3]; exact W2_Q m ρ c _ k)
theorem V5_Vg (e : Fin 625000) : (fun k => V5 m ρ c main_v31 (ix2 (padRow e) k)) = (args m c).V ((args m c).srcRow e) :=
  funext fun k => (HostMid.mid_v31 (W2 m ρ c) e k).trans (by rw [W2_arg2]; exact W2_V m ρ c _ k)
theorem V5_e (e : Fin 625000) : (fun k => V5 m ρ c main_v10 (ix2 (padRow e) k)) = fun k => (args m c).e (ix2 e k) :=
  funext fun k => (HostMid.mid_v10 (W2 m ρ c) e k).trans (by rw [W2_arg1])
theorem V5_We : V5 m ρ c main_arg10 = (args m c).We := (HostMid.mid_keep_arg10 (W2 m ρ c)).trans (W2_arg10 m ρ c)
theorem V5_be : (fun j => V5 m ρ c main_v3 (ix2 (0 : Fin 1) j)) = fun j => (args m c).be (ix1 j) :=
  funext fun j => (congrFun (HostMid.mid_keep_v3 (W2 m ρ c)) (ix2 (0 : Fin 1) j)).trans (W2_v3 m ρ c j)

theorem hG (k : Fin 128) (h : Fin 8) : V5 m ρ c main_v40 (ix2 k h) = if Cert.Spec.hd k = h then (1 : EReal) else 0 :=
  HostSel.mid_v40 (W2 m ρ c) k h
theorem hGt (h : Fin 8) (k : Fin 128) : V5 m ρ c main_v41 (ix2 h k) = if Cert.Spec.hd k = h then (1 : EReal) else 0 :=
  HostSel.mid_v41 (W2 m ρ c) h k

/-- The score row of a real edge. -/
theorem scoreRow_eq (e : Fin 625000) : R1.scoreRow (V5 m ρ) c (padRow e) = (args m c).score e := by
  unfold R1.scoreRow Cert.Spec.Args.score Cert.Spec.Args.pe
  rw [V5_Kg, V5_Qg, V5_e, V5_We, V5_be]

/-! ## The second region's three arrays at the rows of real edges -/

theorem W6_score (e : Fin 625000) (k : Fin 128) : scores (W6 m ρ c) (ix2 (padRow e) k) = (args m c).score e k :=
  (congrFun (W6_arr m ρ c 8) (ix2 (padRow e) k)).trans ((R1.out8 (V5 m ρ) c (padRow e) k).trans (congrFun (scoreRow_eq m ρ c e) k))
theorem W6_s (e : Fin 625000) (h : Fin 8) : wts (W6 m ρ c) (ix2 (padRow e) h) = (args m c).s e h :=
  (congrFun (W6_arr m ρ c 10) (ix2 (padRow e) h)).trans ((R1.out10 (V5 m ρ) c (hG m ρ c) (padRow e) h).trans (by
    rw [scoreRow_eq]; rfl))
theorem W6_vs (e : Fin 625000) (k : Fin 128) : msgs (W6 m ρ c) (ix2 (padRow e) k) = (args m c).vs e k :=
  (congrFun (W6_arr m ρ c 9) (ix2 (padRow e) k)).trans ((R1.out9 (V5 m ρ) c (hG m ρ c) (hGt m ρ c) (padRow e) k).trans (by
    rw [scoreRow_eq, V5_Vg]; rfl))

/-- The padded destination words: a real edge's own word, and the row count past them. -/
theorem W6_dst_lt (e : Fin 625000) : dstw (W6 m ρ c) (ix1 (padRow e)) = (args m c).dst (ix1 e) :=
  (congrFun (W6_of_ne m ρ c main_v8 (by decide)) (ix1 (padRow e))).trans
    ((HostMid.mid_v8_lt (W2 m ρ c) e).trans (by rw [W2_arg3]))
theorem W6_dst_ge (e : Fin 626688) (he : 625000 ≤ e.val) : dstw (W6 m ρ c) (ix1 e) = 50000#32 :=
  (congrFun (W6_of_ne m ρ c main_v8 (by decide)) (ix1 e)).trans (HostMid.mid_v8_ge (W2 m ρ c) e he)

/-! ## Dropping the padded rows from a sum over destinations -/

/-- The word of the row count lands on no row. -/
theorem land_count : land 50000 (50000#32 : BitVec 32) = none := by decide

/-- A sum over the padded rows whose destination word lands on row `n` is the sum over the real edges whose word
    does: a padded row's word is the row count, which lands nowhere. -/
theorem sum_pad (f : Fin 626688 → EReal) (w : Fin 626688 → BitVec 32) (dst : Fin 625000 → BitVec 32)
    (hlt : ∀ e, w (padRow e) = dst e) (hge : ∀ e : Fin 626688, 625000 ≤ e.val → w e = 50000#32) (n : Fin 50000) :
    ∑ e ∈ Finset.univ.filter (fun e : Fin 626688 => land 50000 (w e) = some n), f e
      = ∑ e ∈ Finset.univ.filter (fun e : Fin 625000 => land 50000 (dst e) = some n), f (padRow e) := by
  symm
  refine Finset.sum_bij (fun e _ => padRow e) ?_ ?_ ?_ ?_
  · intro e he
    rw [Finset.mem_filter] at he ⊢
    exact ⟨Finset.mem_univ _, by rw [hlt]; exact he.2⟩
  · intro e₁ _ e₂ _ h
    have hv : (padRow e₁).val = (padRow e₂).val := congrArg Fin.val h
    exact Fin.ext hv
  · intro e he
    rw [Finset.mem_filter] at he
    have hlt' : e.val < 625000 := by
      by_contra hc
      have := he.2
      rw [hge e (by omega), land_count] at this
      cases this
    refine ⟨⟨e.val, hlt'⟩, ?_, Fin.ext rfl⟩
    rw [Finset.mem_filter]
    refine ⟨Finset.mem_univ _, ?_⟩
    have := he.2
    rwa [show e = padRow ⟨e.val, hlt'⟩ from Fin.ext rfl, hlt] at this
  · intro e _
    rfl

/-! ## The two results -/

/-- The first result at the last boundary. -/
theorem kernel_hout (n : Fin 50000) (h : Fin 8) (d : Fin 16) :
    W7 m ρ c (Proc.devRef .tc main_v54) (ix3 n h d) = (args m c).hout n h d := by
  refine (HostEnds.tail_hout (W6 m ρ c) n h d).trans ?_
  have hv := (sum_pad (fun e => msgs (W6 m ρ c) (ix2 e (Cert.Spec.col h d))) (fun e => dstw (W6 m ρ c) (ix1 e))
      (fun e => (args m c).dst (ix1 e)) (W6_dst_lt m ρ c) (W6_dst_ge m ρ c) n).trans
    (Finset.sum_congr rfl (fun e _ => W6_vs m ρ c e (Cert.Spec.col h d)))
  have hs := (sum_pad (fun e => wts (W6 m ρ c) (ix2 e h)) (fun e => dstw (W6 m ρ c) (ix1 e))
      (fun e => (args m c).dst (ix1 e)) (W6_dst_lt m ρ c) (W6_dst_ge m ρ c) n).trans
    (Finset.sum_congr rfl (fun e _ => W6_s m ρ c e h))
  unfold Cert.Spec.Args.hout Cert.Spec.Args.wV Cert.Spec.Args.z Cert.Spec.Args.into
  exact congrArg₂ (fun a b => Ideal.div (Cert.Spec.zero + a) ((Cert.Spec.zero + b) + Cert.Spec.eps)) hv hs

/-- The second result at the last boundary. -/
theorem kernel_eout (e : Fin 625000) (h : Fin 8) (d : Fin 16) :
    W7 m ρ c (Proc.devRef .tc main_v56) (ix3 e h d) = (args m c).eout e h d :=
  (HostEnds.tail_eout (W6 m ρ c) e h d).trans (W6_score m ρ c e (Cert.Spec.col h d))

end Cert.KernelIdeal.KValue

end
-- ==== Proof.LibSlabIndex.lean ====
/-
  Slab scatters and slab gathers read at an index.

  When the rows of the operand are themselves `[A, B]` slabs, jax's `segment_sum(data, ids, num_segments = N)` prints
  as a `stablehlo.scatter` with an `add` body over an operand `[N, A, B]`, the `E` words `ids` as an `[E, 1]` array of
  scatter indices, and updates `[E, A, B]`: update slab `e` is added to operand slab `ids[e]`, read signed, when that
  is a slab number, and dropped otherwise (`land`). jax's `x[ids]` prints as a `stablehlo.gather` over the same
  `[E, 1]` array of start indices with slice sizes `[1, A, B]`: result slab `e` is operand slab `ids[e]`, read signed
  and clamped into `[0, N - 1]` (`pick`). This file states both at one element `(n, a, b)`; the sum over the update
  elements that land on `(n, a, b)` is re-indexed as a sum over the update slabs `e` whose index word lands on `n`.
-/
import Idealize.ShloMosaic.PureOps.Ideal
import Idealize.ShloMosaic.PureOps.Contract
import Idealize.ShloMosaic.Lib.ValueIdx
import proofs.«115140_j17506286698742_2_alg».proof.Proof.LibRowIndex

noncomputable section

open scoped BigOperators

namespace Cert.Lib.SlabIndex

open Idealize.ShloMosaic Idealize.ShloMosaic.ValueIdx Cert.Lib.RowIndex

/-! ## The dimension numbers -/

/-- `segment_sum` of slabs: operand `[N, A, B]`, scatter indices `[E, 1]`, updates `[E, A, B]`. -/
abbrev slabScatter (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- `x[ids]` of an array of slabs: operand `[N, A, B]`, start indices `[E, 1]`, result `[E, A, B]`. -/
abbrev slabGather (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-! ## The scatter at an element (extended reals) -/

/-- Axis 0 of a slab scatter's window start: the index word, read signed. -/
theorem slabScatter_start_zero {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (0 : Fin 3) = (idx (ix2 e (0 : Fin 1))).toInt := by
  unfold ScatterDims.start
  rw [dif_pos (show (0 : Fin 3) ∈ (slabScatter N E A B wf).scatterDimsToOperandDims from List.mem_singleton.mpr rfl)]
  have hsi : (slabScatter N E A B wf).siIdx (ix3 e a b) ⟨List.idxOf (0 : Fin 3) (slabScatter N E A B wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]

/-- Axis 1 of a slab scatter's window start: zero (the index names slabs only). -/
theorem slabScatter_start_one {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (1 : Fin 3) = 0 := by
  unfold ScatterDims.start
  rw [dif_neg (show ¬ (1 : Fin 3) ∈ ([0] : List (Fin 3)) by decide)]

/-- Axis 2 of a slab scatter's window start: zero. -/
theorem slabScatter_start_two {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).start (ix3 e a b) idx (2 : Fin 3) = 0 := by
  unfold ScatterDims.start
  rw [dif_neg (show ¬ (2 : Fin 3) ∈ ([0] : List (Fin 3)) by decide)]

/-- Axis 0 of a slab scatter's window coordinate: zero (a window is one slab). -/
theorem slabScatter_window_zero {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (0 : Fin 3) = 0 := by
  unfold ScatterDims.window
  have hm : ¬ (0 : Fin 3) ∈ (slabScatter N E A B wf).sKept :=
    (show ¬ (0 : Fin 3) ∈ (List.finRange 3).filter (fun c => c ∉ ([0] : List (Fin 3))) by decide)
  rw [dif_neg hm]

/-- Axis 1 of a slab scatter's window coordinate: the update's first slab coordinate. -/
theorem slabScatter_window_one {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (1 : Fin 3) = a.val := by
  unfold ScatterDims.window
  have hm : (1 : Fin 3) ∈ (slabScatter N E A B wf).sKept :=
    (show (1 : Fin 3) ∈ (List.finRange 3).filter (fun c => c ∉ ([0] : List (Fin 3))) by decide)
  rw [dif_pos hm]
  rfl

/-- Axis 2 of a slab scatter's window coordinate: the update's second slab coordinate. -/
theorem slabScatter_window_two {N E A B : Nat}
    (wf : ScatterDims.WF ⟨3, ![N, A, B]⟩ ⟨2, ![E, 1]⟩ ⟨3, ![E, A, B]⟩ [1, 2] [0] [0] 1)
    (e : Fin E) (a : Fin A) (b : Fin B) :
    (slabScatter N E A B wf).window (ix3 e a b) (2 : Fin 3) = b.val := by
  unfold ScatterDims.window
  have hm : (2 : Fin 3) ∈ (slabScatter N E A B wf).sKept :=
    (show (2 : Fin 3) ∈ (List.finRange 3).filter (fun c => c ∉ ([0] : List (Fin 3))) by decide)
  rw [dif_pos hm]
  rfl

/-- Where update element `(e, a, b)` of a slab scatter goes: slab `land` of its index word, place `(a, b)`. -/
theorem slabScatter_resultIdx {N E A B w : Nat}
    (wf : ScatterDims.WF ⟨3, ![N, A, B]⟩ ⟨2, ![E, 1]⟩ ⟨3, ![E, A, B]⟩ [1, 2] [0] [0] 1)
    (idx : IVec ⟨2, ![E, 1]⟩ w) (e : Fin E) (a : Fin A) (b : Fin B) :
    (slabScatter N E A B wf).resultIdx? (ix3 e a b) idx
      = (land N (idx (ix2 e (0 : Fin 1)))).map (fun n => ix3 n a b) := by
  have h00 := slabScatter_start_zero wf idx e a b
  have h01 := slabScatter_start_one wf idx e a b
  have h02 := slabScatter_start_two wf idx e a b
  have h10 := slabScatter_window_zero wf e a b
  have h11 := slabScatter_window_one wf e a b
  have h12 := slabScatter_window_two wf e a b
  have hA : (a.val : Int) < (A : Int) := by exact_mod_cast a.isLt
  have hB : (b.val : Int) < (B : Int) := by exact_mod_cast b.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ c : Fin 3, 0 ≤ (slabScatter N E A B wf).start (ix3 e a b) idx c + ((slabScatter N E A B wf).window (ix3 e a b) c : Int)
        ∧ (slabScatter N E A B wf).start (ix3 e a b) idx c + ((slabScatter N E A B wf).window (ix3 e a b) c : Int)
          < ((⟨3, ![N, A, B]⟩ : Shape).size c : Int) := by
      intro c
      match c with
      | ⟨0, _⟩ =>
        show 0 ≤ (slabScatter N E A B wf).start (ix3 e a b) idx (0 : Fin 3) + ((slabScatter N E A B wf).window (ix3 e a b) (0 : Fin 3) : Int)
          ∧ (slabScatter N E A B wf).start (ix3 e a b) idx (0 : Fin 3) + ((slabScatter N E A B wf).window (ix3 e a b) (0 : Fin 3) : Int) < (N : Int)
        rw [h00, h10]; simpa using hc
      | ⟨1, _⟩ =>
        show 0 ≤ (slabScatter N E A B wf).start (ix3 e a b) idx (1 : Fin 3) + ((slabScatter N E A B wf).window (ix3 e a b) (1 : Fin 3) : Int)
          ∧ (slabScatter N E A B wf).start (ix3 e a b) idx (1 : Fin 3) + ((slabScatter N E A B wf).window (ix3 e a b) (1 : Fin 3) : Int) < (A : Int)
        rw [h01, h11]; omega
      | ⟨2, _⟩ =>
        show 0 ≤ (slabScatter N E A B wf).start (ix3 e a b) idx (2 : Fin 3) + ((slabScatter N E A B wf).window (ix3 e a b) (2 : Fin 3) : Int)
          ∧ (slabScatter N E A B wf).start (ix3 e a b) idx (2 : Fin 3) + ((slabScatter N E A B wf).window (ix3 e a b) (2 : Fin 3) : Int) < (B : Int)
        rw [h02, h12]; omega
    rw [dif_pos hall]
    congr 1
    funext c
    refine Fin.ext ?_
    match c with
    | ⟨0, _⟩ =>
      show ((slabScatter N E A B wf).start (ix3 e a b) idx (0 : Fin 3) + ((slabScatter N E A B wf).window (ix3 e a b) (0 : Fin 3) : Int)).toNat
        = (idx (ix2 e (0 : Fin 1))).toInt.toNat
      rw [h00, h10]; simp
    | ⟨1, _⟩ =>
      show ((slabScatter N E A B wf).start (ix3 e a b) idx (1 : Fin 3) + ((slabScatter N E A B wf).window (ix3 e a b) (1 : Fin 3) : Int)).toNat
        = a.val
      rw [h01, h11]; simp
    | ⟨2, _⟩ =>
      show ((slabScatter N E A B wf).start (ix3 e a b) idx (2 : Fin 3) + ((slabScatter N E A B wf).window (ix3 e a b) (2 : Fin 3) : Int)).toNat
        = b.val
      rw [h02, h12]; simp
  · rw [dif_neg hc, Option.map_none]
    unfold ScatterDims.resultIdx?
    rw [dif_neg]
    intro hall
    have := hall (0 : Fin 3)
    rw [h00, h10] at this
    exact hc (by simpa using this)

/-- Update element `j` of a slab scatter goes to `(n, a, b)` exactly when its index word lands on `n` and its place
    in the slab is `(a, b)`. -/
theorem slabScatter_resultIdx_eq_some_iff {N E A B w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) (n : Fin N) (a : Fin A) (b : Fin B) :
    (slabScatter N E A B wf).resultIdx? j idx = some (ix3 n a b)
      ↔ land N (idx (ix2 (j 0) (0 : Fin 1))) = some n ∧ j 1 = a ∧ j 2 = b := by
  obtain ⟨e, a', b', rfl⟩ : ∃ (e : Fin E) (a' : Fin A) (b' : Fin B), j = ix3 e a' b' := ⟨j 0, j 1, j 2, eq_ix3 j⟩
  rw [slabScatter_resultIdx wf idx e a' b']
  show Option.map (fun m => ix3 m a' b') (land N (idx (ix2 e (0 : Fin 1)))) = some (ix3 n a b)
    ↔ land N (idx (ix2 e (0 : Fin 1))) = some n ∧ a' = a ∧ b' = b
  constructor
  · intro hh
    obtain ⟨m, hm, hmn⟩ := Option.map_eq_some_iff.mp hh
    have h0 : m = n := congrFun hmn (0 : Fin 3)
    have h1 : a' = a := congrFun hmn (1 : Fin 3)
    have h2 : b' = b := congrFun hmn (2 : Fin 3)
    exact ⟨by rw [hm, h0], h1, h2⟩
  · rintro ⟨hl, rfl, rfl⟩
    rw [hl]
    rfl

/-- Element `(n, a, b)` of a slab scatter-add: the operand's element plus the sum, over the update slabs `e` whose
    index word lands on `n`, of the update's element `(e, a, b)`. -/
theorem scatterAdd_slabs_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (slabScatter N E A B wf) x idx upd (ix3 n a b)
      = (x (ix3 n a b) + ∑ e ∈ Finset.univ.filter (fun e : Fin E => land N (idx (ix2 e (0 : Fin 1))) = some n),
          upd (ix3 e a b) : EReal) := by
  show (x (ix3 n a b) + ∑ j ∈ Finset.univ.filter
      (fun j => (slabScatter N E A B wf).resultIdx? j idx = some (ix3 n a b)), upd j : EReal) = _
  congr 1
  refine Finset.sum_nbij' (fun j => j 0) (fun e => ix3 e a b) ?_ ?_ ?_ ?_ ?_
  · intro j hj
    have hj' := (slabScatter_resultIdx_eq_some_iff wf idx j n a b).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (slabScatter_resultIdx_eq_some_iff wf idx (ix3 e a b) n a b).mpr ⟨he', rfl, rfl⟩⟩
  · intro j hj
    have hj' := (slabScatter_resultIdx_eq_some_iff wf idx j n a b).mp (Finset.mem_filter.mp hj).2
    show ix3 (j 0) a b = j
    rw [← hj'.2.1, ← hj'.2.2]
    exact (eq_ix3 j).symm
  · intro e _
    rfl
  · intro j hj
    have hj' := (slabScatter_resultIdx_eq_some_iff wf idx j n a b).mp (Finset.mem_filter.mp hj).2
    show upd j = upd (ix3 (j 0) a b)
    rw [← hj'.2.1, ← hj'.2.2]
    exact congrArg upd (eq_ix3 j)

/-! ## The gather at an element (any element type) -/

/-- Axis 0 of the operand index of a slab gather: the slab the index word picks. -/
theorem slabGather_operandIdx_zero {N E A B w : Nat} (hN : 0 < N)
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (0 : Fin 3)).val = (pick N hN (idx (ix2 e (0 : Fin 1)))).val := by
  show (slabGather N E A B wf).start (ix3 e a b) idx (0 : Fin 3) + (slabGather N E A B wf).batchCoord (ix3 e a b) (0 : Fin 3)
    + (slabGather N E A B wf).offCoord (ix3 e a b) (0 : Fin 3) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (slabGather N E A B wf).startIndexMap from List.mem_singleton.mpr rfl)]
  have hsi : (slabGather N E A B wf).siIdx (ix3 e a b) ⟨List.idxOf (0 : Fin 3) (slabGather N E A B wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

/-- Axis 1 of the operand index of a slab gather: the result's first slab coordinate. -/
theorem slabGather_operandIdx_one {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (1 : Fin 3)).val = a.val := by
  show (slabGather N E A B wf).start (ix3 e a b) idx (1 : Fin 3) + (slabGather N E A B wf).batchCoord (ix3 e a b) (1 : Fin 3)
    + (slabGather N E A B wf).offCoord (ix3 e a b) (1 : Fin 3) = _
  rw [GatherDims.batchCoord_eq_zero _ _ _ List.not_mem_nil]
  have hs : (slabGather N E A B wf).start (ix3 e a b) idx (1 : Fin 3) = 0 := by
    unfold GatherDims.start
    rw [dif_neg (show ¬ (1 : Fin 3) ∈ ([0] : List (Fin 3)) by decide)]
  rw [hs]
  simp only [Nat.add_zero, Nat.zero_add]
  unfold GatherDims.offCoord
  rw [dif_pos ((GatherDims.mem_sKept _ _).mpr ⟨show ¬ (1 : Fin 3) ∈ ([0] : List (Fin 3)) by decide, List.not_mem_nil⟩)]
  rfl

/-- Axis 2 of the operand index of a slab gather: the result's second slab coordinate. -/
theorem slabGather_operandIdx_two {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B) :
    ((slabGather N E A B wf).operandIdx (ix3 e a b) idx (2 : Fin 3)).val = b.val := by
  show (slabGather N E A B wf).start (ix3 e a b) idx (2 : Fin 3) + (slabGather N E A B wf).batchCoord (ix3 e a b) (2 : Fin 3)
    + (slabGather N E A B wf).offCoord (ix3 e a b) (2 : Fin 3) = _
  rw [GatherDims.batchCoord_eq_zero _ _ _ List.not_mem_nil]
  have hs : (slabGather N E A B wf).start (ix3 e a b) idx (2 : Fin 3) = 0 := by
    unfold GatherDims.start
    rw [dif_neg (show ¬ (2 : Fin 3) ∈ ([0] : List (Fin 3)) by decide)]
  rw [hs]
  simp only [Nat.add_zero, Nat.zero_add]
  unfold GatherDims.offCoord
  rw [dif_pos ((GatherDims.mem_sKept _ _).mpr ⟨show ¬ (2 : Fin 3) ∈ ([0] : List (Fin 3)) by decide, List.not_mem_nil⟩)]
  rfl

/-- Element `(e, a, b)` of a slab gather: the operand at the slab the index word picks, place `(a, b)`. -/
theorem gather_slabs_apply {α : Type} {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGather N E A B wf) x idx (ix3 e a b) = x (ix3 (pick N hN (idx (ix2 e (0 : Fin 1)))) a b) := by
  unfold Host.gather
  congr 1
  funext c
  refine Fin.ext ?_
  match c with
  | ⟨0, _⟩ => exact slabGather_operandIdx_zero hN wf idx e a b
  | ⟨1, _⟩ => exact slabGather_operandIdx_one wf idx e a b
  | ⟨2, _⟩ => exact slabGather_operandIdx_two wf idx e a b

end Cert.Lib.SlabIndex

end
-- ==== Proof.RefValue.lean ====
/-
  The reference program's stages are the specification's functions, index by index.

  The reference computes, in order: four projections (a matrix product plus a broadcast bias row, re-laid as 8 heads
  of 16 entries — entry `(h, d)` is column `16 h + d`); three gathers of 8 x 16 slabs at index words that are first
  shifted by the row count when negative and then clamped into the rows; the score `((K[src] * Q[dst]) / 4) * pe`,
  where dividing by the real 4 is multiplying by the real 1/4; per head the exponential of the clamped sum of the
  16 scores; the messages `V[src] * s`; two scatter-adds into zeros at the raw destination words (an update whose word
  is not a row number is dropped); and the quotient of the two sums, the second shifted by a small constant.
  Each stage is read at an element `(row, h, d)` and identified with the specification's function of the same name.
-/
import proofs.«115140_j17506286698742_2_alg».proof.Proof.Gen.ReferenceIdeal.Read
import proofs.«115140_j17506286698742_2_alg».proof.Proof.Spec
import proofs.«115140_j17506286698742_2_alg».proof.Proof.LibRowIndex
import proofs.«115140_j17506286698742_2_alg».proof.Proof.LibSlabIndex
import proofs.«115140_j17506286698742_2_alg».proof.Proof.LibPlainDot

noncomputable section

open scoped BigOperators

namespace Cert.RefValue

open Cert.ReferenceIdeal Cert.ReferenceIdeal.Read Idealize.ShloMosaic Idealize.ShloMosaic.ValueIdx
open Cert.Lib.RowIndex Cert.Lib.SlabIndex

/-! ## The two literals of the score's scale -/

/-- The word of `4.0` denotes the real 4. -/
theorem four_eq : Spec.four = ((4 : ℝ) : EReal) := by
  show Ideal.ofBits .f32 0x40800000#32 = _
  simp [Ideal.ofBits, Ideal.ieee, -EReal.coe_mul]; norm_num

/-- The word of `0.25` denotes the real 1/4. -/
theorem quarter_eq : Spec.quarter = ((1 / 4 : ℝ) : EReal) := by
  show Ideal.ofBits .f32 0x3E800000#32 = _
  simp [Ideal.ofBits, Ideal.ieee, -EReal.coe_mul]; norm_num

/-- Dividing by 4 is multiplying by 1/4, on all of the extended reals. -/
theorem div_four (x : EReal) : Ideal.div x Spec.four = x * Spec.quarter := by
  rw [four_eq, quarter_eq]
  exact Ideal.div_coe (by norm_num) x

/-! ## The projections: a row times a matrix plus a bias, at entry `d` of head `h` -/

/-- Row-major position `(r * 8 + h) * 16 + d` of the re-laid array is row `r`, column `16 h + d` of the matrix. -/
theorem idx_q (n : Fin 50000) (h : Fin 8) (d : Fin 16) : idx_main_v4 (ix3 n h d) = ix2 n (Spec.col h d) :=
  funext fun a => Fin.ext (by
    have hh := h.isLt
    have hd := d.isLt
    match a with
    | ⟨0, _⟩ => show ((n.val * 8 + h.val) * 16 + d.val) / 128 = n.val; omega
    | ⟨1, _⟩ => show ((n.val * 8 + h.val) * 16 + d.val) % 128 = 16 * h.val + d.val; omega)

/-- The query projection at node `n`, head `h`, entry `d`: the node's row times `Wq` plus `bq`, at column `16 h + d`. -/
theorem q_at (x0 : (⟨S50000x128, .f32⟩ : BufTy).Contents (Elt Ideal)) (x4 : (⟨S128x128, .f32⟩ : BufTy).Contents (Elt Ideal)) (x5 : (⟨S128, .f32⟩ : BufTy).Contents (Elt Ideal)) (n : Fin 50000) (h : Fin 8) (d : Fin 16) :
    val_main_v4 (F := Ideal) x0 x4 x5 (ix3 n h d)
      = Spec.rowLin (fun k => x0 (ix2 n k)) x4 (fun j => x5 (ix1 j)) (Spec.col h d) := by
  rw [val_main_v4_apply, val_main_v3_apply, idx_q, val_main_v0_apply, val_main_v2_apply, val_main_v1_apply]
  unfold Spec.rowLin
  rw [Ideal.addf_def]
  refine congrArg₂ (· + ·) (Finset.sum_congr rfl fun k _ => ?_) (congrArg x5 ?_)
  · refine congrArg₂ (· * ·) (congrArg x0 ?_) (congrArg x4 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-- Row-major position `(r * 8 + h) * 16 + d` of the re-laid array is row `r`, column `16 h + d` of the matrix. -/
theorem idx_k (n : Fin 50000) (h : Fin 8) (d : Fin 16) : idx_main_v9 (ix3 n h d) = ix2 n (Spec.col h d) :=
  funext fun a => Fin.ext (by
    have hh := h.isLt
    have hd := d.isLt
    match a with
    | ⟨0, _⟩ => show ((n.val * 8 + h.val) * 16 + d.val) / 128 = n.val; omega
    | ⟨1, _⟩ => show ((n.val * 8 + h.val) * 16 + d.val) % 128 = 16 * h.val + d.val; omega)

/-- The key projection at node `n`, head `h`, entry `d`. -/
theorem k_at (x0 : (⟨S50000x128, .f32⟩ : BufTy).Contents (Elt Ideal)) (x6 : (⟨S128x128, .f32⟩ : BufTy).Contents (Elt Ideal)) (x7 : (⟨S128, .f32⟩ : BufTy).Contents (Elt Ideal)) (n : Fin 50000) (h : Fin 8) (d : Fin 16) :
    val_main_v9 (F := Ideal) x0 x6 x7 (ix3 n h d)
      = Spec.rowLin (fun k => x0 (ix2 n k)) x6 (fun j => x7 (ix1 j)) (Spec.col h d) := by
  rw [val_main_v9_apply, val_main_v8_apply, idx_k, val_main_v5_apply, val_main_v7_apply, val_main_v6_apply]
  unfold Spec.rowLin
  rw [Ideal.addf_def]
  refine congrArg₂ (· + ·) (Finset.sum_congr rfl fun k _ => ?_) (congrArg x7 ?_)
  · refine congrArg₂ (· * ·) (congrArg x0 ?_) (congrArg x6 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-- Row-major position `(r * 8 + h) * 16 + d` of the re-laid array is row `r`, column `16 h + d` of the matrix. -/
theorem idx_v (n : Fin 50000) (h : Fin 8) (d : Fin 16) : idx_main_v14 (ix3 n h d) = ix2 n (Spec.col h d) :=
  funext fun a => Fin.ext (by
    have hh := h.isLt
    have hd := d.isLt
    match a with
    | ⟨0, _⟩ => show ((n.val * 8 + h.val) * 16 + d.val) / 128 = n.val; omega
    | ⟨1, _⟩ => show ((n.val * 8 + h.val) * 16 + d.val) % 128 = 16 * h.val + d.val; omega)

/-- The value projection at node `n`, head `h`, entry `d`. -/
theorem v_at (x0 : (⟨S50000x128, .f32⟩ : BufTy).Contents (Elt Ideal)) (x8 : (⟨S128x128, .f32⟩ : BufTy).Contents (Elt Ideal)) (x9 : (⟨S128, .f32⟩ : BufTy).Contents (Elt Ideal)) (n : Fin 50000) (h : Fin 8) (d : Fin 16) :
    val_main_v14 (F := Ideal) x0 x8 x9 (ix3 n h d)
      = Spec.rowLin (fun k => x0 (ix2 n k)) x8 (fun j => x9 (ix1 j)) (Spec.col h d) := by
  rw [val_main_v14_apply, val_main_v13_apply, idx_v, val_main_v10_apply, val_main_v12_apply, val_main_v11_apply]
  unfold Spec.rowLin
  rw [Ideal.addf_def]
  refine congrArg₂ (· + ·) (Finset.sum_congr rfl fun k _ => ?_) (congrArg x9 ?_)
  · refine congrArg₂ (· * ·) (congrArg x0 ?_) (congrArg x8 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-- Row-major position `(r * 8 + h) * 16 + d` of the re-laid array is row `r`, column `16 h + d` of the matrix. -/
theorem idx_pe (e : Fin 625000) (h : Fin 8) (d : Fin 16) : idx_main_v19 (ix3 e h d) = ix2 e (Spec.col h d) :=
  funext fun a => Fin.ext (by
    have hh := h.isLt
    have hd := d.isLt
    match a with
    | ⟨0, _⟩ => show ((e.val * 8 + h.val) * 16 + d.val) / 128 = e.val; omega
    | ⟨1, _⟩ => show ((e.val * 8 + h.val) * 16 + d.val) % 128 = 16 * h.val + d.val; omega)

/-- The edge projection at edge `e`, head `h`, entry `d`. -/
theorem pe_at (x1 : (⟨S625000x128, .f32⟩ : BufTy).Contents (Elt Ideal)) (x10 : (⟨S128x128, .f32⟩ : BufTy).Contents (Elt Ideal)) (x11 : (⟨S128, .f32⟩ : BufTy).Contents (Elt Ideal)) (e : Fin 625000) (h : Fin 8) (d : Fin 16) :
    val_main_v19 (F := Ideal) x1 x10 x11 (ix3 e h d)
      = Spec.rowLin (fun k => x1 (ix2 e k)) x10 (fun j => x11 (ix1 j)) (Spec.col h d) := by
  rw [val_main_v19_apply, val_main_v18_apply, idx_pe, val_main_v15_apply, val_main_v17_apply, val_main_v16_apply]
  unfold Spec.rowLin
  rw [Ideal.addf_def]
  refine congrArg₂ (· + ·) (Finset.sum_congr rfl fun k _ => ?_) (congrArg x11 ?_)
  · refine congrArg₂ (· * ·) (congrArg x1 ?_) (congrArg x10 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-! ## The index words: shifted by the row count when negative -/

/-- The start index of the gather of key slabs for edge `e`: the source word, shifted by 50000 when negative. -/
theorem word_k (x2 : (⟨S625000, .i32⟩ : BufTy).Contents (Elt Ideal)) (e : Fin 625000) :
    val_main_v25 (F := Ideal) x2 (ix2 e (0 : Fin 1)) = Spec.nrm (x2 (ix1 e)) := by
  rw [val_main_v25_apply, val_main_v24_apply, val_main_v21_apply, val_main_v23_apply, val_main_v20_apply,
    val_main_v22_apply, val_main_c_apply, val_main_c_0_apply]
  have e1 : idx_main_v25 (ix2 e (0 : Fin 1)) = ix1 e := funext fun a => by match a with | ⟨0, _⟩ => rfl
  rw [e1]
  rfl

/-- The start index of the gather of query slabs for edge `e`: the destination word, shifted by 50000 when negative. -/
theorem word_q (x3 : (⟨S625000, .i32⟩ : BufTy).Contents (Elt Ideal)) (e : Fin 625000) :
    val_main_v32 (F := Ideal) x3 (ix2 e (0 : Fin 1)) = Spec.nrm (x3 (ix1 e)) := by
  rw [val_main_v32_apply, val_main_v31_apply, val_main_v28_apply, val_main_v30_apply, val_main_v27_apply,
    val_main_v29_apply, val_main_c_1_apply, val_main_c_2_apply]
  have e1 : idx_main_v32 (ix2 e (0 : Fin 1)) = ix1 e := funext fun a => by match a with | ⟨0, _⟩ => rfl
  rw [e1]
  rfl

/-- The start index of the gather of value slabs for edge `e`: the source word, shifted by 50000 when negative. -/
theorem word_v (x2 : (⟨S625000, .i32⟩ : BufTy).Contents (Elt Ideal)) (e : Fin 625000) :
    val_main_v47 (F := Ideal) x2 (ix2 e (0 : Fin 1)) = Spec.nrm (x2 (ix1 e)) := by
  rw [val_main_v47_apply, val_main_v46_apply, val_main_v43_apply, val_main_v45_apply, val_main_v42_apply,
    val_main_v44_apply, val_main_c_6_apply, val_main_c_7_apply]
  have e1 : idx_main_v47 (ix2 e (0 : Fin 1)) = ix1 e := funext fun a => by match a with | ⟨0, _⟩ => rfl
  rw [e1]
  rfl

/-! ## The gathers: slab `e` of the result is the operand's slab at the row the edge's word picks -/

/-- The printed gather record is the generic gather of 8 x 16 slabs among 50000 by 625000 index words. -/
theorem gather_rec : gather_S50000x8x16_S625000x1_S625000x8x16_12_0_n_n_0_1_1816
    = slabGather 50000 625000 8 16 Facts₀.gather_S50000x8x16_S625000x1_S625000x8x16_12_0_n_n_0_1_1816_wf := rfl

/-- Edge `e`'s gathered key slab: the key projection of its source row. -/
theorem k_src (x0 : (⟨S50000x128, .f32⟩ : BufTy).Contents (Elt Ideal)) (x2 : (⟨S625000, .i32⟩ : BufTy).Contents (Elt Ideal)) (x6 : (⟨S128x128, .f32⟩ : BufTy).Contents (Elt Ideal)) (x7 : (⟨S128, .f32⟩ : BufTy).Contents (Elt Ideal)) (e : Fin 625000) (h : Fin 8) (d : Fin 16) :
    val_main_v26 (F := Ideal) x0 x2 x6 x7 (ix3 e h d)
      = Spec.rowLin (fun k => x0 (ix2 (Spec.rowOf (x2 (ix1 e))) k)) x6 (fun j => x7 (ix1 j)) (Spec.col h d) := by
  unfold val_main_v26
  rw [gather_rec]
  refine (gather_slabs_apply (by decide) _ (val_main_v9 (F := Ideal) x0 x6 x7) (val_main_v25 (F := Ideal) x2) e h d).trans ?_
  rw [word_k]
  exact k_at x0 x6 x7 (Spec.rowOf (x2 (ix1 e))) h d

/-- Edge `e`'s gathered query slab: the query projection of its destination row. -/
theorem q_dst (x0 : (⟨S50000x128, .f32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (e : Fin 625000) (h : Fin 8) (d : Fin 16) :
    val_main_v33 (F := Ideal) x0 x3 x4 x5 (ix3 e h d)
      = Spec.rowLin (fun k => x0 (ix2 (Spec.rowOf (x3 (ix1 e))) k)) x4 (fun j => x5 (ix1 j)) (Spec.col h d) := by
  unfold val_main_v33
  rw [gather_rec]
  refine (gather_slabs_apply (by decide) _ (val_main_v4 (F := Ideal) x0 x4 x5) (val_main_v32 (F := Ideal) x3) e h d).trans ?_
  rw [word_q]
  exact q_at x0 x4 x5 (Spec.rowOf (x3 (ix1 e))) h d

/-- Edge `e`'s gathered value slab: the value projection of its source row. -/
theorem v_src (x0 : (⟨S50000x128, .f32⟩ : BufTy).Contents (Elt Ideal)) (x2 : (⟨S625000, .i32⟩ : BufTy).Contents (Elt Ideal)) (x8 : (⟨S128x128, .f32⟩ : BufTy).Contents (Elt Ideal)) (x9 : (⟨S128, .f32⟩ : BufTy).Contents (Elt Ideal)) (e : Fin 625000) (h : Fin 8) (d : Fin 16) :
    val_main_v48 (F := Ideal) x0 x2 x8 x9 (ix3 e h d)
      = Spec.rowLin (fun k => x0 (ix2 (Spec.rowOf (x2 (ix1 e))) k)) x8 (fun j => x9 (ix1 j)) (Spec.col h d) := by
  unfold val_main_v48
  rw [gather_rec]
  refine (gather_slabs_apply (by decide) _ (val_main_v14 (F := Ideal) x0 x8 x9) (val_main_v47 (F := Ideal) x2) e h d).trans ?_
  rw [word_v]
  exact v_at x0 x8 x9 (Spec.rowOf (x2 (ix1 e))) h d

/-! ## The score, the weights and the messages of an edge -/

/-- The second result: edge `e`'s score at entry `d` of head `h`. The program divides the product of the gathered key
    and query by 4; the specification multiplies it by 1/4. -/
theorem ref_eout (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (e : Fin 625000) (h : Fin 8) (d : Fin 16) :
    val_main_v37 (F := Ideal) x0 x1 x2 x3 x4 x5 x6 x7 x10 x11 (ix3 e h d)
      = (Spec.Args.mk x0 x1 x2 x3 x4 x5 x6 x7 x8 x9 x10 x11).eout e h d := by
  rw [val_main_v37_apply, val_main_v36_apply, val_main_v34_apply, val_main_v35_apply, val_main_cst_apply, k_src, q_dst, pe_at]
  simp only [Ideal.mulf_def, Ideal.hostDivf_def, Ideal.ofBits_def]
  rw [div_four]
  rfl

/-- Edge `e`'s weight for head `h`: the exponential of the head's 16 scores summed from zero and clamped into
    `[-5, 5]`. -/
theorem s_at (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (e : Fin 625000) (h : Fin 8) :
    val_main_v41 (F := Ideal) x0 x1 x2 x3 x4 x5 x6 x7 x10 x11 (ix3 e h (0 : Fin 1))
      = (Spec.Args.mk x0 x1 x2 x3 x4 x5 x6 x7 x8 x9 x10 x11).s e h := by
  rw [val_main_v41_apply, val_main_v40_apply, val_main_call0_v4_apply, val_main_call0_v3_apply, val_main_cst_5_apply,
    val_main_call0_v2_apply, val_main_call0_v1_apply, val_main_call0_v0_apply, val_main_cst_4_apply, val_main_v39_apply,
    val_main_v38_apply, val_main_cst_3_apply]
  simp only [Ideal.hostUnary_exp_def, Ideal.minimumf_def, Ideal.maximumf_def, Ideal.ofBits_def]
  rw [Ideal.ofBits_zero_f32, zero_add]
  unfold Spec.Args.s Spec.rowS
  refine congrArg Ideal.exp (congrArg (min _) (congrArg (max _) (Finset.sum_congr rfl fun k _ => ?_)))
  have ei : idx_main_v38 (idx_main_v39 (ix3 e h (0 : Fin 1))) k = ix3 e h k :=
    funext fun a => by match a with | ⟨0, _⟩ => rfl | ⟨1, _⟩ => rfl | ⟨2, _⟩ => rfl
  rw [ei]
  exact ref_eout x0 x1 x2 x3 x4 x5 x6 x7 x8 x9 x10 x11 e h k

/-- Edge `e`'s message at entry `d` of head `h`: its source row's value projection times its weight for head `h`
    (the head of column `16 h + d`). -/
theorem vs_at (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (e : Fin 625000) (h : Fin 8) (d : Fin 16) :
    val_main_v50 (F := Ideal) x0 x1 x2 x3 x4 x5 x6 x7 x8 x9 x10 x11 (ix3 e h d)
      = (Spec.Args.mk x0 x1 x2 x3 x4 x5 x6 x7 x8 x9 x10 x11).vs e (Spec.col h d) := by
  rw [val_main_v50_apply, val_main_v49_apply, v_src]
  have ei : idx_main_v49 (ix3 e h d) = ix3 e h (0 : Fin 1) :=
    funext fun a => by match a with | ⟨0, _⟩ => rfl | ⟨1, _⟩ => rfl | ⟨2, _⟩ => rfl
  rw [ei, s_at x0 x1 x2 x3 x4 x5 x6 x7 x8 x9 x10 x11 e h, Ideal.mulf_def]
  show _ = (Spec.Args.mk x0 x1 x2 x3 x4 x5 x6 x7 x8 x9 x10 x11).V ((Spec.Args.mk x0 x1 x2 x3 x4 x5 x6 x7 x8 x9 x10 x11).srcRow e) (Spec.col h d) * (Spec.Args.mk x0 x1 x2 x3 x4 x5 x6 x7 x8 x9 x10 x11).s e (Spec.hd (Spec.col h d))
  rw [Spec.hd_col]
  rfl

/-! ## The scatter-adds: a node's sums over the edges whose destination word is its row -/

/-- The printed scatter record of 8 x 16 slabs is the generic one. -/
theorem scatter16_rec : scatter_S50000x8x16_S625000x1_S625000x8x16_12_0_0_1
    = slabScatter 50000 625000 8 16 Facts₀.scatter_S50000x8x16_S625000x1_S625000x8x16_12_0_0_1_wf := rfl

/-- The printed scatter record of 8 x 1 slabs is the generic one. -/
theorem scatter1_rec : scatter_S50000x8x1_S625000x1_S625000x8x1_12_0_0_1
    = slabScatter 50000 625000 8 1 Facts₀.scatter_S50000x8x1_S625000x1_S625000x8x1_12_0_0_1_wf := rfl

/-- The scatter indices are the raw destination words. -/
theorem word_wV (x3 : (⟨S625000, .i32⟩ : BufTy).Contents (Elt Ideal)) (e : Fin 625000) : val_main_v52 (F := Ideal) x3 (ix2 e (0 : Fin 1)) = x3 (ix1 e) := by
  rw [val_main_v52_apply]
  exact congrArg x3 (funext fun a => by match a with | ⟨0, _⟩ => rfl)

/-- The scatter indices of the weight sum are the raw destination words too. -/
theorem word_z (x3 : (⟨S625000, .i32⟩ : BufTy).Contents (Elt Ideal)) (e : Fin 625000) : val_main_v55 (F := Ideal) x3 (ix2 e (0 : Fin 1)) = x3 (ix1 e) := by
  rw [val_main_v55_apply]
  exact congrArg x3 (funext fun a => by match a with | ⟨0, _⟩ => rfl)

/-- Node `n`'s summed messages at entry `d` of head `h`: zero plus the messages of the edges whose destination word
    lands on `n`. -/
theorem wV_at (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (n : Fin 50000) (h : Fin 8) (d : Fin 16) :
    val_main_v53 (F := Ideal) x0 x1 x2 x3 x4 x5 x6 x7 x8 x9 x10 x11 (ix3 n h d)
      = (Spec.Args.mk x0 x1 x2 x3 x4 x5 x6 x7 x8 x9 x10 x11).wV n (Spec.col h d) := by
  unfold val_main_v53
  rw [scatter16_rec]
  refine (scatterAdd_slabs_apply _ (val_main_v51 (F := Ideal)) (val_main_v52 (F := Ideal) x3)
    (val_main_v50 (F := Ideal) x0 x1 x2 x3 x4 x5 x6 x7 x8 x9 x10 x11) n h d).trans ?_
  unfold Spec.Args.wV Spec.Args.into
  refine congrArg₂ (· + ·) ?_ (Finset.sum_congr (Finset.filter_congr fun e _ =>
    Eq.to_iff (congrArg (fun w => land 50000 w = some n) (word_wV x3 e))) fun e _ => vs_at x0 x1 x2 x3 x4 x5 x6 x7 x8 x9 x10 x11 e h d)
  rw [val_main_v51_apply, val_main_cst_8_apply]
  rfl

/-- Node `n`'s summed weights for head `h`: zero plus the weights of the edges whose destination word lands on `n`. -/
theorem z_at (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (n : Fin 50000) (h : Fin 8) :
    val_main_v56 (F := Ideal) x0 x1 x2 x3 x4 x5 x6 x7 x10 x11 (ix3 n h (0 : Fin 1))
      = (Spec.Args.mk x0 x1 x2 x3 x4 x5 x6 x7 x8 x9 x10 x11).z n h := by
  unfold val_main_v56
  rw [scatter1_rec]
  refine (scatterAdd_slabs_apply _ (val_main_v54 (F := Ideal)) (val_main_v55 (F := Ideal) x3)
    (val_main_v41 (F := Ideal) x0 x1 x2 x3 x4 x5 x6 x7 x10 x11) n h (0 : Fin 1)).trans ?_
  unfold Spec.Args.z Spec.Args.into
  refine congrArg₂ (· + ·) ?_ (Finset.sum_congr (Finset.filter_congr fun e _ =>
    Eq.to_iff (congrArg (fun w => land 50000 w = some n) (word_z x3 e))) fun e _ => s_at x0 x1 x2 x3 x4 x5 x6 x7 x8 x9 x10 x11 e h)
  rw [val_main_v54_apply, val_main_cst_9_apply]
  rfl

/-! ## The first result -/

/-- The first result: node `n`'s summed messages at entry `d` of head `h`, divided by its summed weights for head `h`
    plus the small constant. -/
theorem ref_hout (x0 : (⟨S50000x128, .f32⟩ : BufTy).Contents (Elt Ideal)) (x1 : (⟨S625000x128, .f32⟩ : BufTy).Contents (Elt Ideal)) (x2 : (⟨S625000, .i32⟩ : BufTy).Contents (Elt Ideal)) (x3 : (⟨S625000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (n : Fin 50000) (h : Fin 8) (d : Fin 16) :
    val_main_v60 (F := Ideal) x0 x1 x2 x3 x4 x5 x6 x7 x8 x9 x10 x11 (ix3 n h d)
      = (Spec.Args.mk x0 x1 x2 x3 x4 x5 x6 x7 x8 x9 x10 x11).hout n h d := by
  rw [val_main_v60_apply, val_main_v59_apply, val_main_v58_apply, val_main_v57_apply, val_main_cst_10_apply, wV_at]
  have ei : idx_main_v59 (ix3 n h d) = ix3 n h (0 : Fin 1) :=
    funext fun a => by match a with | ⟨0, _⟩ => rfl | ⟨1, _⟩ => rfl | ⟨2, _⟩ => rfl
  rw [ei, z_at x0 x1 x2 x3 x4 x5 x6 x7 x8 x9 x10 x11 n h]
  simp only [Ideal.hostDivf_def, Ideal.addf_def, Ideal.ofBits_def]
  rfl

end Cert.RefValue

end
-- ==== Proof.lean ====
/-
  A graph attention layer: a Pallas implementation in two kernels with host code around them, against a plain jnp
  reference. Claimed: the three programs run and leave their arguments as launched; the idealized kernel is the
  kernel's own text read on the extended reals (the ideal pass rewrote nothing); and on the extended reals the
  idealized kernel and the idealized reference end with equal results, element by element.

  The mathematics of the last claim. Node rows are projected to queries, keys and values (a row times a 128 x 128
  matrix plus a bias row), edge rows likewise. For an edge, the score at a column is the product of its source's key
  and its destination's query, a quarter of it, times the edge's projection; the weight of a head is the exponential
  of the head's sixteen scores summed and clamped into [-5, 5]; the message at a column is the source's value times
  the weight of the column's head. A node's output is the sum of the messages of the edges whose destination word is
  its row, divided by the sum of their weights plus a small constant; the score is the second result. The two
  programs differ in arrangement only. The kernel multiplies by the word of 0.25 where the reference divides by the
  word of 4.0: the same function of every extended real. The kernel sums a head's scores, and spreads a head's weight
  over its columns, by products with 0/1 matrices: x * 1 = x and x * 0 = 0 hold for every extended real, so these are
  the plain sums and the plain choice of a head. The kernel pads the edge arrays to a multiple of its row block and
  gives the padded rows the row count as destination word: a scatter drops a word outside the rows, so padded rows
  add nothing, and the score's padded rows are cut away. The kernel works on [rows, 128] arrays where the reference
  works on [rows, 8, 16]: column 16 h + d is entry d of head h. No step needs the inputs to be finite.

  Proof/Spec.lean states the layer once, row by row. Proof/RefValue.lean reads the reference's stages as the Spec's
  functions; Proof/R0Value.lean and Proof/R1Value.lean read what each kernel region leaves in its output arrays;
  Proof/HostEnds.lean, Proof/HostMid.lean and Proof/HostSel.lean read the host lines around the regions at an index;
  Proof/RunVal.lean is the run with both results named; Proof/KernelValue.lean folds these into the kernel's two
  results. Here the claims are assembled.
-/
import proofs.«115140_j17506286698742_2_alg».proof.Defs
import proofs.«115140_j17506286698742_2_alg».proof.Proof.Gen.Kernel
import proofs.«115140_j17506286698742_2_alg».proof.Proof.Gen.Kernel.Skeleton
import proofs.«115140_j17506286698742_2_alg».proof.Proof.Gen.Kernel.Launch
import proofs.«115140_j17506286698742_2_alg».proof.Proof.Gen.Kernel.Points
import proofs.«115140_j17506286698742_2_alg».proof.Proof.Gen.Kernel.Frame
import proofs.«115140_j17506286698742_2_alg».proof.Proof.Gen.KernelIdeal
import proofs.«115140_j17506286698742_2_alg».proof.Proof.Gen.KernelIdeal.Skeleton
import proofs.«115140_j17506286698742_2_alg».proof.Proof.Gen.KernelIdeal.Launch
import proofs.«115140_j17506286698742_2_alg».proof.Proof.Gen.KernelIdeal.Points
import proofs.«115140_j17506286698742_2_alg».proof.Proof.Gen.KernelIdeal.Frame
import proofs.«115140_j17506286698742_2_alg».proof.Proof.Gen.ReferenceIdeal
import proofs.«115140_j17506286698742_2_alg».proof.Proof.Gen.Pre_finite_inputs
import proofs.«115140_j17506286698742_2_alg».proof.Proof.Gen.ReferenceIdeal.Run
import proofs.«115140_j17506286698742_2_alg».proof.Proof.Gen.ReferenceIdeal.Read
import proofs.«115140_j17506286698742_2_alg».proof.Proof.RunVal
import proofs.«115140_j17506286698742_2_alg».proof.Proof.KernelValue
import proofs.«115140_j17506286698742_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and leaves its arguments as launched: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals both programs end with the same two arrays: element by element each is the layer's
    function of the twelve argument arrays — the kernel's through its two regions and the host lines around them,
    the reference's through its stages — and the two programs' arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v54),
    fun c => Cert.KernelIdeal.Gen.W7 m ρ c (Proc.devRef .tc Cert.KernelIdeal.main_v56),
    Cert.KernelIdeal.RunVal.run_val (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v60_eq]
    obtain ⟨a0, a1, a2, a3, a4, a5, a6, a7, a8, a9, a10, a11⟩ := hagree c
    rw [a0, a1, a2, a3, a4, a5, a6, a7, a8, a9, a10, a11]
    funext j
    obtain ⟨n, h, d, rfl⟩ : ∃ (n : Fin 50000) (h : Fin 8) (d : Fin 16), j = ix3 n h d := ⟨j 0, j 1, j 2, eq_ix3 j⟩
    exact (Cert.RefValue.ref_hout _ _ _ _ _ _ _ _ _ _ _ _ n h d).trans (Cert.KernelIdeal.KValue.kernel_hout m ρ c n h d).symm
  · refine (Cert.ReferenceIdeal.Read.val_main_v37_eq _ _ _ _ _ _ _ _ _ _).trans ?_
    obtain ⟨a0, a1, a2, a3, a4, a5, a6, a7, a8, a9, a10, a11⟩ := hagree c
    rw [a0, a1, a2, a3, a4, a5, a6, a7, a10, a11]
    funext j
    obtain ⟨e, h, d, rfl⟩ : ∃ (e : Fin 625000) (h : Fin 8) (d : Fin 16), j = ix3 e h d := ⟨j 0, j 1, j 2, eq_ix3 j⟩
    exact (Cert.RefValue.ref_eout _ _ _ _ _ _ _ _ (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) _ _ e h d).trans
      (Cert.KernelIdeal.KValue.kernel_eout m ρ c e h d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
